-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S32 .f32) (main_arg24 : FVec F S32x2 .f32) (main_arg25 : FVec F S2 .f32) (main_v98 : IVec S_ 1) (main_v101 : IVec S32x32 1) (main_c_39 : IVec S_ 1) : IVec S_ 1 :=
  let main_v102 : IVec S_ 1 := (fun x v => Host.reduce IntOp.andi x v reducesTo_S32x32_S_d0_1 h_S_) main_v101 main_c_39
  let main_v103 : IVec S_ 1 := andi main_v98 main_v102
  let main_v104 : FVec F S32 .f32 := Host.absf main_arg23
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x2 .f32 := Host.absf main_arg24
  let main_cst_42 : FVec F S_ .f32 := constant S_ .f32 0x7F800000#32
  let main_v110 : FVec F S32x2 .f32 := broadcastInDim S32x2 ![] bcast_S_S32x2 main_cst_42
  let main_v111 : IVec S32x2 1 := cmpf .olt main_v109 main_v110
  let main_c_43 : IVec S_ 1 := constantI S_ 1 1#1
  let main_v112 : IVec S_ 1 := (fun x v => Host.reduce IntOp.andi x v reducesTo_S32x2_S_d0_1 h_S_) main_v111 main_c_43
  let main_v113 : IVec S_ 1 := andi main_v108 main_v112
  let main_v114 : FVec F S2 .f32 := Host.absf main_arg25
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg20 : FVec F S32 .f32) (main_arg21 : FVec F S32 .f32) (main_arg22 : FVec F S32x32 .f32) (main_arg23 : FVec F S32 .f32) (main_arg24 : FVec F S32x2 .f32) (main_arg25 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x32 .f32 := Host.absf main_arg22
  let main_cst_38 : FVec F S_ .f32 := constant S_ .f32 0x7F800000#32
  let main_v100 : FVec F S32x32 .f32 := broadcastInDim S32x32 ![] bcast_S_S32x32 main_cst_38
  let main_v101 : IVec S32x32 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S32x32 .f32) (main_arg17 : FVec F S32 .f32) (main_arg18 : FVec F S32x32 .f32) (main_arg19 : FVec F S32 .f32) (main_arg20 : FVec F S32 .f32) (main_arg21 : FVec F S32 .f32) (main_arg22 : FVec F S32x32 .f32) (main_arg23 : FVec F S32 .f32) (main_arg24 : FVec F S32x2 .f32) (main_arg25 : FVec F S2 .f32) (main_v63 : IVec S_ 1) (main_v67 : IVec S_ 1) : IVec S_ 1 :=
  let main_v68 : IVec S_ 1 := andi main_v63 main_v67
  let main_v69 : FVec F S32x32 .f32 := Host.absf main_arg16
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg18
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S32 .f32) (main_arg14 : FVec F S32 .f32) (main_arg15 : FVec F S32 .f32) (main_arg16 : FVec F S32x32 .f32) (main_arg17 : FVec F S32 .f32) (main_arg18 : FVec F S32x32 .f32) (main_arg19 : FVec F S32 .f32) (main_arg20 : FVec F S32 .f32) (main_arg21 : FVec F S32 .f32) (main_arg22 : FVec F S32x32 .f32) (main_arg23 : FVec F S32 .f32) (main_arg24 : FVec F S32x2 .f32) (main_arg25 : FVec F S2 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32x32 .f32) (main_arg17 : FVec F S32 .f32) (main_arg18 : FVec F S32x32 .f32) (main_arg19 : FVec F S32 .f32) (main_arg20 : FVec F S32 .f32) (main_arg21 : FVec F S32 .f32) (main_arg22 : FVec F S32x32 .f32) (main_arg23 : FVec F S32 .f32) (main_arg24 : FVec F S32x2 .f32) (main_arg25 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S32x32 .f32) (main_arg7 : FVec F S32 .f32) (main_arg8 : FVec F S32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32x32 .f32) (main_arg17 : FVec F S32 .f32) (main_arg18 : FVec F S32x32 .f32) (main_arg19 : FVec F S32 .f32) (main_arg20 : FVec F S32 .f32) (main_arg21 : FVec F S32 .f32) (main_arg22 : FVec F S32x32 .f32) (main_arg23 : FVec F S32 .f32) (main_arg24 : FVec F S32x2 .f32) (main_arg25 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x128 .f32) (main_arg1 : IVec S2x1600000 32) (main_arg2 : FVec F S1600000x1 .f32) (main_arg3 : IVec S100000 32) (main_arg4 : FVec F S128x32 .f32) (main_arg5 : FVec F S32 .f32) (main_arg6 : FVec F S32x32 .f32) (main_arg7 : FVec F S32 .f32) (main_arg8 : FVec F S32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32x32 .f32) (main_arg17 : FVec F S32 .f32) (main_arg18 : FVec F S32x32 .f32) (main_arg19 : FVec F S32 .f32) (main_arg20 : FVec F S32 .f32) (main_arg21 : FVec F S32 .f32) (main_arg22 : FVec F S32x32 .f32) (main_arg23 : FVec F S32 .f32) (main_arg24 : FVec F S32x2 .f32) (main_arg25 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x128 : Shape := ⟨2, ![1600000, 128]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S1600000x32 : Shape := ⟨2, ![1600000, 32]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 183
  | .vmem => 56
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S100000, .i32⟩
  | 4 => ⟨S128x32, .f32⟩
  | 5 => ⟨S32, .f32⟩
  | 6 => ⟨S32x32, .f32⟩
  | 7 => ⟨S32, .f32⟩
  | 8 => ⟨S32, .f32⟩
  | 9 => ⟨S32, .f32⟩
  | 10 => ⟨S32x32, .f32⟩
  | 11 => ⟨S32, .f32⟩
  | 12 => ⟨S32x32, .f32⟩
  | 13 => ⟨S32, .f32⟩
  | 14 => ⟨S32, .f32⟩
  | 15 => ⟨S32, .f32⟩
  | 16 => ⟨S32x32, .f32⟩
  | 17 => ⟨S32, .f32⟩
  | 18 => ⟨S32x32, .f32⟩
  | 19 => ⟨S32, .f32⟩
  | 20 => ⟨S32, .f32⟩
  | 21 => ⟨S32, .f32⟩
  | 22 => ⟨S32x32, .f32⟩
  | 23 => ⟨S32, .f32⟩
  | 24 => ⟨S32x2, .f32⟩
  | 25 => ⟨S2, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S1x32, .f32⟩
  | 45 => ⟨S1x32, .f32⟩
  | 46 => ⟨S100000x32, .f32⟩
  | 47 => ⟨S_, .f32⟩
  | 48 => ⟨S32, .f32⟩
  | 49 => ⟨S1x32, .f32⟩
  | 50 => ⟨S_, .f32⟩
  | 51 => ⟨S1x32, .f32⟩
  | 52 => ⟨S1x32, .f32⟩
  | 53 => ⟨S_, .i32⟩
  | 54 => ⟨S_, .f32⟩
  | 55 => ⟨S32, .f32⟩
  | 56 => ⟨S1x32, .f32⟩
  | 57 => ⟨S_, .f32⟩
  | 58 => ⟨S1x32, .f32⟩
  | 59 => ⟨S1x32, .f32⟩
  | 60 => ⟨S100000x32, .f32⟩
  | 61 => ⟨S100000x32, .f32⟩
  | 62 => ⟨S100000x32, .f32⟩
  | 63 => ⟨S_, .f32⟩
  | 64 => ⟨S_, .f32⟩
  | 65 => ⟨S_, .f32⟩
  | 66 => ⟨S_, .f32⟩
  | 67 => ⟨S32, .f32⟩
  | 68 => ⟨S1x32, .f32⟩
  | 69 => ⟨S1x32, .f32⟩
  | 70 => ⟨S1x32, .f32⟩
  | 71 => ⟨S_, .f32⟩
  | 72 => ⟨S_, .i1⟩
  | 73 => ⟨S_, .f32⟩
  | 74 => ⟨S_, .f32⟩
  | 75 => ⟨S1x32, .f32⟩
  | 76 => ⟨S1x32, .f32⟩
  | 77 => ⟨S1x32, .f32⟩
  | 78 => ⟨S1x32, .f32⟩
  | 79 => ⟨S100000x32, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x32, .f32⟩
  | 89 => ⟨S_, .f32⟩
  | 90 => ⟨S100000x32, .f32⟩
  | 91 => ⟨S1600000x1, .i32⟩
  | 92 => ⟨S100000x32, .f32⟩
  | 93 => ⟨S100000x32, .f32⟩
  | 94 => ⟨S1x32, .f32⟩
  | 95 => ⟨S1x32, .f32⟩
  | 96 => ⟨S100000x32, .f32⟩
  | 97 => ⟨S_, .f32⟩
  | 98 => ⟨S32, .f32⟩
  | 99 => ⟨S1x32, .f32⟩
  | 100 => ⟨S_, .f32⟩
  | 101 => ⟨S1x32, .f32⟩
  | 102 => ⟨S1x32, .f32⟩
  | 103 => ⟨S_, .i32⟩
  | 104 => ⟨S_, .f32⟩
  | 105 => ⟨S32, .f32⟩
  | 106 => ⟨S1x32, .f32⟩
  | 107 => ⟨S_, .f32⟩
  | 108 => ⟨S1x32, .f32⟩
  | 109 => ⟨S1x32, .f32⟩
  | 110 => ⟨S100000x32, .f32⟩
  | 111 => ⟨S100000x32, .f32⟩
  | 112 => ⟨S100000x32, .f32⟩
  | 113 => ⟨S_, .f32⟩
  | 114 => ⟨S_, .f32⟩
  | 115 => ⟨S_, .f32⟩
  | 116 => ⟨S_, .f32⟩
  | 117 => ⟨S32, .f32⟩
  | 118 => ⟨S1x32, .f32⟩
  | 119 => ⟨S1x32, .f32⟩
  | 120 => ⟨S1x32, .f32⟩
  | 121 => ⟨S_, .f32⟩
  | 122 => ⟨S_, .i1⟩
  | 123 => ⟨S_, .f32⟩
  | 124 => ⟨S_, .f32⟩
  | 125 => ⟨S1x32, .f32⟩
  | 126 => ⟨S1x32, .f32⟩
  | 127 => ⟨S1x32, .f32⟩
  | _ => ⟨S100000x128, .f32⟩

abbrev hbmTy0_1 (i : Nat) : BufTy := match i % 128 with
  | 0 => ⟨S1x32, .f32⟩
  | 1 => ⟨S100000x32, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x32, .f32⟩
  | 11 => ⟨S_, .f32⟩
  | 12 => ⟨S100000x32, .f32⟩
  | 13 => ⟨S1600000x1, .i32⟩
  | 14 => ⟨S100000x32, .f32⟩
  | 15 => ⟨S100000x32, .f32⟩
  | 16 => ⟨S1x32, .f32⟩
  | 17 => ⟨S1x32, .f32⟩
  | 18 => ⟨S100000x32, .f32⟩
  | 19 => ⟨S_, .f32⟩
  | 20 => ⟨S32, .f32⟩
  | 21 => ⟨S1x32, .f32⟩
  | 22 => ⟨S_, .f32⟩
  | 23 => ⟨S1x32, .f32⟩
  | 24 => ⟨S1x32, .f32⟩
  | 25 => ⟨S_, .i32⟩
  | 26 => ⟨S_, .f32⟩
  | 27 => ⟨S32, .f32⟩
  | 28 => ⟨S1x32, .f32⟩
  | 29 => ⟨S_, .f32⟩
  | 30 => ⟨S1x32, .f32⟩
  | 31 => ⟨S1x32, .f32⟩
  | 32 => ⟨S100000x32, .f32⟩
  | 33 => ⟨S100000x32, .f32⟩
  | 34 => ⟨S100000x32, .f32⟩
  | 35 => ⟨S_, .f32⟩
  | 36 => ⟨S_, .f32⟩
  | 37 => ⟨S_, .f32⟩
  | 38 => ⟨S_, .f32⟩
  | 39 => ⟨S32, .f32⟩
  | 40 => ⟨S1x32, .f32⟩
  | 41 => ⟨S1x32, .f32⟩
  | 42 => ⟨S1x32, .f32⟩
  | 43 => ⟨S_, .f32⟩
  | 44 => ⟨S_, .i1⟩
  | 45 => ⟨S_, .f32⟩
  | 46 => ⟨S_, .f32⟩
  | 47 => ⟨S1x32, .f32⟩
  | 48 => ⟨S1x32, .f32⟩
  | 49 => ⟨S1x32, .f32⟩
  | 50 => ⟨S1x32, .f32⟩
  | 51 => ⟨S100000x32, .f32⟩
  | 52 => ⟨S1x32, .f32⟩
  | 53 => ⟨S1x2, .f32⟩
  | 54 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S1x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x32, .f32⟩
  | .local _ .vmem, ⟨35, _⟩ => ⟨S1x32, .f32⟩
  | .local _ .vmem, ⟨36, _⟩ => ⟨S32x32, .f32⟩
  | .local _ .vmem, ⟨37, _⟩ => ⟨S1x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S1x32, .f32⟩
  | .local _ .vmem, ⟨43, _⟩ => ⟨S1x32, .f32⟩
  | .local _ .vmem, ⟨44, _⟩ => ⟨S1x32, .f32⟩
  | .local _ .vmem, ⟨45, _⟩ => ⟨S1x32, .f32⟩
  | .local _ .vmem, ⟨46, _⟩ => ⟨S10000x32, .f32⟩
  | .local _ .vmem, ⟨47, _⟩ => ⟨S10000x32, .f32⟩
  | .local _ .vmem, ⟨48, _⟩ => ⟨S10000x32, .f32⟩
  | .local _ .vmem, ⟨49, _⟩ => ⟨S10000x32, .f32⟩
  | .local _ .vmem, ⟨50, _⟩ => ⟨S32x32, .f32⟩
  | .local _ .vmem, ⟨51, _⟩ => ⟨S1x32, .f32⟩
  | .local _ .vmem, ⟨52, _⟩ => ⟨S32x2, .f32⟩
  | .local _ .vmem, ⟨53, _⟩ => ⟨S1x2, .f32⟩
  | .local _ .vmem, ⟨54, _⟩ => ⟨S10000x2, .f32⟩
  | .local _ .vmem, ⟨55, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_c_4 : Ref sig .tc := ⟨.hbm, 80, rfl⟩
abbrev main_v26 : Ref sig .tc := ⟨.hbm, 81, rfl⟩
abbrev main_v27 : Ref sig .tc := ⟨.hbm, 82, rfl⟩
abbrev main_c_5 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_6 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_7 : Ref sig .tc := ⟨.hbm, 97, rfl⟩
abbrev main_v40 : Ref sig .tc := ⟨.hbm, 98, rfl⟩
abbrev main_v41 : Ref sig .tc := ⟨.hbm, 99, rfl⟩
abbrev main_cst_8 : Ref sig .tc := ⟨.hbm, 100, rfl⟩
abbrev main_v42 : Ref sig .tc := ⟨.hbm, 101, rfl⟩
abbrev main_v43 : Ref sig .tc := ⟨.hbm, 102, rfl⟩
abbrev main_c_9 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_cst_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_cst_1 : Ref sig .tc := ⟨.hbm, 114, rfl⟩
abbrev main_call1_v8 : Ref sig .tc := ⟨.hbm, 115, rfl⟩
abbrev main_call1_cst_2 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_v12 : Ref sig .tc := ⟨.hbm, 120, rfl⟩
abbrev main_call1_cst_3 : Ref sig .tc := ⟨.hbm, 121, rfl⟩
abbrev main_call1_v13 : Ref sig .tc := ⟨.hbm, 122, rfl⟩
abbrev main_call1_cst_4 : Ref sig .tc := ⟨.hbm, 123, rfl⟩
abbrev main_call1_call0_v0 : Ref sig .tc := ⟨.hbm, 124, rfl⟩
abbrev main_call1_call0_v1 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_c_10 : Ref sig .tc := ⟨.hbm, 130, rfl⟩
abbrev main_v48 : Ref sig .tc := ⟨.hbm, 131, rfl⟩
abbrev main_v49 : Ref sig .tc := ⟨.hbm, 132, rfl⟩
abbrev main_c_11 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_cst_12 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_cst_13 : Ref sig .tc := ⟨.hbm, 147, rfl⟩
abbrev main_v62 : Ref sig .tc := ⟨.hbm, 148, rfl⟩
abbrev main_v63 : Ref sig .tc := ⟨.hbm, 149, rfl⟩
abbrev main_cst_14 : Ref sig .tc := ⟨.hbm, 150, rfl⟩
abbrev main_v64 : Ref sig .tc := ⟨.hbm, 151, rfl⟩
abbrev main_v65 : Ref sig .tc := ⟨.hbm, 152, rfl⟩
abbrev main_c_15 : Ref sig .tc := ⟨.hbm, 153, rfl⟩
abbrev main_call2_cst : Ref sig .tc := ⟨.hbm, 154, rfl⟩
abbrev main_call2_v0 : Ref sig .tc := ⟨.hbm, 155, rfl⟩
abbrev main_call2_v1 : Ref sig .tc := ⟨.hbm, 156, rfl⟩
abbrev main_call2_cst_0 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_v7 : Ref sig .tc := ⟨.hbm, 163, rfl⟩
abbrev main_call2_cst_1 : Ref sig .tc := ⟨.hbm, 164, rfl⟩
abbrev main_call2_v8 : Ref sig .tc := ⟨.hbm, 165, rfl⟩
abbrev main_call2_cst_2 : Ref sig .tc := ⟨.hbm, 166, rfl⟩
abbrev main_call2_v9 : Ref sig .tc := ⟨.hbm, 167, rfl⟩
abbrev main_call2_v10 : Ref sig .tc := ⟨.hbm, 168, rfl⟩
abbrev main_call2_v11 : Ref sig .tc := ⟨.hbm, 169, rfl⟩
abbrev main_call2_v12 : Ref sig .tc := ⟨.hbm, 170, rfl⟩
abbrev main_call2_cst_3 : Ref sig .tc := ⟨.hbm, 171, rfl⟩
abbrev main_call2_v13 : Ref sig .tc := ⟨.hbm, 172, rfl⟩
abbrev main_call2_cst_4 : Ref sig .tc := ⟨.hbm, 173, rfl⟩
abbrev main_call2_call0_v0 : Ref sig .tc := ⟨.hbm, 174, rfl⟩
abbrev main_call2_call0_v1 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  reducesTo_S100000x32_S32_d0 : S100000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S100000x32_0_1 : S1x32.BroadcastsInDim S100000x32 (![0, 1] : Fin 2 → Fin S100000x32.rank)
  shapeCasts_S10000x32_S10000x32 : S10000x32.ShapeCasts S10000x32
  bcast_S_S100000x32 : S_.BroadcastsInDim S100000x32 (![] : Fin 0 → Fin S100000x32.rank)
  shapeCasts_S2_S1x2 : S2.ShapeCasts S1x2
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x32_S10000x32_1_0_0_1_n_n_wf : DotDims.WF S10000x128 S128x32 S10000x32 [1] [0] [0] [1] [] []
  dot_S10000x32_S32x32_S10000x32_1_0_0_1_n_n_wf : DotDims.WF S10000x32 S32x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x32.size a ≤ S100000x32.size a
  hwx4_5 : ∀ i : grid4.Coords, EltTy.bits .f32 = 32 ∨ (Rect.block (s := S100000x32) S10000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S100000x32.size a
  hwx5_5 : ∀ i : grid5.Coords, EltTy.bits .f32 = 32 ∨ (Rect.block (s := S100000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x2.size a ≤ S32x2.size a
  hwx6_3 : ∀ i : grid6.Coords, EltTy.bits .f32 = 32 ∨ (Rect.block (s := S32x2) S32x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x2.size a ≤ S100000x2.size a
  hwx6_5 : ∀ i : grid6.Coords, EltTy.bits .f32 = 32 ∨ (Rect.block (s := S100000x2) S10000x2.size (cc6_transform_5 i) (hinb6_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v61) S10000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v61) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v69) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v70) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg24) S32x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v71) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v72) S10000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩
abbrev S100000x2 : Shape := ⟨2, ![100000, 2]⟩
abbrev S1x2 : Shape := ⟨2, ![1, 2]⟩

abbrev nBuf : Space → Nat
  | .hbm => 257
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S100000, .i32⟩
  | 4 => ⟨S128x32, .f32⟩
  | 5 => ⟨S32, .f32⟩
  | 6 => ⟨S32x32, .f32⟩
  | 7 => ⟨S32, .f32⟩
  | 8 => ⟨S32, .f32⟩
  | 9 => ⟨S32, .f32⟩
  | 10 => ⟨S32x32, .f32⟩
  | 11 => ⟨S32, .f32⟩
  | 12 => ⟨S32x32, .f32⟩
  | 13 => ⟨S32, .f32⟩
  | 14 => ⟨S32, .f32⟩
  | 15 => ⟨S32, .f32⟩
  | 16 => ⟨S32x32, .f32⟩
  | 17 => ⟨S32, .f32⟩
  | 18 => ⟨S32x32, .f32⟩
  | 19 => ⟨S32, .f32⟩
  | 20 => ⟨S32, .f32⟩
  | 21 => ⟨S32, .f32⟩
  | 22 => ⟨S32x32, .f32⟩
  | 23 => ⟨S32, .f32⟩
  | 24 => ⟨S32x2, .f32⟩
  | 25 => ⟨S2, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x32, .f32⟩
  | 52 => ⟨S1x32, .f32⟩
  | 53 => ⟨S100000x32, .f32⟩
  | 54 => ⟨S100000x32, .f32⟩
  | 55 => ⟨S_, .f32⟩
  | 56 => ⟨S100000x32, .f32⟩
  | 57 => ⟨S100000x32, .f32⟩
  | 58 => ⟨S_, .f32⟩
  | 59 => ⟨S32, .f32⟩
  | 60 => ⟨S_, .f32⟩
  | 61 => ⟨S32, .f32⟩
  | 62 => ⟨S32, .f32⟩
  | 63 => ⟨S_, .i32⟩
  | 64 => ⟨S_, .f32⟩
  | 65 => ⟨S32, .f32⟩
  | 66 => ⟨S1x32, .f32⟩
  | 67 => ⟨S_, .f32⟩
  | 68 => ⟨S1x32, .f32⟩
  | 69 => ⟨S1x32, .f32⟩
  | 70 => ⟨S100000x32, .f32⟩
  | 71 => ⟨S100000x32, .f32⟩
  | 72 => ⟨S100000x32, .f32⟩
  | 73 => ⟨S_, .f32⟩
  | 74 => ⟨S_, .f32⟩
  | 75 => ⟨S_, .f32⟩
  | 76 => ⟨S_, .f32⟩
  | 77 => ⟨S32, .f32⟩
  | 78 => ⟨S32, .f32⟩
  | 79 => ⟨S32, .f32⟩
  | 80 => ⟨S_, .f32⟩
  | 81 => ⟨S_, .i1⟩
  | 82 => ⟨S_, .f32⟩
  | 83 => ⟨S_, .f32⟩
  | 84 => ⟨S32, .f32⟩
  | 85 => ⟨S32, .f32⟩
  | 86 => ⟨S1x32, .f32⟩
  | 87 => ⟨S100000x32, .f32⟩
  | 88 => ⟨S100000x32, .f32⟩
  | 89 => ⟨S_, .f32⟩
  | 90 => ⟨S32, .f32⟩
  | 91 => ⟨S32, .f32⟩
  | 92 => ⟨S32, .f32⟩
  | 93 => ⟨S1x32, .f32⟩
  | 94 => ⟨S100000x32, .f32⟩
  | 95 => ⟨S100000x32, .f32⟩
  | 96 => ⟨S1x32, .f32⟩
  | 97 => ⟨S100000x32, .f32⟩
  | 98 => ⟨S100000x32, .f32⟩
  | 99 => ⟨S1x32, .f32⟩
  | 100 => ⟨S100000x32, .f32⟩
  | 101 => ⟨S100000x32, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S_, .f32⟩
  | 112 => ⟨S100000x32, .f32⟩
  | 113 => ⟨S1600000x1, .i32⟩
  | 114 => ⟨S100000x32, .f32⟩
  | 115 => ⟨S100000x32, .f32⟩
  | 116 => ⟨S100000x32, .f32⟩
  | 117 => ⟨S1x32, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x128, .f32⟩

abbrev hbmTy0_1 (i : Nat) : BufTy := match i % 128 with
  | 0 => ⟨S100000x32, .f32⟩
  | 1 => ⟨S100000x32, .f32⟩
  | 2 => ⟨S_, .f32⟩
  | 3 => ⟨S32, .f32⟩
  | 4 => ⟨S_, .f32⟩
  | 5 => ⟨S32, .f32⟩
  | 6 => ⟨S32, .f32⟩
  | 7 => ⟨S_, .i32⟩
  | 8 => ⟨S_, .f32⟩
  | 9 => ⟨S32, .f32⟩
  | 10 => ⟨S1x32, .f32⟩
  | 11 => ⟨S_, .f32⟩
  | 12 => ⟨S1x32, .f32⟩
  | 13 => ⟨S1x32, .f32⟩
  | 14 => ⟨S100000x32, .f32⟩
  | 15 => ⟨S100000x32, .f32⟩
  | 16 => ⟨S100000x32, .f32⟩
  | 17 => ⟨S_, .f32⟩
  | 18 => ⟨S_, .f32⟩
  | 19 => ⟨S_, .f32⟩
  | 20 => ⟨S_, .f32⟩
  | 21 => ⟨S32, .f32⟩
  | 22 => ⟨S32, .f32⟩
  | 23 => ⟨S32, .f32⟩
  | 24 => ⟨S_, .f32⟩
  | 25 => ⟨S_, .i1⟩
  | 26 => ⟨S_, .f32⟩
  | 27 => ⟨S_, .f32⟩
  | 28 => ⟨S32, .f32⟩
  | 29 => ⟨S32, .f32⟩
  | 30 => ⟨S1x32, .f32⟩
  | 31 => ⟨S100000x32, .f32⟩
  | 32 => ⟨S100000x32, .f32⟩
  | 33 => ⟨S_, .f32⟩
  | 34 => ⟨S32, .f32⟩
  | 35 => ⟨S32, .f32⟩
  | 36 => ⟨S32, .f32⟩
  | 37 => ⟨S1x32, .f32⟩
  | 38 => ⟨S100000x32, .f32⟩
  | 39 => ⟨S100000x32, .f32⟩
  | 40 => ⟨S1x32, .f32⟩
  | 41 => ⟨S100000x32, .f32⟩
  | 42 => ⟨S100000x32, .f32⟩
  | 43 => ⟨S1x32, .f32⟩
  | 44 => ⟨S100000x32, .f32⟩
  | 45 => ⟨S100000x32, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x32, .f32⟩
  | 55 => ⟨S_, .f32⟩
  | 56 => ⟨S100000x32, .f32⟩
  | 57 => ⟨S1600000x1, .i32⟩
  | 58 => ⟨S100000x32, .f32⟩
  | 59 => ⟨S100000x32, .f32⟩
  | 60 => ⟨S100000x32, .f32⟩
  | 61 => ⟨S1x32, .f32⟩
  | 62 => ⟨S100000x32, .f32⟩
  | 63 => ⟨S100000x32, .f32⟩
  | 64 => ⟨S_, .f32⟩
  | 65 => ⟨S100000x32, .f32⟩
  | 66 => ⟨S100000x32, .f32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S_, .f32⟩
  | 75 => ⟨S32, .f32⟩
  | 76 => ⟨S_, .f32⟩
  | 77 => ⟨S32, .f32⟩
  | 78 => ⟨S32, .f32⟩
  | 79 => ⟨S_, .i32⟩
  | 80 => ⟨S_, .f32⟩
  | 81 => ⟨S32, .f32⟩
  | 82 => ⟨S1x32, .f32⟩
  | 83 => ⟨S_, .f32⟩
  | 84 => ⟨S1x32, .f32⟩
  | 85 => ⟨S1x32, .f32⟩
  | 86 => ⟨S100000x32, .f32⟩
  | 87 => ⟨S100000x32, .f32⟩
  | 88 => ⟨S100000x32, .f32⟩
  | 89 => ⟨S_, .f32⟩
  | 90 => ⟨S_, .f32⟩
  | 91 => ⟨S_, .f32⟩
  | 92 => ⟨S_, .f32⟩
  | 93 => ⟨S32, .f32⟩
  | 94 => ⟨S32, .f32⟩
  | 95 => ⟨S32, .f32⟩
  | 96 => ⟨S_, .f32⟩
  | 97 => ⟨S_, .i1⟩
  | 98 => ⟨S_, .f32⟩
  | 99 => ⟨S_, .f32⟩
  | 100 => ⟨S32, .f32⟩
  | 101 => ⟨S32, .f32⟩
  | 102 => ⟨S1x32, .f32⟩
  | 103 => ⟨S100000x32, .f32⟩
  | 104 => ⟨S100000x32, .f32⟩
  | 105 => ⟨S_, .f32⟩
  | 106 => ⟨S32, .f32⟩
  | 107 => ⟨S32, .f32⟩
  | 108 => ⟨S32, .f32⟩
  | 109 => ⟨S1x32, .f32⟩
  | 110 => ⟨S100000x32, .f32⟩
  | 111 => ⟨S100000x32, .f32⟩
  | 112 => ⟨S1x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S100000x32, .f32⟩
  | 119 => ⟨S1x32, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S100000x2, .f32⟩
  | 126 => ⟨S1x2, .f32⟩
  | 127 => ⟨S100000x2, .f32⟩
  | _ => ⟨S100000x128, .f32⟩

abbrev hbmTy0_2 (i : Nat) : BufTy := match i % 128 with
  | 0 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call0_cst : Ref sig .tc := ⟨.hbm, 48, rfl⟩
abbrev main_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call1_cst : Ref sig .tc := ⟨.hbm, 55, rfl⟩
abbrev main_call1_v0 : Ref sig .tc := ⟨.hbm, 56, rfl⟩
abbrev main_v24 : Ref sig .tc := ⟨.hbm, 57, rfl⟩
abbrev main_cst_1 : Ref sig .tc := ⟨.hbm, 58, rfl⟩
abbrev main_v25 : Ref sig .tc := ⟨.hbm, 59, rfl⟩
abbrev main_cst_2 : Ref sig .tc := ⟨.hbm, 60, rfl⟩
abbrev main_v26 : Ref sig .tc := ⟨.hbm, 61, rfl⟩
abbrev main_v27 : Ref sig .tc := ⟨.hbm, 62, rfl⟩
abbrev main_c_3 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_cst_3 : Ref sig .tc := ⟨.hbm, 80, rfl⟩
abbrev main_call2_v12 : Ref sig .tc := ⟨.hbm, 81, rfl⟩
abbrev main_call2_cst_4 : Ref sig .tc := ⟨.hbm, 82, rfl⟩
abbrev main_call2_call0_v0 : Ref sig .tc := ⟨.hbm, 83, rfl⟩
abbrev main_call2_call0_v1 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_4 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_5 : Ref sig .tc := ⟨.hbm, 102, rfl⟩
abbrev main_v44 : Ref sig .tc := ⟨.hbm, 103, rfl⟩
abbrev main_v45 : Ref sig .tc := ⟨.hbm, 104, rfl⟩
abbrev main_c_6 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_7 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_call3_cst : Ref sig .tc := ⟨.hbm, 120, rfl⟩
abbrev main_call3_v0 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_call4_cst : Ref sig .tc := ⟨.hbm, 127, rfl⟩
abbrev main_call4_v0 : Ref sig .tc := ⟨.hbm, 128, rfl⟩
abbrev main_v64 : Ref sig .tc := ⟨.hbm, 129, rfl⟩
abbrev main_cst_8 : Ref sig .tc := ⟨.hbm, 130, rfl⟩
abbrev main_v65 : Ref sig .tc := ⟨.hbm, 131, rfl⟩
abbrev main_cst_9 : Ref sig .tc := ⟨.hbm, 132, rfl⟩
abbrev main_v66 : Ref sig .tc := ⟨.hbm, 133, rfl⟩
abbrev main_v67 : Ref sig .tc := ⟨.hbm, 134, rfl⟩
abbrev main_c_10 : Ref sig .tc := ⟨.hbm, 135, rfl⟩
abbrev main_call5_cst : Ref sig .tc := ⟨.hbm, 136, rfl⟩
abbrev main_call5_v0 : Ref sig .tc := ⟨.hbm, 137, rfl⟩
abbrev main_call5_v1 : Ref sig .tc := ⟨.hbm, 138, rfl⟩
abbrev main_call5_cst_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_cst_1 : Ref sig .tc := ⟨.hbm, 146, rfl⟩
abbrev main_call5_v8 : Ref sig .tc := ⟨.hbm, 147, rfl⟩
abbrev main_call5_cst_2 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_cst_3 : Ref sig .tc := ⟨.hbm, 152, rfl⟩
abbrev main_call5_v12 : Ref sig .tc := ⟨.hbm, 153, rfl⟩
abbrev main_call5_cst_4 : Ref sig .tc := ⟨.hbm, 154, rfl⟩
abbrev main_call5_call0_v0 : Ref sig .tc := ⟨.hbm, 155, rfl⟩
abbrev main_call5_call0_v1 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_cst_11 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_c_12 : Ref sig .tc := ⟨.hbm, 174, rfl⟩
abbrev main_v84 : Ref sig .tc := ⟨.hbm, 175, rfl⟩
abbrev main_v85 : Ref sig .tc := ⟨.hbm, 176, rfl⟩
abbrev main_c_13 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_cst_14 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_call6_cst : Ref sig .tc := ⟨.hbm, 192, rfl⟩
abbrev main_call6_v0 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_call7_cst : Ref sig .tc := ⟨.hbm, 199, rfl⟩
abbrev main_call7_v0 : Ref sig .tc := ⟨.hbm, 200, rfl⟩
abbrev main_v104 : Ref sig .tc := ⟨.hbm, 201, rfl⟩
abbrev main_cst_15 : Ref sig .tc := ⟨.hbm, 202, rfl⟩
abbrev main_v105 : Ref sig .tc := ⟨.hbm, 203, rfl⟩
abbrev main_cst_16 : Ref sig .tc := ⟨.hbm, 204, rfl⟩
abbrev main_v106 : Ref sig .tc := ⟨.hbm, 205, rfl⟩
abbrev main_v107 : Ref sig .tc := ⟨.hbm, 206, rfl⟩
abbrev main_c_17 : Ref sig .tc := ⟨.hbm, 207, rfl⟩
abbrev main_call8_cst : Ref sig .tc := ⟨.hbm, 208, rfl⟩
abbrev main_call8_v0 : Ref sig .tc := ⟨.hbm, 209, rfl⟩
abbrev main_call8_v1 : Ref sig .tc := ⟨.hbm, 210, rfl⟩
abbrev main_call8_cst_0 : Ref sig .tc := ⟨.hbm, 211, rfl⟩
abbrev main_call8_v2 : Ref sig .tc := ⟨.hbm, 212, rfl⟩
abbrev main_call8_v3 : Ref sig .tc := ⟨.hbm, 213, rfl⟩
abbrev main_call8_v4 : Ref sig .tc := ⟨.hbm, 214, rfl⟩
abbrev main_call8_v5 : Ref sig .tc := ⟨.hbm, 215, rfl⟩
abbrev main_call8_v6 : Ref sig .tc := ⟨.hbm, 216, rfl⟩
abbrev main_call8_v7 : Ref sig .tc := ⟨.hbm, 217, rfl⟩
abbrev main_call8_cst_1 : Ref sig .tc := ⟨.hbm, 218, rfl⟩
abbrev main_call8_v8 : Ref sig .tc := ⟨.hbm, 219, rfl⟩
abbrev main_call8_cst_2 : Ref sig .tc := ⟨.hbm, 220, rfl⟩
abbrev main_call8_v9 : Ref sig .tc := ⟨.hbm, 221, rfl⟩
abbrev main_call8_v10 : Ref sig .tc := ⟨.hbm, 222, rfl⟩
abbrev main_call8_v11 : Ref sig .tc := ⟨.hbm, 223, rfl⟩
abbrev main_call8_cst_3 : Ref sig .tc := ⟨.hbm, 224, rfl⟩
abbrev main_call8_v12 : Ref sig .tc := ⟨.hbm, 225, rfl⟩
abbrev main_call8_cst_4 : Ref sig .tc := ⟨.hbm, 226, rfl⟩
abbrev main_call8_call0_v0 : Ref sig .tc := ⟨.hbm, 227, rfl⟩
abbrev main_call8_call0_v1 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_cst_18 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_v127 : Ref sig .tc := ⟨.hbm, 249, rfl⟩
abbrev main_call9_cst : Ref sig .tc := ⟨.hbm, 250, rfl⟩
abbrev main_call9_v0 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x2_S100000x2_1_0_0_1_n_n_wf : DotDims.WF S100000x32 S32x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KRun.lean ====
/-
  The idealized kernel program's run, with every buffer named at the end.

  @main is twenty segments: stretches of host operations and seven pipelined regions. The contents of the
  TensorCore's buffers at each boundary are a fold from the launch memory (`W0 … W20` of the generated frame module): a
  host stretch applies its operations, a region replaces its arrays by what its write-backs leave. Every weakly fair
  execution terminates, nothing faulting, with every unscoped buffer at the last boundary's contents `W20`; in particular
  the result buffer, and each argument as launched.
-/
import proofs.«163704_j39694087750181_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The same run read at the result buffer and at the arguments: the result holds the last boundary's contents of its
    buffer, each argument array is as launched. -/
theorem run_out : θ_run defs (onTc (τ := τ) (main (F := F))) ⟨m, fun _ => 0, ρ⟩ (fun r => ∀ c : Dev nD,
      r.2.mem ((c.tc : Thread nD τ).loc main_v72) = W20 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun s h c =>
      ⟨h c _ (mem_uc main_v72 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c),
       (h c _ (mem_uc main_arg23 (by decide))).trans (W20_main_arg23 m ρ c),
       (h c _ (mem_uc main_arg24 (by decide))).trans (W20_main_arg24 m ρ c),
       (h c _ (mem_uc main_arg25 (by decide))).trans (W20_main_arg25 m ρ c)⟩)
    (run_all m ρ)

end Cert.KernelIdeal.KRun

end
-- ==== Proof.Spec.lean ====
/-
  The reference network, layer by layer, as whole-array functions of its operands (any float instance).

  One graph layer is: the neighbour sum `h + Σ_{edges e → i} h[src e]` (`aggr128`, `aggr32`), a two-layer perceptron
  with a rectifier after each product (`mlp128`, `mlp32`), and the normalisation of every column by its mean and
  variance over the 100000 rows (`bn` over the rows `meanRow`, `invRow`). The head is one more perceptron without the
  last rectifier (`head`). Biases, scales, means and inverse deviations enter as [1,32] rows and are repeated over the
  rows by `rows32`.
-/
import proofs.«163704_j39694087750181_1_alg».proof.Proof.Gen.ReferenceIdeal

noncomputable section

namespace Cert.ReferenceIdeal.Spec

open Cert.ReferenceIdeal Cert.ReferenceIdeal.Gen Idealize.ShloMosaic Idealize.ShloMosaic.TcCoe

variable {F : FTy → Type} [FloatOps F]

/-- A [1,32] row repeated over the 100000 rows. -/
def rows32 (v : FVec F S1x32 .f32) : FVec F S100000x32 .f32 :=
  broadcastInDim S100000x32 ![0, 1] bcast_S1x32_S100000x32_0_1 v

/-- A [32] vector as a [1,32] row. -/
def asRow (v : FVec F S32 .f32) : FVec F S1x32 .f32 :=
  broadcastInDim S1x32 ![1] bcast_S32_S1x32_1 v

/-- The rectifier `max(t, 0)`. -/
def relu (t : FVec F S100000x32 .f32) : FVec F S100000x32 .f32 :=
  maximumf t (broadcastInDim S100000x32 ![] bcast_S_S100000x32 (constant (F := F) S_ .f32 0x00000000#32))

/-- `h · w + b` for 128 input columns. -/
def lin128 (h : FVec F S100000x128 .f32) (w : FVec F S128x32 .f32) (b : FVec F S1x32 .f32) : FVec F S100000x32 .f32 :=
  addf (Host.dotGeneral dot_S100000x128_S128x32_S100000x32_1_0_0_1_n_n none h w) (rows32 b)

/-- `h · w + b` for 32 input columns. -/
def lin32 (h : FVec F S100000x32 .f32) (w : FVec F S32x32 .f32) (b : FVec F S1x32 .f32) : FVec F S100000x32 .f32 :=
  addf (Host.dotGeneral dot_S100000x32_S32x32_S100000x32_1_0_0_1_n_n none h w) (rows32 b)

/-- The first layer's perceptron: `relu(relu(h·wa + ba)·wb + bb)`. -/
def mlp128 (h : FVec F S100000x128 .f32) (wa : FVec F S128x32 .f32) (ba : FVec F S1x32 .f32) (wb : FVec F S32x32 .f32)
    (bb : FVec F S1x32 .f32) : FVec F S100000x32 .f32 :=
  relu (lin32 (relu (lin128 h wa ba)) wb bb)

/-- The later layers' perceptron. -/
def mlp32 (h : FVec F S100000x32 .f32) (wa : FVec F S32x32 .f32) (ba : FVec F S1x32 .f32) (wb : FVec F S32x32 .f32)
    (bb : FVec F S1x32 .f32) : FVec F S100000x32 .f32 :=
  relu (lin32 (relu (lin32 h wa ba)) wb bb)

/-- The normalisation `((r - mu) * inv) * g + b`, each row operand repeated over the rows. -/
def bn (r : FVec F S100000x32 .f32) (mu inv g b : FVec F S1x32 .f32) : FVec F S100000x32 .f32 :=
  addf (mulf (mulf (subf r (rows32 mu)) (rows32 inv)) (rows32 g)) (rows32 b)

/-- The head: `relu(h·w1 + b1)·w2 + b2`. -/
def head (h : FVec F S100000x32 .f32) (w1 : FVec F S32x32 .f32) (b1 : FVec F S1x32 .f32) (w2 : FVec F S32x2 .f32)
    (b2 : FVec F S1x2 .f32) : FVec F S100000x2 .f32 :=
  addf (Host.dotGeneral dot_S100000x32_S32x2_S100000x2_1_0_0_1_n_n none (relu (lin32 h w1 b1)) w2)
    (broadcastInDim S100000x2 ![0, 1] bcast_S1x2_S100000x2_0_1 b2)

/-- The column sums over the 100000 rows. -/
def colSum (r : FVec F S100000x32 .f32) : FVec F S32 .f32 :=
  Host.reduceAdd r (constant (F := F) S_ .f32 0x00000000#32) reducesTo_S100000x32_S32_d0 h_S_

/-- The column means, as a [32] vector: the sums divided by 100000. -/
def meanVec (r : FVec F S100000x32 .f32) : FVec F S32 .f32 :=
  Host.divf (colSum r) (broadcastInDim S32 ![] bcast_S_S32 (constant (F := F) S_ .f32 0x47C35000#32))

/-- The column means as a [1,32] row. -/
def meanRow (r : FVec F S100000x32 .f32) : FVec F S1x32 .f32 := asRow (meanVec r)

/-- The number of rows less the correction `ddof` (an integer scalar, zero here), as a float scalar. -/
def count (ddof : IVec S_ 32) : FVec F S_ .f32 :=
  subf (constant (F := F) S_ .f32 0x47C35000#32) (sitofp .f32 ddof)

/-- The rows less the column means, the mean taken as a [1,32] row and repeated. -/
def centred (r : FVec F S100000x32 .f32) : FVec F S100000x32 .f32 :=
  subf r (rows32 (Host.divf (asRow (colSum r))
    (broadcastInDim S1x32 ![] bcast_S_S1x32 (constant (F := F) S_ .f32 0x47C35000#32))))

/-- The centred squares `(r - mean)²`. -/
def centredSq (r : FVec F S100000x32 .f32) : FVec F S100000x32 .f32 :=
  mulf (centred r) (centred r)

/-- The column variances as a [32] vector: the centred squares' sums over the count, where the count is positive
    (and a NaN otherwise). -/
def varVec (r : FVec F S100000x32 .f32) (ddof : IVec S_ 32) : FVec F S32 .f32 :=
  select (broadcastInDim S32 ![] bcast_S_S32 (cmpf .ogt (count (F := F) ddof) (constant (F := F) S_ .f32 0x00000000#32)))
    (Host.divf (colSum (centredSq r)) (broadcastInDim S32 ![] bcast_S_S32 (count (F := F) ddof)))
    (broadcastInDim S32 ![] bcast_S_S32 (id (constant (F := F) S_ .f32 0x7FC00000#32)))

/-- The inverse deviations `rsqrt(var + 1e-5)` as a [1,32] row. -/
def invRow (r : FVec F S100000x32 .f32) (ddof : IVec S_ 32) : FVec F S1x32 .f32 :=
  asRow (Host.rsqrt (addf (varVec r ddof) (broadcastInDim S32 ![] bcast_S_S32 (constant (F := F) S_ .f32 0x3727C5AC#32))))

/-- The edges' source nodes (row 0 of the edge table). -/
def srcOf (ei : IVec S2x1600000 32) : IVec S1600000 32 :=
  shapeCast S1600000 (extractStridedSlice S1x1600000 ![0, 0] ei slices_S2x1600000_S1x1600000_0_0) shapeCasts_S1x1600000_S1600000

/-- The edges' destination nodes (row 1 of the edge table). -/
def dstOf (ei : IVec S2x1600000 32) : IVec S1600000 32 :=
  shapeCast S1600000 (extractStridedSlice S1x1600000 ![1, 0] ei slices_S2x1600000_S1x1600000_1_0) shapeCasts_S1x1600000_S1600000

/-- A node list as a column of gather indices, negative entries counted from the end. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- A node list as a column of scatter indices. -/
def col (s : IVec S1600000 32) : IVec S1600000x1 32 :=
  broadcastInDim S1600000x1 ![0] bcast_S1600000_S1600000x1_0 s

/-- `x + Σ_{e → i} x[src e]` on 128 columns. -/
def aggr128 (x : FVec F S100000x128 .f32) (ei : IVec S2x1600000 32) : FVec F S100000x128 .f32 :=
  addf x (Host.scatterAdd scatter_S100000x128_S1600000x1_S1600000x128_1_0_0_1
    (broadcastInDim S100000x128 ![] bcast_S_S100000x128 (constant (F := F) S_ .f32 0x00000000#32)) (col (dstOf ei))
    (Host.gather gather_S100000x128_S1600000x1_S1600000x128_1_0_n_n_0_1_1128 x (wrapCol (srcOf ei))))

/-- `h + Σ_{e → i} h[src e]` on 32 columns. -/
def aggr32 (h : FVec F S100000x32 .f32) (ei : IVec S2x1600000 32) : FVec F S100000x32 .f32 :=
  addf h (Host.scatterAdd scatter_S100000x32_S1600000x1_S1600000x32_1_0_0_1
    (broadcastInDim S100000x32 ![] bcast_S_S100000x32 (constant (F := F) S_ .f32 0x00000000#32)) (col (dstOf ei))
    (Host.gather gather_S100000x32_S1600000x1_S1600000x32_1_0_n_n_0_1_132 h (wrapCol (srcOf ei))))

/-- A perceptron's output normalised by its own column statistics, scaled by `g` and shifted by `be`. -/
def normed (r : FVec F S100000x32 .f32) (g be : FVec F S32 .f32) : FVec F S100000x32 .f32 :=
  bn r (meanRow r) (invRow r (constantI S_ 32 0#32)) (asRow g) (asRow be)

/-- One layer on 128 input columns. -/
def layer128 (x : FVec F S100000x128 .f32) (ei : IVec S2x1600000 32) (wa : FVec F S128x32 .f32) (ba : FVec F S32 .f32)
    (wb : FVec F S32x32 .f32) (bb g be : FVec F S32 .f32) : FVec F S100000x32 .f32 :=
  normed (mlp128 (aggr128 x ei) wa (asRow ba) wb (asRow bb)) g be

/-- One layer on 32 input columns. -/
def layer32 (h : FVec F S100000x32 .f32) (ei : IVec S2x1600000 32) (wa : FVec F S32x32 .f32) (ba : FVec F S32 .f32)
    (wb : FVec F S32x32 .f32) (bb g be : FVec F S32 .f32) : FVec F S100000x32 .f32 :=
  normed (mlp32 (aggr32 h ei) wa (asRow ba) wb (asRow bb)) g be

/-- The whole network: three layers, then the head. -/
def final (x : FVec F S100000x128 .f32) (ei : IVec S2x1600000 32)
    (w1a : FVec F S128x32 .f32) (b1a : FVec F S32 .f32) (w1b : FVec F S32x32 .f32) (b1b g1 be1 : FVec F S32 .f32)
    (w2a : FVec F S32x32 .f32) (b2a : FVec F S32 .f32) (w2b : FVec F S32x32 .f32) (b2b g2 be2 : FVec F S32 .f32)
    (w3a : FVec F S32x32 .f32) (b3a : FVec F S32 .f32) (w3b : FVec F S32x32 .f32) (b3b g3 be3 : FVec F S32 .f32)
    (fw1 : FVec F S32x32 .f32) (fb1 : FVec F S32 .f32) (fw2 : FVec F S32x2 .f32) (fb2 : FVec F S2 .f32) : FVec F S100000x2 .f32 :=
  head (layer32 (layer32 (layer128 x ei w1a b1a w1b b1b g1 be1) ei w2a b2a w2b b2b g2 be2) ei w3a b3a w3b b3b g3 be3)
    fw1 (asRow fb1) fw2 (broadcastInDim S1x2 ![1] bcast_S2_S1x2_1 fb2)

/-- Row `q` of the `t`-th block of 10000 rows, as a row of the whole array. -/
def rowOf (t : Fin 10) (q : Fin 10000) : Fin 100000 := ⟨t.val * 10000 + q.val, by omega⟩

end Cert.ReferenceIdeal.Spec

end
-- ==== Proof.KSpec.lean ====
/-
  The idealized kernel program's host chains between its regions, as functions of their operands (any float instance),
  spelt with that program's own operations: the neighbour sum `h + Σ_{edges e → i} h[src e]`, and the column mean and
  variance of a perceptron's output kept as [1,32] rows (the statistics are taken with the reduced axis kept).
-/
import proofs.«163704_j39694087750181_1_alg».proof.Proof.Gen.KernelIdeal

noncomputable section

namespace Cert.KernelIdeal.KSpec

open Cert.KernelIdeal Cert.KernelIdeal.Gen Idealize.ShloMosaic Idealize.ShloMosaic.TcCoe

variable {F : FTy → Type} [FloatOps F]

/-- The edges' source nodes (row 0 of the edge table). -/
def srcOf (ei : IVec S2x1600000 32) : IVec S1600000 32 :=
  shapeCast S1600000 (extractStridedSlice S1x1600000 ![0, 0] ei slices_S2x1600000_S1x1600000_0_0) shapeCasts_S1x1600000_S1600000

/-- The edges' destination nodes (row 1 of the edge table). -/
def dstOf (ei : IVec S2x1600000 32) : IVec S1600000 32 :=
  shapeCast S1600000 (extractStridedSlice S1x1600000 ![1, 0] ei slices_S2x1600000_S1x1600000_1_0) shapeCasts_S1x1600000_S1600000

/-- A node list as a column of gather indices, negative entries counted from the end. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- A node list as a column of scatter indices. -/
def col (s : IVec S1600000 32) : IVec S1600000x1 32 :=
  broadcastInDim S1600000x1 ![0] bcast_S1600000_S1600000x1_0 s

/-- `x + Σ_{e → i} x[src e]` on 128 columns, from the node lists. -/
def aggr128 (x : FVec F S100000x128 .f32) (src dst : IVec S1600000 32) : FVec F S100000x128 .f32 :=
  addf x (Host.scatterAdd scatter_S100000x128_S1600000x1_S1600000x128_1_0_0_1
    (broadcastInDim S100000x128 ![] bcast_S_S100000x128 (constant (F := F) S_ .f32 0x00000000#32)) (col dst)
    (Host.gather gather_S100000x128_S1600000x1_S1600000x128_1_0_n_n_0_1_1128 x (wrapCol src)))

/-- `h + Σ_{e → i} h[src e]` on 32 columns, from the node lists. -/
def aggr32 (h : FVec F S100000x32 .f32) (src dst : IVec S1600000 32) : FVec F S100000x32 .f32 :=
  addf h (Host.scatterAdd scatter_S100000x32_S1600000x1_S1600000x32_1_0_0_1
    (broadcastInDim S100000x32 ![] bcast_S_S100000x32 (constant (F := F) S_ .f32 0x00000000#32)) (col dst)
    (Host.gather gather_S100000x32_S1600000x1_S1600000x32_1_0_n_n_0_1_132 h (wrapCol src)))

/-- The column sums over the 100000 rows, as a [1,32] row. -/
def sumRow (r : FVec F S100000x32 .f32) : FVec F S1x32 .f32 :=
  broadcastInDim S1x32 ![1] bcast_S32_S1x32_1
    (Host.reduceAdd r (constant (F := F) S_ .f32 0x00000000#32) reducesTo_S100000x32_S32_d0 h_S_)

/-- The column means as a [1,32] row: the sums' row divided by 100000. -/
def meanRow (r : FVec F S100000x32 .f32) : FVec F S1x32 .f32 :=
  Host.divf (sumRow r) (broadcastInDim S1x32 ![] bcast_S_S1x32 (constant (F := F) S_ .f32 0x47C35000#32))

/-- The number of rows less the correction `ddof` (an integer scalar), as a float scalar. -/
def count (ddof : IVec S_ 32) : FVec F S_ .f32 :=
  subf (constant (F := F) S_ .f32 0x47C35000#32) (sitofp .f32 ddof)

/-- The centred squares `(r - mean)²`, the mean row repeated over the rows. -/
def centredSq (r : FVec F S100000x32 .f32) : FVec F S100000x32 .f32 :=
  mulf (subf r (broadcastInDim S100000x32 ![0, 1] bcast_S1x32_S100000x32_0_1 (meanRow r)))
    (subf r (broadcastInDim S100000x32 ![0, 1] bcast_S1x32_S100000x32_0_1 (meanRow r)))

/-- The column variances as a [1,32] row: the centred squares' sums over the count, where the count is positive (and a
    NaN otherwise). -/
def varRow (r : FVec F S100000x32 .f32) (ddof : IVec S_ 32) : FVec F S1x32 .f32 :=
  select (broadcastInDim S1x32 ![] bcast_S_S1x32 (cmpf .ogt (count (F := F) ddof) (constant (F := F) S_ .f32 0x00000000#32)))
    (Host.divf (sumRow (centredSq r)) (broadcastInDim S1x32 ![] bcast_S_S1x32 (count (F := F) ddof)))
    (broadcastInDim S1x32 ![] bcast_S_S1x32 (id (constant (F := F) S_ .f32 0x7FC00000#32)))

end Cert.KernelIdeal.KSpec

end
-- ==== Proof.PayAt.lean ====
/-
  The kernel bodies' arithmetic read at one element, at the ideal values (floats are extended reals and every change
  of format is the identity), against the reference network's layer functions.

  A region's body stores one value computed from its loaded blocks: for a perceptron region
  `max(max(x·wa + ba, 0)·wb + bb, 0)`, for a normalisation region `((x − mu)·rsqrt(var + ε))·g + b`, for the head
  `max(x·w1 + b1, 0)·w2 + b2`. Read at row `q` and column `j` of the block, each is the same expression in the entries
  of row `q` of the block, and when that row is row `t·10000 + q` of the whole array it is the reference's layer at
  that row: a product into a zero accumulator and the reference's product are the same sum over the shared axis
  (`dot_sum`), and a `[1,n]` row repeated over the rows reads as the row's entry on both sides. Nothing of real
  arithmetic is used beyond that: no distributivity and no finiteness.
-/
import proofs.«163704_j39694087750181_1_alg».proof.Proof.Gen.KernelIdeal.Skeleton
import proofs.«163704_j39694087750181_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.PayAt

open Idealize.ShloMosaic Idealize.ShloMosaic.ValueIdx
open scoped BigOperators

open Cert.ReferenceIdeal

/-- The dimension numbers of a plain product `[m,k] × [k,n]` (contract the left operand's axis 1 with the right
    operand's axis 0, no batch axes), over any proof of their side conditions. -/
@[reducible] def plainD {m k n : Nat}
    (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section Plain
variable {m k n : Nat} (wf : DotDims.WF ⟨2, ![m, k]⟩ ⟨2, ![k, n]⟩ ⟨2, ![m, n]⟩ [1] [0] [0] [1] [] [])

/-- The left operand's row is the output's row. -/
theorem plain_lhs_0 (i : (⟨2, ![m, n]⟩ : Shape).Idx) (c : (plainD wf).contr.Idx) :
    ((plainD wf).lhsIdx i c 0).val = (i 0).val := by
  unfold DotDims.lhsIdx
  rw [dif_neg (show ¬(0 : Fin (⟨2, ![m, k]⟩ : Shape).rank) ∈ (plainD wf).lhsBatch from List.not_mem_nil),
    dif_pos (show (0 : Fin (⟨2, ![m, k]⟩ : Shape).rank) ∈ (plainD wf).lhsNonContracting from List.mem_singleton.mpr rfl)]
  rfl

/-- The left operand's column is the contraction coordinate. -/
theorem plain_lhs_1 (i : (⟨2, ![m, n]⟩ : Shape).Idx) (c : (plainD wf).contr.Idx) :
    ((plainD wf).lhsIdx i c 1).val = (c ⟨0, Nat.one_pos⟩).val :=
  (plainD wf).lhsIdx_val_of_single rfl i c

/-- The right operand's row is the contraction coordinate. -/
theorem plain_rhs_0 (i : (⟨2, ![m, n]⟩ : Shape).Idx) (c : (plainD wf).contr.Idx) :
    ((plainD wf).rhsIdx i c 0).val = (c ⟨0, Nat.one_pos⟩).val :=
  (plainD wf).rhsIdx_val_of_single rfl i c

/-- The right operand's column is the output's column. -/
theorem plain_rhs_1 (i : (⟨2, ![m, n]⟩ : Shape).Idx) (c : (plainD wf).contr.Idx) :
    ((plainD wf).rhsIdx i c 1).val = (i 1).val := by
  unfold DotDims.rhsIdx
  rw [dif_neg (show ¬(1 : Fin (⟨2, ![k, n]⟩ : Shape).rank) ∈ (plainD wf).rhsBatch from List.not_mem_nil),
    dif_pos (show (1 : Fin (⟨2, ![k, n]⟩ : Shape).rank) ∈ (plainD wf).rhsNonContracting from List.mem_singleton.mpr rfl)]
  rfl

/-- A plain product's sum over its contraction index is the sum over the shared axis's coordinate. -/
theorem plain_sum {φ₁ φ₂ : FTy} (L : FVec Ideal ⟨2, ![m, k]⟩ φ₁) (R : FVec Ideal ⟨2, ![k, n]⟩ φ₂) (p : Fin m) (q : Fin n) :
    ∑ c : (plainD wf).contr.Idx, L ((plainD wf).lhsIdx (ix2 p q) c) * R ((plainD wf).rhsIdx (ix2 p q) c)
      = ∑ l : Fin k, L (ix2 p l) * R (ix2 l q) := by
  rw [← Equiv.sum_comp (contrEquiv1 (plainD wf) k rfl rfl).symm]
  refine Finset.sum_congr rfl fun l _ => ?_
  have hk := contrEquiv1_symm_val (plainD wf) k rfl rfl l
  have el : (plainD wf).lhsIdx (ix2 p q) ((contrEquiv1 (plainD wf) k rfl rfl).symm l) = ix2 p l :=
    funext fun a => Fin.ext (by
      match a with
      | ⟨0, _⟩ => exact plain_lhs_0 wf _ _
      | ⟨1, _⟩ => exact (plain_lhs_1 wf _ _).trans hk)
  have er : (plainD wf).rhsIdx (ix2 p q) ((contrEquiv1 (plainD wf) k rfl rfl).symm l) = ix2 l q :=
    funext fun a => Fin.ext (by
      match a with
      | ⟨0, _⟩ => exact (plain_rhs_0 wf _ _).trans hk
      | ⟨1, _⟩ => exact plain_rhs_1 wf _ _)
  rw [el, er]

end Plain

/-- The same for any record of those dimension numbers. -/
theorem dot_sum {m k n : Nat} {φ₁ φ₂ : FTy} (d : DotDims ⟨2, ![m, k]⟩ ⟨2, ![k, n]⟩ ⟨2, ![m, n]⟩)
    (h1 : d.lhsContracting = [1]) (h2 : d.rhsContracting = [0]) (h3 : d.lhsNonContracting = [0])
    (h4 : d.rhsNonContracting = [1]) (h5 : d.lhsBatch = []) (h6 : d.rhsBatch = [])
    (L : FVec Ideal ⟨2, ![m, k]⟩ φ₁) (R : FVec Ideal ⟨2, ![k, n]⟩ φ₂) (p : Fin m) (q : Fin n) :
    ∑ c : d.contr.Idx, L (d.lhsIdx (ix2 p q) c) * R (d.rhsIdx (ix2 p q) c) = ∑ l : Fin k, L (ix2 p l) * R (ix2 l q) := by
  obtain ⟨lc, rc, ln, rn, lb, rb, wf⟩ := d
  simp only at h1 h2 h3 h4 h5 h6
  subst h1 h2 h3 h4 h5 h6
  exact plain_sum wf L R p q

/-- The float zero both programs take the maximum with. -/
abbrev z0 : EReal := Ideal.ofBits .f32 0x00000000#32

/-- The kernel's product accumulated into the zero splat, plus a `[1,n]` row repeated over the rows, read at
    `(p, q)`: the sum over the shared axis of the left operand's row `p` (as `X` names it) times the right operand's
    column `q`, plus the row's entry `q`. The changes of format on the way into the product are the identity. -/
theorem klin {m k n : Nat} (d : DotDims ⟨2, ![m, k]⟩ ⟨2, ![k, n]⟩ ⟨2, ![m, n]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![m, k]⟩ .f32) (w : FVec Ideal ⟨2, ![k, n]⟩ .f32) (b : FVec Ideal ⟨2, ![1, n]⟩ .f32)
    (hlt : FTy.bits .bf16 < FTy.bits .f32) (hb : (⟨2, ![1, n]⟩ : Shape).Broadcasts ⟨2, ![m, n]⟩)
    (X : Fin k → EReal) (p : Fin m) (q : Fin n) (hx : ∀ l, x (ix2 p l) = X l) :
    addf (matmul d none (truncf .bf16 x hlt) (truncf .bf16 w hlt) (constant ⟨2, ![m, n]⟩ .f32 0x00000000#32))
        (broadcastTo ⟨2, ![m, n]⟩ b hb) (ix2 p q)
      = (∑ l : Fin k, X l * w (ix2 l q)) + b (ix2 (0 : Fin 1) q) := by
  rw [addf_apply, broadcastTo_1b_ab_apply]
  refine congrArg (· + b (ix2 (0 : Fin 1) q)) ?_
  refine (Ideal.matmul_constant_zero_apply d none _ _ _).trans ?_
  refine (dot_sum d h1 h2 h3 h4 h5 h6 _ _ p q).trans ?_
  exact Finset.sum_congr rfl fun l _ => by rw [truncf_apply, truncf_apply, hx l]

/-- The same followed by the maximum with the zero splat. -/
theorem klayer {m k n : Nat} (d : DotDims ⟨2, ![m, k]⟩ ⟨2, ![k, n]⟩ ⟨2, ![m, n]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![m, k]⟩ .f32) (w : FVec Ideal ⟨2, ![k, n]⟩ .f32) (b : FVec Ideal ⟨2, ![1, n]⟩ .f32)
    (hlt : FTy.bits .bf16 < FTy.bits .f32) (hb : (⟨2, ![1, n]⟩ : Shape).Broadcasts ⟨2, ![m, n]⟩)
    (X : Fin k → EReal) (p : Fin m) (q : Fin n) (hx : ∀ l, x (ix2 p l) = X l) :
    maximumf (addf (matmul d none (truncf .bf16 x hlt) (truncf .bf16 w hlt) (constant ⟨2, ![m, n]⟩ .f32 0x00000000#32))
        (broadcastTo ⟨2, ![m, n]⟩ b hb)) (broadcast ⟨2, ![m, n]⟩ (Scalar.ofBits (F := Ideal) .f32 0x00000000#32)) (ix2 p q)
      = max ((∑ l : Fin k, X l * w (ix2 l q)) + b (ix2 (0 : Fin 1) q)) z0 := by
  rw [maximumf_apply, klin d h1 h2 h3 h4 h5 h6 x w b hlt hb X p q hx]
  rfl

/-- The reference's product plus a `[1,n]` row repeated over the rows, read at `(p, q)`. -/
theorem rlin {m k n : Nat} (d : DotDims ⟨2, ![m, k]⟩ ⟨2, ![k, n]⟩ ⟨2, ![m, n]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![m, k]⟩ .f32) (w : FVec Ideal ⟨2, ![k, n]⟩ .f32) (b : FVec Ideal ⟨2, ![1, n]⟩ .f32)
    (hb : (⟨2, ![1, n]⟩ : Shape).BroadcastsInDim ⟨2, ![m, n]⟩ ![0, 1])
    (X : Fin k → EReal) (p : Fin m) (q : Fin n) (hx : ∀ l, x (ix2 p l) = X l) :
    addf (Host.dotGeneral (F := Ideal) d none x w) (broadcastInDim ⟨2, ![m, n]⟩ ![0, 1] hb b) (ix2 p q)
      = (∑ l : Fin k, X l * w (ix2 l q)) + b (ix2 (0 : Fin 1) q) := by
  rw [addf_apply, broadcastInDim_oneRow_apply]
  refine congrArg (· + b (ix2 (0 : Fin 1) q)) ?_
  refine (Ideal.dotGeneral_apply d none _ x w _).trans ?_
  refine (dot_sum d h1 h2 h3 h4 h5 h6 _ _ p q).trans ?_
  exact Finset.sum_congr rfl fun l _ => by rw [hx l]

/-- The reference's rectifier at an element. -/
theorem relu_at (t : FVec Ideal Cert.ReferenceIdeal.S100000x32 .f32) (i : Cert.ReferenceIdeal.S100000x32.Idx) :
    Cert.ReferenceIdeal.Spec.relu (F := Ideal) t i = max (t i) z0 := rfl

/-- The reference's rectified layer on 32 input columns at an element. -/
theorem rlayer32 (h : FVec Ideal Cert.ReferenceIdeal.S100000x32 .f32) (w : FVec Ideal Cert.ReferenceIdeal.S32x32 .f32)
    (b : FVec Ideal Cert.ReferenceIdeal.S1x32 .f32) (X : Fin 32 → EReal) (i : Fin 100000) (j : Fin 32)
    (hx : ∀ l, h (ix2 i l) = X l) :
    Spec.relu (Spec.lin32 (F := Ideal) h w b) (ix2 i j) = max ((∑ l : Fin 32, X l * w (ix2 l j)) + b (ix2 (0 : Fin 1) j)) z0 := by
  rw [relu_at]
  exact congrArg (max · z0) (rlin _ rfl rfl rfl rfl rfl rfl h w b _ X i j hx)

/-- The reference's rectified layer on 128 input columns at an element. -/
theorem rlayer128 (h : FVec Ideal Cert.ReferenceIdeal.S100000x128 .f32) (w : FVec Ideal Cert.ReferenceIdeal.S128x32 .f32)
    (b : FVec Ideal Cert.ReferenceIdeal.S1x32 .f32) (X : Fin 128 → EReal) (i : Fin 100000) (j : Fin 32)
    (hx : ∀ l, h (ix2 i l) = X l) :
    Spec.relu (Spec.lin128 (F := Ideal) h w b) (ix2 i j) = max ((∑ l : Fin 128, X l * w (ix2 l j)) + b (ix2 (0 : Fin 1) j)) z0 := by
  rw [relu_at]
  exact congrArg (max · z0) (rlin _ rfl rfl rfl rfl rfl rfl h w b _ X i j hx)

theorem mlp32_at (hin : FVec Ideal Cert.ReferenceIdeal.S100000x32 .f32) (wa : FVec Ideal S32x32 .f32) (ba : FVec Ideal S1x32 .f32) (wb : FVec Ideal S32x32 .f32) (bb : FVec Ideal S1x32 .f32)
    (x0 : Vec Ideal Cert.KernelIdeal.S10000x32 .f32) (t : Fin 10)
    (h0 : ∀ (q : Fin 10000) (l : Fin 32), x0 (ix2 q l) = hin (ix2 (Spec.rowOf t q) l)) (q : Fin 10000) (j : Fin 32) :
    Cert.KernelIdeal.Gen.k2_pay1 (F := Ideal) x0 wa ba wb bb (ix2 q j) = Cert.ReferenceIdeal.Spec.mlp32 (F := Ideal) hin wa ba wb bb (ix2 (Spec.rowOf t q) j) := by
  unfold Gen.k2_pay1 Spec.mlp32
  simp only [shapeCast_self]
  refine (klayer _ rfl rfl rfl rfl rfl rfl _ wb bb _ _
    (fun l => max ((∑ l' : Fin 32, hin (ix2 (Spec.rowOf t q) l') * wa (ix2 l' l)) + ba (ix2 (0 : Fin 1) l)) z0) q j
    (fun l => klayer _ rfl rfl rfl rfl rfl rfl x0 wa ba _ _ (fun l' => hin (ix2 (Spec.rowOf t q) l')) q l
      (fun l' => h0 q l'))).trans ?_
  exact (rlayer32 _ wb bb _ (Spec.rowOf t q) j
    (fun l => rlayer32 hin wa ba (fun l' => hin (ix2 (Spec.rowOf t q) l')) (Spec.rowOf t q) l (fun _ => rfl))).symm

theorem mlp128_at (hin : FVec Ideal Cert.ReferenceIdeal.S100000x128 .f32) (wa : FVec Ideal Cert.KernelIdeal.S128x32 .f32) (ba : FVec Ideal Cert.KernelIdeal.S1x32 .f32) (wb : FVec Ideal Cert.KernelIdeal.S32x32 .f32) (bb : FVec Ideal Cert.KernelIdeal.S1x32 .f32)
    (x0 : Vec Ideal Cert.KernelIdeal.S10000x128 .f32) (t : Fin 10)
    (h0 : ∀ (q : Fin 10000) (l : Fin 128), x0 (ix2 q l) = hin (ix2 (Spec.rowOf t q) l)) (q : Fin 10000) (j : Fin 32) :
    Cert.KernelIdeal.Gen.k0_pay1 (F := Ideal) x0 wa ba wb bb (ix2 q j) = Cert.ReferenceIdeal.Spec.mlp128 (F := Ideal) hin wa ba wb bb (ix2 (Spec.rowOf t q) j) := by
  unfold Gen.k0_pay1 Spec.mlp128
  simp only [shapeCast_self]
  refine (klayer _ rfl rfl rfl rfl rfl rfl _ wb bb _ _
    (fun l => max ((∑ l' : Fin 128, hin (ix2 (Spec.rowOf t q) l') * wa (ix2 l' l)) + ba (ix2 (0 : Fin 1) l)) z0) q j
    (fun l => klayer _ rfl rfl rfl rfl rfl rfl x0 wa ba _ _ (fun l' => hin (ix2 (Spec.rowOf t q) l')) q l
      (fun l' => h0 q l'))).trans ?_
  exact (rlayer32 _ wb bb _ (Spec.rowOf t q) j
    (fun l => rlayer128 hin wa ba (fun l' => hin (ix2 (Spec.rowOf t q) l')) (Spec.rowOf t q) l (fun _ => rfl))).symm

/-- the inverse deviation as the kernel's body computes it from the variance row: rsqrt(var + 1e-5), in the kernel's own operations -/
def invOfVar (var : FVec Ideal Cert.KernelIdeal.S1x32 .f32) : FVec Ideal Cert.KernelIdeal.S1x32 .f32 := rsqrt (addf var (broadcast Cert.KernelIdeal.S1x32 (Scalar.ofBits (F := Ideal) .f32 0x3727C5AC#32)))

theorem bn_at (r : FVec Ideal Cert.ReferenceIdeal.S100000x32 .f32) (mu var g b : FVec Ideal S1x32 .f32)
    (x5 : Vec Ideal Cert.KernelIdeal.S10000x32 .f32) (t : Fin 10)
    (h5 : ∀ (q : Fin 10000) (l : Fin 32), x5 (ix2 q l) = r (ix2 (Spec.rowOf t q) l)) (q : Fin 10000) (j : Fin 32) :
    Cert.KernelIdeal.Gen.k1_pay1 (F := Ideal) var x5 mu g b (ix2 q j) = Cert.ReferenceIdeal.Spec.bn (F := Ideal) r mu (invOfVar var) g b (ix2 (Spec.rowOf t q) j) := by
  have hL : Gen.k1_pay1 (F := Ideal) var x5 mu g b (ix2 q j)
      = ((x5 (ix2 q j) - mu (ix2 (0 : Fin 1) j)) * invOfVar var (ix2 (0 : Fin 1) j)) * g (ix2 (0 : Fin 1) j)
        + b (ix2 (0 : Fin 1) j) := by
    unfold Gen.k1_pay1
    simp only [shapeCast_self]
    rw [addf_apply, mulf_apply, mulf_apply, subf_apply, broadcastTo_1b_ab_apply, broadcastTo_1b_ab_apply,
      broadcastTo_1b_ab_apply, broadcastTo_1b_ab_apply]
    rfl
  have hR : Spec.bn (F := Ideal) r mu (invOfVar var) g b (ix2 (Spec.rowOf t q) j)
      = ((r (ix2 (Spec.rowOf t q) j) - mu (ix2 (0 : Fin 1) j)) * invOfVar var (ix2 (0 : Fin 1) j)) * g (ix2 (0 : Fin 1) j)
        + b (ix2 (0 : Fin 1) j) := by
    unfold Spec.bn Spec.rows32
    rw [addf_apply, mulf_apply, mulf_apply, subf_apply, broadcastInDim_oneRow_apply, broadcastInDim_oneRow_apply,
      broadcastInDim_oneRow_apply, broadcastInDim_oneRow_apply]
  rw [hL, hR, h5 q j]

theorem head_at (h : FVec Ideal Cert.ReferenceIdeal.S100000x32 .f32) (w1 : FVec Ideal S32x32 .f32) (b1 : FVec Ideal S1x32 .f32) (w2 : FVec Ideal S32x2 .f32) (b2 : FVec Ideal S1x2 .f32)
    (x0 : Vec Ideal Cert.KernelIdeal.S10000x32 .f32) (t : Fin 10)
    (h0 : ∀ (q : Fin 10000) (l : Fin 32), x0 (ix2 q l) = h (ix2 (Spec.rowOf t q) l)) (q : Fin 10000) (j : Fin 2) :
    Cert.KernelIdeal.Gen.k6_pay1 (F := Ideal) x0 w1 b1 w2 b2 (ix2 q j) = Cert.ReferenceIdeal.Spec.head (F := Ideal) h w1 b1 w2 b2 (ix2 (Spec.rowOf t q) j) := by
  unfold Gen.k6_pay1 Spec.head
  simp only [shapeCast_self]
  refine (klin _ rfl rfl rfl rfl rfl rfl _ w2 b2 _ _
    (fun l => max ((∑ l' : Fin 32, h (ix2 (Spec.rowOf t q) l') * w1 (ix2 l' l)) + b1 (ix2 (0 : Fin 1) l)) z0) q j
    (fun l => klayer _ rfl rfl rfl rfl rfl rfl x0 w1 b1 _ _ (fun l' => h (ix2 (Spec.rowOf t q) l')) q l
      (fun l' => h0 q l'))).trans ?_
  exact (rlin _ rfl rfl rfl rfl rfl rfl _ w2 b2 _ _ (Spec.rowOf t q) j
    (fun l => rlayer32 h w1 b1 (fun l' => h (ix2 (Spec.rowOf t q) l')) (Spec.rowOf t q) l (fun _ => rfl))).symm

theorem k4_eq_k2 : @Cert.KernelIdeal.Gen.k4_pay1 Ideal _ = @Cert.KernelIdeal.Gen.k2_pay1 Ideal _ := rfl
theorem k3_eq_k1 : @Cert.KernelIdeal.Gen.k3_pay1 Ideal _ = @Cert.KernelIdeal.Gen.k1_pay1 Ideal _ := rfl
theorem k5_eq_k1 : @Cert.KernelIdeal.Gen.k5_pay1 Ideal _ = @Cert.KernelIdeal.Gen.k1_pay1 Ideal _ := rfl

end Cert.KernelIdeal.PayAt
end
-- ==== Proof.GapFacts.lean ====
/-
  The layout facts that join the kernel program's host chains to the reference's, gathered as one hypothesis: a reshape
  of a vector to a row is the vector repeated along the new axis; the neighbour sum, the mean row and the inverse
  deviation row computed with the reduced axis kept are the reference's.
-/
import proofs.«163704_j39694087750181_1_alg».proof.Proof.Spec
import proofs.«163704_j39694087750181_1_alg».proof.Proof.KSpec
import Idealize.ShloMosaic.PureOps.Ideal

noncomputable section

namespace Cert.KernelIdeal

open Idealize.ShloMosaic

/-- The layout facts (each an equation between whole arrays at the exact-real instance). -/
structure GapFacts : Prop where
  asRow_eq : ∀ (b : FVec Ideal S32 .f32) (h : S32.ShapeCasts S1x32), shapeCast S1x32 b h = Cert.ReferenceIdeal.Spec.asRow (F := Ideal) b
  asRow2_eq : ∀ (b : FVec Ideal S2 .f32) (h : S2.ShapeCasts S1x2),
    shapeCast S1x2 b h = broadcastInDim Cert.ReferenceIdeal.S1x2 ![1] Cert.ReferenceIdeal.Gen.bcast_S2_S1x2_1 b
  srcOf_eq : ∀ ei : IVec S2x1600000 32, KSpec.srcOf ei = Cert.ReferenceIdeal.Spec.srcOf ei
  dstOf_eq : ∀ ei : IVec S2x1600000 32, KSpec.dstOf ei = Cert.ReferenceIdeal.Spec.dstOf ei
  aggr128_eq : ∀ (x : FVec Ideal S100000x128 .f32) (ei : IVec S2x1600000 32),
    KSpec.aggr128 (F := Ideal) x (Cert.ReferenceIdeal.Spec.srcOf ei) (Cert.ReferenceIdeal.Spec.dstOf ei) = Cert.ReferenceIdeal.Spec.aggr128 (F := Ideal) x ei
  aggr32_eq : ∀ (h : FVec Ideal S100000x32 .f32) (ei : IVec S2x1600000 32),
    KSpec.aggr32 (F := Ideal) h (Cert.ReferenceIdeal.Spec.srcOf ei) (Cert.ReferenceIdeal.Spec.dstOf ei) = Cert.ReferenceIdeal.Spec.aggr32 (F := Ideal) h ei
  meanRow_eq : ∀ r : FVec Ideal S100000x32 .f32, KSpec.meanRow (F := Ideal) r = Cert.ReferenceIdeal.Spec.meanRow (F := Ideal) r
  invRow_eq : ∀ (r : FVec Ideal S100000x32 .f32) (ddof : IVec S_ 32),
    rsqrt (addf (KSpec.varRow (F := Ideal) r ddof) (broadcast S1x32 (Scalar.ofBits (F := Ideal) .f32 0x3727C5AC#32)))
      = Cert.ReferenceIdeal.Spec.invRow (F := Ideal) r ddof

end Cert.KernelIdeal

end
-- ==== Proof.Blocks6.lean ====
/-
  Region 6 (the head), from blocks to the whole array.

  Point `t` of the ten reads rows `t*10000 … t*10000+9999` of the last layer's output (window 0), the whole of the two
  weight matrices and the two bias rows (windows 1-4), and writes rows `t*10000 …` of the two result columns
  (window 5). If the body's value at row `q` of its block is `G` at row `t*10000+q`, for every point, the array after
  the ten write-backs is `G`.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks6

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 ∧ t.val < 10 :=
  (by decide +kernel : ∀ t : Fin grid6.N, _)

/-- The grid point as a number below ten. -/
def pt (t : Fin cfg6.N) : Fin 10 := ⟨t.val, (idx_facts t).2.2.2.2.2.2.2.2.2.2.2.2⟩

/-- Window 0's block at point `t` holds rows `t*10000 + q` of its array. -/
theorem iblk_0 (c : Dev nD) (t : Fin cfg6.N) (q : Fin 10000) (l : Fin 32) :
    iblk6 V c 0 t (ix2 q l) = V c main_v69 (ix2 (rowOf (pt t) q) l) := by
  obtain ⟨e0, e1, -⟩ := idx_facts t
  show V c main_v69 (((cfg6.win 0).blk t).view.emb (ix2 q l)) = V c main_v69 (ix2 (rowOf (pt t) q) l)
  refine congrArg (V c main_v69) ?_
  funext a; apply Fin.ext
  match a with
  | ⟨0, _⟩ => show win6_0.index t (0 : Fin 2) * 10000 + 1 * q.val = t.val * 10000 + q.val; omega
  | ⟨1, _⟩ => show win6_0.index t (1 : Fin 2) * 32 + 1 * l.val = l.val; omega

/-- Window 1's block is its whole array (the first weight matrix). -/
theorem iblk_1 (c : Dev nD) (t : Fin cfg6.N) : iblk6 V c 1 t = V c main_arg22 := by
  obtain ⟨-, -, e0, e1, -⟩ := idx_facts t
  funext y
  show V c main_arg22 (((cfg6.win 1).blk t).view.emb y) = V c main_arg22 y
  refine congrArg (V c main_arg22) ?_
  funext a; apply Fin.ext
  match a with
  | ⟨0, _⟩ => show win6_1.index t (0 : Fin 2) * 32 + 1 * (y 0).val = (y 0).val; omega
  | ⟨1, _⟩ => show win6_1.index t (1 : Fin 2) * 32 + 1 * (y 1).val = (y 1).val; omega

/-- Window 2's block is its whole array (the first bias row). -/
theorem iblk_2 (c : Dev nD) (t : Fin cfg6.N) : iblk6 V c 2 t = V c main_v70 := by
  obtain ⟨-, -, -, -, e0, e1, -⟩ := idx_facts t
  funext y
  show V c main_v70 (((cfg6.win 2).blk t).view.emb y) = V c main_v70 y
  refine congrArg (V c main_v70) ?_
  funext a; apply Fin.ext
  match a with
  | ⟨0, _⟩ => show win6_2.index t (0 : Fin 2) * 1 + 1 * (y 0).val = (y 0).val; omega
  | ⟨1, _⟩ => show win6_2.index t (1 : Fin 2) * 32 + 1 * (y 1).val = (y 1).val; omega

/-- Window 3's block is its whole array (the second weight matrix, two columns). -/
theorem iblk_3 (c : Dev nD) (t : Fin cfg6.N) : iblk6 V c 3 t = V c main_arg24 := by
  obtain ⟨-, -, -, -, -, -, e0, e1, -⟩ := idx_facts t
  funext y
  show V c main_arg24 (((cfg6.win 3).blk t).view.emb y) = V c main_arg24 y
  refine congrArg (V c main_arg24) ?_
  funext a; apply Fin.ext
  match a with
  | ⟨0, _⟩ => show win6_3.index t (0 : Fin 2) * 32 + 1 * (y 0).val = (y 0).val; omega
  | ⟨1, _⟩ => show win6_3.index t (1 : Fin 2) * 2 + 1 * (y 1).val = (y 1).val; omega

/-- Window 4's block is its whole array (the second bias row, two entries). -/
theorem iblk_4 (c : Dev nD) (t : Fin cfg6.N) : iblk6 V c 4 t = V c main_v71 := by
  obtain ⟨-, -, -, -, -, -, -, -, e0, e1, -⟩ := idx_facts t
  funext y
  show V c main_v71 (((cfg6.win 4).blk t).view.emb y) = V c main_v71 y
  refine congrArg (V c main_v71) ?_
  funext a; apply Fin.ext
  match a with
  | ⟨0, _⟩ => show win6_4.index t (0 : Fin 2) * 1 + 1 * (y 0).val = (y 0).val; omega
  | ⟨1, _⟩ => show win6_4.index t (1 : Fin 2) * 2 + 1 * (y 1).val = (y 1).val; omega

/-- Row `q`, column `j` of the output block at point `t` is row `t*10000 + q`, column `j` of the array. -/
theorem emb_5 (t : Fin cfg6.N) (q : Fin 10000) (j : Fin 2) :
    ((cfg6.win 5).blk t).view.emb (ix2 q j) = ix2 (rowOf (pt t) q) j := by
  obtain ⟨-, -, -, -, -, -, -, -, -, -, e0, e1, -⟩ := idx_facts t
  funext a; apply Fin.ext
  match a with
  | ⟨0, _⟩ => show win6_5.index t (0 : Fin 2) * 10000 + 1 * q.val = t.val * 10000 + q.val; omega
  | ⟨1, _⟩ => show win6_5.index t (1 : Fin 2) * 2 + 1 * j.val = j.val; omega

/-- What point `t` writes back is block `t` of `G`, when the body's value on ANY block holding rows `t*10000 + q` of the
    last layer's output is `G` at those rows. -/
theorem flushed_eq (c : Dev nD) (G : S100000x2.Idx → EReal)
    (hpay : ∀ (t : Fin 10) (x0 : Vec Ideal S10000x32 .f32),
      (∀ (q : Fin 10000) (l : Fin 32), x0 (ix2 q l) = V c main_v69 (ix2 (rowOf t q) l)) →
      ∀ (q : Fin 10000) (j : Fin 2),
        k6_pay1 (F := Ideal) x0 (V c main_arg22) (V c main_v70) (V c main_arg24) (V c main_v71) (ix2 q j) = G (ix2 (rowOf t q) j))
    (t : Fin cfg6.N) :
    (dat6 V c).flushed 5 t = ((cfg6.win 5).blk t).view.read (Elt Ideal) G := by
  show (cfg6.win 5).cut (grid6.coords t) ((dat6 V c).after 5 t) = _
  rw [after6_5]
  unfold out6_5
  rw [View.canon_unit_zero hz]
  simp only [View.ld_unit_zero (S := S10000x32) hz, View.ld_unit_zero (S := S32x32) hz, View.ld_unit_zero (S := S1x32) hz,
    View.ld_unit_zero (S := S32x2) hz, View.ld_unit_zero (S := S1x2) hz]
  rw [iblk_1, iblk_2, iblk_3, iblk_4]
  funext y
  obtain ⟨q, j, rfl⟩ : ∃ (q : Fin 10000) (j : Fin 2), y = ix2 q j := ⟨y 0, y 1, eq_ix2 y⟩
  show _ = G (((cfg6.win 5).blk t).view.emb (ix2 q j))
  rw [emb_5]
  exact hpay (pt t) (iblk6 V c 0 t) (fun q l => iblk_0 V c t q l) q j

/-- An index of the array is in point `t`'s block iff its row is among the block's rows. -/
theorem mem_blk (t : Fin cfg6.N) (i : S100000x2.Idx) :
    i ∈ ((cfg6.win 5).blk t).view.set ↔ ∀ a : Fin 2, win6_5.index t a * S10000x2.size a ≤ (i a).val ∧ (i a).val < win6_5.index t a * S10000x2.size a + S10000x2.size a := by
  show i ∈ ((View.whole main_v72).slice (win6_5.rect t)).set ↔ _
  rw [View.set_slice_whole, Rect.mem_set_unit]
  exact Iff.rfl

/-- The ten row blocks cover the array. -/
theorem cover (i : S100000x2.Idx) : ∃ t : Fin cfg6.N, (cfg6.win 5).flush t = true ∧ i ∈ ((cfg6.win 5).blk t).view.set := by
  have hi0 : (i 0).val < 100000 := (i 0).isLt
  have hi1 : (i 1).val < 2 := (i 1).isLt
  have hN : grid6.N = 10 := N_6
  let t : Fin cfg6.N := ⟨(i 0).val / 10000, by show (i 0).val / 10000 < grid6.N; omega⟩
  obtain ⟨-, -, -, -, -, -, -, -, -, -, e0, e1, -⟩ := idx_facts t
  have ht : t.val = (i 0).val / 10000 := rfl
  refine ⟨t, flush6_5 t, ?_⟩
  rw [mem_blk]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 2 ≤ (i 1).val ∧ (i 1).val < win6_5.index t (1 : Fin 2) * 2 + 2; omega

/-- The array after the region is `G`. -/
theorem final (c : Dev nD) (G : S100000x2.Idx → EReal)
    (hpay : ∀ (t : Fin 10) (x0 : Vec Ideal S10000x32 .f32),
      (∀ (q : Fin 10000) (l : Fin 32), x0 (ix2 q l) = V c main_v69 (ix2 (rowOf t q) l)) →
      ∀ (q : Fin 10000) (j : Fin 2),
        k6_pay1 (F := Ideal) x0 (V c main_arg22) (V c main_v70) (V c main_arg24) (V c main_v71) (ix2 q j) = G (ix2 (rowOf t q) j)) :
    (dat6 V c).arrAt 5 cfg6.N = G :=
  (dat6 V c).arrAt_eq_of_cover 5 G (fun t _ => flushed_eq V c G hpay t) cover

end Cert.KernelIdeal.Blocks6

end
-- ==== Proof.Blocks4.lean ====
/-
  Region 4 (the third layer's perceptron), from blocks to the whole array.

  Point `t` of the ten reads rows `t*10000 … t*10000+9999` of the aggregated features (window 0), the whole of the two
  weight matrices and the two bias rows (windows 1-4), and writes rows `t*10000 …` of the result (window 5). If the
  body's value at row `q` of its block is `G` at row `t*10000+q`, for every point, the array after the ten write-backs
  is `G`.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks4

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 10 :=
  (by decide +kernel : ∀ t : Fin grid4.N, _)

/-- The grid point as a number below ten. -/
def pt (t : Fin cfg4.N) : Fin 10 := ⟨t.val, (idx_facts t).2.2.2.2.2.2.2.2.2.2.2.2⟩

/-- Window 0's block at point `t` holds rows `t*10000 + q` of its array. -/
theorem iblk_0 (c : Dev nD) (t : Fin cfg4.N) (q : Fin 10000) (l : Fin 32) :
    iblk4 V c 0 t (ix2 q l) = V c main_v58 (ix2 (rowOf (pt t) q) l) := by
  obtain ⟨e0, e1, -⟩ := idx_facts t
  show V c main_v58 (((cfg4.win 0).blk t).view.emb (ix2 q l)) = V c main_v58 (ix2 (rowOf (pt t) q) l)
  refine congrArg (V c main_v58) ?_
  funext a; apply Fin.ext
  match a with
  | ⟨0, _⟩ => show win4_0.index t (0 : Fin 2) * 10000 + 1 * q.val = t.val * 10000 + q.val; omega
  | ⟨1, _⟩ => show win4_0.index t (1 : Fin 2) * 32 + 1 * l.val = l.val; omega

/-- Window 1's block is its whole array (the first weight matrix). -/
theorem iblk_1 (c : Dev nD) (t : Fin cfg4.N) : iblk4 V c 1 t = V c main_arg16 := by
  obtain ⟨-, -, e0, e1, -⟩ := idx_facts t
  funext y
  show V c main_arg16 (((cfg4.win 1).blk t).view.emb y) = V c main_arg16 y
  refine congrArg (V c main_arg16) ?_
  funext a; apply Fin.ext
  match a with
  | ⟨0, _⟩ => show win4_1.index t (0 : Fin 2) * 32 + 1 * (y 0).val = (y 0).val; omega
  | ⟨1, _⟩ => show win4_1.index t (1 : Fin 2) * 32 + 1 * (y 1).val = (y 1).val; omega

/-- Window 2's block is its whole array (the first bias row). -/
theorem iblk_2 (c : Dev nD) (t : Fin cfg4.N) : iblk4 V c 2 t = V c main_v59 := by
  obtain ⟨-, -, -, -, e0, e1, -⟩ := idx_facts t
  funext y
  show V c main_v59 (((cfg4.win 2).blk t).view.emb y) = V c main_v59 y
  refine congrArg (V c main_v59) ?_
  funext a; apply Fin.ext
  match a with
  | ⟨0, _⟩ => show win4_2.index t (0 : Fin 2) * 1 + 1 * (y 0).val = (y 0).val; omega
  | ⟨1, _⟩ => show win4_2.index t (1 : Fin 2) * 32 + 1 * (y 1).val = (y 1).val; omega

/-- Window 3's block is its whole array (the second weight matrix). -/
theorem iblk_3 (c : Dev nD) (t : Fin cfg4.N) : iblk4 V c 3 t = V c main_arg18 := by
  obtain ⟨-, -, -, -, -, -, e0, e1, -⟩ := idx_facts t
  funext y
  show V c main_arg18 (((cfg4.win 3).blk t).view.emb y) = V c main_arg18 y
  refine congrArg (V c main_arg18) ?_
  funext a; apply Fin.ext
  match a with
  | ⟨0, _⟩ => show win4_3.index t (0 : Fin 2) * 32 + 1 * (y 0).val = (y 0).val; omega
  | ⟨1, _⟩ => show win4_3.index t (1 : Fin 2) * 32 + 1 * (y 1).val = (y 1).val; omega

/-- Window 4's block is its whole array (the second bias row). -/
theorem iblk_4 (c : Dev nD) (t : Fin cfg4.N) : iblk4 V c 4 t = V c main_v60 := by
  obtain ⟨-, -, -, -, -, -, -, -, e0, e1, -⟩ := idx_facts t
  funext y
  show V c main_v60 (((cfg4.win 4).blk t).view.emb y) = V c main_v60 y
  refine congrArg (V c main_v60) ?_
  funext a; apply Fin.ext
  match a with
  | ⟨0, _⟩ => show win4_4.index t (0 : Fin 2) * 1 + 1 * (y 0).val = (y 0).val; omega
  | ⟨1, _⟩ => show win4_4.index t (1 : Fin 2) * 32 + 1 * (y 1).val = (y 1).val; omega

/-- Row `q`, column `j` of the output block at point `t` is row `t*10000 + q`, column `j` of the array. -/
theorem emb_5 (t : Fin cfg4.N) (q : Fin 10000) (j : Fin 32) :
    ((cfg4.win 5).blk t).view.emb (ix2 q j) = ix2 (rowOf (pt t) q) j := by
  obtain ⟨-, -, -, -, -, -, -, -, -, -, e0, e1, -⟩ := idx_facts t
  funext a; apply Fin.ext
  match a with
  | ⟨0, _⟩ => show win4_5.index t (0 : Fin 2) * 10000 + 1 * q.val = t.val * 10000 + q.val; omega
  | ⟨1, _⟩ => show win4_5.index t (1 : Fin 2) * 32 + 1 * j.val = j.val; omega

/-- What point `t` writes back is block `t` of `G`, when the body's value on ANY block holding rows `t*10000 + q` of the
    aggregated features is `G` at those rows. -/
theorem flushed_eq (c : Dev nD) (G : S100000x32.Idx → EReal)
    (hpay : ∀ (t : Fin 10) (x0 : Vec Ideal S10000x32 .f32),
      (∀ (q : Fin 10000) (l : Fin 32), x0 (ix2 q l) = V c main_v58 (ix2 (rowOf t q) l)) →
      ∀ (q : Fin 10000) (j : Fin 32),
        k4_pay1 (F := Ideal) x0 (V c main_arg16) (V c main_v59) (V c main_arg18) (V c main_v60) (ix2 q j) = G (ix2 (rowOf t q) j))
    (t : Fin cfg4.N) :
    (dat4 V c).flushed 5 t = ((cfg4.win 5).blk t).view.read (Elt Ideal) G := by
  show (cfg4.win 5).cut (grid4.coords t) ((dat4 V c).after 5 t) = _
  rw [after4_5]
  unfold out4_5
  rw [View.canon_unit_zero hz]
  simp only [View.ld_unit_zero (S := S10000x32) hz, View.ld_unit_zero (S := S32x32) hz, View.ld_unit_zero (S := S1x32) hz]
  rw [iblk_1, iblk_2, iblk_3, iblk_4]
  funext y
  obtain ⟨q, j, rfl⟩ : ∃ (q : Fin 10000) (j : Fin 32), y = ix2 q j := ⟨y 0, y 1, eq_ix2 y⟩
  show _ = G (((cfg4.win 5).blk t).view.emb (ix2 q j))
  rw [emb_5]
  exact hpay (pt t) (iblk4 V c 0 t) (fun q l => iblk_0 V c t q l) q j

/-- An index of the array is in point `t`'s block iff its row is among the block's rows. -/
theorem mem_blk (t : Fin cfg4.N) (i : S100000x32.Idx) :
    i ∈ ((cfg4.win 5).blk t).view.set ↔ ∀ a : Fin 2, win4_5.index t a * S10000x32.size a ≤ (i a).val ∧ (i a).val < win4_5.index t a * S10000x32.size a + S10000x32.size a := by
  show i ∈ ((View.whole main_v61).slice (win4_5.rect t)).set ↔ _
  rw [View.set_slice_whole, Rect.mem_set_unit]
  exact Iff.rfl

/-- The ten row blocks cover the array. -/
theorem cover (i : S100000x32.Idx) : ∃ t : Fin cfg4.N, (cfg4.win 5).flush t = true ∧ i ∈ ((cfg4.win 5).blk t).view.set := by
  have hi0 : (i 0).val < 100000 := (i 0).isLt
  have hi1 : (i 1).val < 32 := (i 1).isLt
  have hN : grid4.N = 10 := N_4
  let t : Fin cfg4.N := ⟨(i 0).val / 10000, by show (i 0).val / 10000 < grid4.N; omega⟩
  obtain ⟨-, -, -, -, -, -, -, -, -, -, e0, e1, -⟩ := idx_facts t
  have ht : t.val = (i 0).val / 10000 := rfl
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 32 ≤ (i 1).val ∧ (i 1).val < win4_5.index t (1 : Fin 2) * 32 + 32; omega

/-- The array after the region is `G`. -/
theorem final (c : Dev nD) (G : S100000x32.Idx → EReal)
    (hpay : ∀ (t : Fin 10) (x0 : Vec Ideal S10000x32 .f32),
      (∀ (q : Fin 10000) (l : Fin 32), x0 (ix2 q l) = V c main_v58 (ix2 (rowOf t q) l)) →
      ∀ (q : Fin 10000) (j : Fin 32),
        k4_pay1 (F := Ideal) x0 (V c main_arg16) (V c main_v59) (V c main_arg18) (V c main_v60) (ix2 q j) = G (ix2 (rowOf t q) j)) :
    (dat4 V c).arrAt 5 cfg4.N = G :=
  (dat4 V c).arrAt_eq_of_cover 5 G (fun t _ => flushed_eq V c G hpay t) cover

end Cert.KernelIdeal.Blocks4

end
-- ==== Proof.Blocks5.lean ====
/-
  Region 5 (the third layer's normalisation), from blocks to the whole array.

  Point `t` of the ten reads rows `t*10000 … t*10000+9999` of the perceptron's output (window 0) and the whole of the
  four [1,32] rows — mean, variance, scale, shift (windows 1-4) — and writes rows `t*10000 …` of the result (window 5).
  If the body's value at row `q` of its block is `G` at row `t*10000+q`, for every point, the array after the ten
  write-backs is `G`.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks5

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 10 :=
  (by decide +kernel : ∀ t : Fin grid5.N, _)

/-- The grid point as a number below ten. -/
def pt (t : Fin cfg5.N) : Fin 10 := ⟨t.val, (idx_facts t).2.2.2.2.2.2.2.2.2.2.2.2⟩

/-- Window 0's block at point `t` holds rows `t*10000 + q` of its array. -/
theorem iblk_0 (c : Dev nD) (t : Fin cfg5.N) (q : Fin 10000) (l : Fin 32) :
    iblk5 V c 0 t (ix2 q l) = V c main_v61 (ix2 (rowOf (pt t) q) l) := by
  obtain ⟨e0, e1, -⟩ := idx_facts t
  show V c main_v61 (((cfg5.win 0).blk t).view.emb (ix2 q l)) = V c main_v61 (ix2 (rowOf (pt t) q) l)
  refine congrArg (V c main_v61) ?_
  funext a; apply Fin.ext
  match a with
  | ⟨0, _⟩ => show win5_0.index t (0 : Fin 2) * 10000 + 1 * q.val = t.val * 10000 + q.val; omega
  | ⟨1, _⟩ => show win5_0.index t (1 : Fin 2) * 32 + 1 * l.val = l.val; omega

/-- Window 1's block is its whole array (the mean row). -/
theorem iblk_1 (c : Dev nD) (t : Fin cfg5.N) : iblk5 V c 1 t = V c main_v65 := by
  obtain ⟨-, -, e0, e1, -⟩ := idx_facts t
  funext y
  show V c main_v65 (((cfg5.win 1).blk t).view.emb y) = V c main_v65 y
  refine congrArg (V c main_v65) ?_
  funext a; apply Fin.ext
  match a with
  | ⟨0, _⟩ => show win5_1.index t (0 : Fin 2) * 1 + 1 * (y 0).val = (y 0).val; omega
  | ⟨1, _⟩ => show win5_1.index t (1 : Fin 2) * 32 + 1 * (y 1).val = (y 1).val; omega

/-- Window 2's block is its whole array (the variance row). -/
theorem iblk_2 (c : Dev nD) (t : Fin cfg5.N) : iblk5 V c 2 t = V c main_v66 := by
  obtain ⟨-, -, -, -, e0, e1, -⟩ := idx_facts t
  funext y
  show V c main_v66 (((cfg5.win 2).blk t).view.emb y) = V c main_v66 y
  refine congrArg (V c main_v66) ?_
  funext a; apply Fin.ext
  match a with
  | ⟨0, _⟩ => show win5_2.index t (0 : Fin 2) * 1 + 1 * (y 0).val = (y 0).val; omega
  | ⟨1, _⟩ => show win5_2.index t (1 : Fin 2) * 32 + 1 * (y 1).val = (y 1).val; omega

/-- Window 3's block is its whole array (the scale row). -/
theorem iblk_3 (c : Dev nD) (t : Fin cfg5.N) : iblk5 V c 3 t = V c main_v67 := by
  obtain ⟨-, -, -, -, -, -, e0, e1, -⟩ := idx_facts t
  funext y
  show V c main_v67 (((cfg5.win 3).blk t).view.emb y) = V c main_v67 y
  refine congrArg (V c main_v67) ?_
  funext a; apply Fin.ext
  match a with
  | ⟨0, _⟩ => show win5_3.index t (0 : Fin 2) * 1 + 1 * (y 0).val = (y 0).val; omega
  | ⟨1, _⟩ => show win5_3.index t (1 : Fin 2) * 32 + 1 * (y 1).val = (y 1).val; omega

/-- Window 4's block is its whole array (the shift row). -/
theorem iblk_4 (c : Dev nD) (t : Fin cfg5.N) : iblk5 V c 4 t = V c main_v68 := by
  obtain ⟨-, -, -, -, -, -, -, -, e0, e1, -⟩ := idx_facts t
  funext y
  show V c main_v68 (((cfg5.win 4).blk t).view.emb y) = V c main_v68 y
  refine congrArg (V c main_v68) ?_
  funext a; apply Fin.ext
  match a with
  | ⟨0, _⟩ => show win5_4.index t (0 : Fin 2) * 1 + 1 * (y 0).val = (y 0).val; omega
  | ⟨1, _⟩ => show win5_4.index t (1 : Fin 2) * 32 + 1 * (y 1).val = (y 1).val; omega

/-- Row `q`, column `j` of the output block at point `t` is row `t*10000 + q`, column `j` of the array. -/
theorem emb_5 (t : Fin cfg5.N) (q : Fin 10000) (j : Fin 32) :
    ((cfg5.win 5).blk t).view.emb (ix2 q j) = ix2 (rowOf (pt t) q) j := by
  obtain ⟨-, -, -, -, -, -, -, -, -, -, e0, e1, -⟩ := idx_facts t
  funext a; apply Fin.ext
  match a with
  | ⟨0, _⟩ => show win5_5.index t (0 : Fin 2) * 10000 + 1 * q.val = t.val * 10000 + q.val; omega
  | ⟨1, _⟩ => show win5_5.index t (1 : Fin 2) * 32 + 1 * j.val = j.val; omega

/-- What point `t` writes back is block `t` of `G`, when the body's value on ANY block holding rows `t*10000 + q` of the
    perceptron's output is `G` at those rows. -/
theorem flushed_eq (c : Dev nD) (G : S100000x32.Idx → EReal)
    (hpay : ∀ (t : Fin 10) (x5 : Vec Ideal S10000x32 .f32),
      (∀ (q : Fin 10000) (l : Fin 32), x5 (ix2 q l) = V c main_v61 (ix2 (rowOf t q) l)) →
      ∀ (q : Fin 10000) (j : Fin 32),
        k5_pay1 (F := Ideal) (V c main_v66) x5 (V c main_v65) (V c main_v67) (V c main_v68) (ix2 q j) = G (ix2 (rowOf t q) j))
    (t : Fin cfg5.N) :
    (dat5 V c).flushed 5 t = ((cfg5.win 5).blk t).view.read (Elt Ideal) G := by
  show (cfg5.win 5).cut (grid5.coords t) ((dat5 V c).after 5 t) = _
  rw [after5_5]
  unfold out5_5
  rw [View.canon_unit_zero hz]
  simp only [View.ld_unit_zero (S := S10000x32) hz, View.ld_unit_zero (S := S1x32) hz]
  rw [iblk_1, iblk_2, iblk_3, iblk_4]
  funext y
  obtain ⟨q, j, rfl⟩ : ∃ (q : Fin 10000) (j : Fin 32), y = ix2 q j := ⟨y 0, y 1, eq_ix2 y⟩
  show _ = G (((cfg5.win 5).blk t).view.emb (ix2 q j))
  rw [emb_5]
  exact hpay (pt t) (iblk5 V c 0 t) (fun q l => iblk_0 V c t q l) q j

/-- An index of the array is in point `t`'s block iff its row is among the block's rows. -/
theorem mem_blk (t : Fin cfg5.N) (i : S100000x32.Idx) :
    i ∈ ((cfg5.win 5).blk t).view.set ↔ ∀ a : Fin 2, win5_5.index t a * S10000x32.size a ≤ (i a).val ∧ (i a).val < win5_5.index t a * S10000x32.size a + S10000x32.size a := by
  show i ∈ ((View.whole main_v69).slice (win5_5.rect t)).set ↔ _
  rw [View.set_slice_whole, Rect.mem_set_unit]
  exact Iff.rfl

/-- The ten row blocks cover the array. -/
theorem cover (i : S100000x32.Idx) : ∃ t : Fin cfg5.N, (cfg5.win 5).flush t = true ∧ i ∈ ((cfg5.win 5).blk t).view.set := by
  have hi0 : (i 0).val < 100000 := (i 0).isLt
  have hi1 : (i 1).val < 32 := (i 1).isLt
  have hN : grid5.N = 10 := N_5
  let t : Fin cfg5.N := ⟨(i 0).val / 10000, by show (i 0).val / 10000 < grid5.N; omega⟩
  obtain ⟨-, -, -, -, -, -, -, -, -, -, e0, e1, -⟩ := idx_facts t
  have ht : t.val = (i 0).val / 10000 := rfl
  refine ⟨t, flush5_5 t, ?_⟩
  rw [mem_blk]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 32 ≤ (i 1).val ∧ (i 1).val < win5_5.index t (1 : Fin 2) * 32 + 32; omega

/-- The array after the region is `G`. -/
theorem final (c : Dev nD) (G : S100000x32.Idx → EReal)
    (hpay : ∀ (t : Fin 10) (x5 : Vec Ideal S10000x32 .f32),
      (∀ (q : Fin 10000) (l : Fin 32), x5 (ix2 q l) = V c main_v61 (ix2 (rowOf t q) l)) →
      ∀ (q : Fin 10000) (j : Fin 32),
        k5_pay1 (F := Ideal) (V c main_v66) x5 (V c main_v65) (V c main_v67) (V c main_v68) (ix2 q j) = G (ix2 (rowOf t q) j)) :
    (dat5 V c).arrAt 5 cfg5.N = G :=
  (dat5 V c).arrAt_eq_of_cover 5 G (fun t _ => flushed_eq V c G hpay t) cover

end Cert.KernelIdeal.Blocks5

end
-- ==== Proof.Blocks2.lean ====
/-
  Region 2 (the second layer's perceptron), from blocks to the whole array.

  Point `t` of the ten reads rows `t*10000 … t*10000+9999` of the aggregated features (window 0), the whole of the two
  weight matrices and the two bias rows (windows 1-4), and writes rows `t*10000 …` of the result (window 5). If the
  body's value at row `q` of its block is `G` at row `t*10000+q`, for every point, the array after the ten write-backs
  is `G`.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- The grid point as a number below ten. -/
def pt (t : Fin cfg2.N) : Fin 10 := ⟨t.val, (idx_facts t).2.2.2.2.2.2.2.2.2.2.2.2⟩

/-- Window 0's block at point `t` holds rows `t*10000 + q` of its array. -/
theorem iblk_0 (c : Dev nD) (t : Fin cfg2.N) (q : Fin 10000) (l : Fin 32) :
    iblk2 V c 0 t (ix2 q l) = V c main_v36 (ix2 (rowOf (pt t) q) l) := by
  obtain ⟨e0, e1, -⟩ := idx_facts t
  show V c main_v36 (((cfg2.win 0).blk t).view.emb (ix2 q l)) = V c main_v36 (ix2 (rowOf (pt t) q) l)
  refine congrArg (V c main_v36) ?_
  funext a; apply Fin.ext
  match a with
  | ⟨0, _⟩ => show win2_0.index t (0 : Fin 2) * 10000 + 1 * q.val = t.val * 10000 + q.val; omega
  | ⟨1, _⟩ => show win2_0.index t (1 : Fin 2) * 32 + 1 * l.val = l.val; omega

/-- Window 1's block is its whole array (the first weight matrix). -/
theorem iblk_1 (c : Dev nD) (t : Fin cfg2.N) : iblk2 V c 1 t = V c main_arg10 := by
  obtain ⟨-, -, e0, e1, -⟩ := idx_facts t
  funext y
  show V c main_arg10 (((cfg2.win 1).blk t).view.emb y) = V c main_arg10 y
  refine congrArg (V c main_arg10) ?_
  funext a; apply Fin.ext
  match a with
  | ⟨0, _⟩ => show win2_1.index t (0 : Fin 2) * 32 + 1 * (y 0).val = (y 0).val; omega
  | ⟨1, _⟩ => show win2_1.index t (1 : Fin 2) * 32 + 1 * (y 1).val = (y 1).val; omega

/-- Window 2's block is its whole array (the first bias row). -/
theorem iblk_2 (c : Dev nD) (t : Fin cfg2.N) : iblk2 V c 2 t = V c main_v37 := by
  obtain ⟨-, -, -, -, e0, e1, -⟩ := idx_facts t
  funext y
  show V c main_v37 (((cfg2.win 2).blk t).view.emb y) = V c main_v37 y
  refine congrArg (V c main_v37) ?_
  funext a; apply Fin.ext
  match a with
  | ⟨0, _⟩ => show win2_2.index t (0 : Fin 2) * 1 + 1 * (y 0).val = (y 0).val; omega
  | ⟨1, _⟩ => show win2_2.index t (1 : Fin 2) * 32 + 1 * (y 1).val = (y 1).val; omega

/-- Window 3's block is its whole array (the second weight matrix). -/
theorem iblk_3 (c : Dev nD) (t : Fin cfg2.N) : iblk2 V c 3 t = V c main_arg12 := by
  obtain ⟨-, -, -, -, -, -, e0, e1, -⟩ := idx_facts t
  funext y
  show V c main_arg12 (((cfg2.win 3).blk t).view.emb y) = V c main_arg12 y
  refine congrArg (V c main_arg12) ?_
  funext a; apply Fin.ext
  match a with
  | ⟨0, _⟩ => show win2_3.index t (0 : Fin 2) * 32 + 1 * (y 0).val = (y 0).val; omega
  | ⟨1, _⟩ => show win2_3.index t (1 : Fin 2) * 32 + 1 * (y 1).val = (y 1).val; omega

/-- Window 4's block is its whole array (the second bias row). -/
theorem iblk_4 (c : Dev nD) (t : Fin cfg2.N) : iblk2 V c 4 t = V c main_v38 := by
  obtain ⟨-, -, -, -, -, -, -, -, e0, e1, -⟩ := idx_facts t
  funext y
  show V c main_v38 (((cfg2.win 4).blk t).view.emb y) = V c main_v38 y
  refine congrArg (V c main_v38) ?_
  funext a; apply Fin.ext
  match a with
  | ⟨0, _⟩ => show win2_4.index t (0 : Fin 2) * 1 + 1 * (y 0).val = (y 0).val; omega
  | ⟨1, _⟩ => show win2_4.index t (1 : Fin 2) * 32 + 1 * (y 1).val = (y 1).val; omega

/-- Row `q`, column `j` of the output block at point `t` is row `t*10000 + q`, column `j` of the array. -/
theorem emb_5 (t : Fin cfg2.N) (q : Fin 10000) (j : Fin 32) :
    ((cfg2.win 5).blk t).view.emb (ix2 q j) = ix2 (rowOf (pt t) q) j := by
  obtain ⟨-, -, -, -, -, -, -, -, -, -, e0, e1, -⟩ := idx_facts t
  funext a; apply Fin.ext
  match a with
  | ⟨0, _⟩ => show win2_5.index t (0 : Fin 2) * 10000 + 1 * q.val = t.val * 10000 + q.val; omega
  | ⟨1, _⟩ => show win2_5.index t (1 : Fin 2) * 32 + 1 * j.val = j.val; omega

/-- What point `t` writes back is block `t` of `G`, when the body's value on ANY block holding rows `t*10000 + q` of the
    aggregated features is `G` at those rows. -/
theorem flushed_eq (c : Dev nD) (G : S100000x32.Idx → EReal)
    (hpay : ∀ (t : Fin 10) (x0 : Vec Ideal S10000x32 .f32),
      (∀ (q : Fin 10000) (l : Fin 32), x0 (ix2 q l) = V c main_v36 (ix2 (rowOf t q) l)) →
      ∀ (q : Fin 10000) (j : Fin 32),
        k2_pay1 (F := Ideal) x0 (V c main_arg10) (V c main_v37) (V c main_arg12) (V c main_v38) (ix2 q j) = G (ix2 (rowOf t q) j))
    (t : Fin cfg2.N) :
    (dat2 V c).flushed 5 t = ((cfg2.win 5).blk t).view.read (Elt Ideal) G := by
  show (cfg2.win 5).cut (grid2.coords t) ((dat2 V c).after 5 t) = _
  rw [after2_5]
  unfold out2_5
  rw [View.canon_unit_zero hz]
  simp only [View.ld_unit_zero (S := S10000x32) hz, View.ld_unit_zero (S := S32x32) hz, View.ld_unit_zero (S := S1x32) hz]
  rw [iblk_1, iblk_2, iblk_3, iblk_4]
  funext y
  obtain ⟨q, j, rfl⟩ : ∃ (q : Fin 10000) (j : Fin 32), y = ix2 q j := ⟨y 0, y 1, eq_ix2 y⟩
  show _ = G (((cfg2.win 5).blk t).view.emb (ix2 q j))
  rw [emb_5]
  exact hpay (pt t) (iblk2 V c 0 t) (fun q l => iblk_0 V c t q l) q j

/-- An index of the array is in point `t`'s block iff its row is among the block's rows. -/
theorem mem_blk (t : Fin cfg2.N) (i : S100000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v39).slice (win2_5.rect t)).set ↔ _
  rw [View.set_slice_whole, Rect.mem_set_unit]
  exact Iff.rfl

/-- The ten row blocks cover the array. -/
theorem cover (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  have hN : grid2.N = 10 := N_2
  let t : Fin cfg2.N := ⟨(i 0).val / 10000, by show (i 0).val / 10000 < grid2.N; omega⟩
  obtain ⟨-, -, -, -, -, -, -, -, -, -, e0, e1, -⟩ := idx_facts t
  have ht : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 32 ≤ (i 1).val ∧ (i 1).val < win2_5.index t (1 : Fin 2) * 32 + 32; omega

/-- The array after the region is `G`. -/
theorem final (c : Dev nD) (G : S100000x32.Idx → EReal)
    (hpay : ∀ (t : Fin 10) (x0 : Vec Ideal S10000x32 .f32),
      (∀ (q : Fin 10000) (l : Fin 32), x0 (ix2 q l) = V c main_v36 (ix2 (rowOf t q) l)) →
      ∀ (q : Fin 10000) (j : Fin 32),
        k2_pay1 (F := Ideal) x0 (V c main_arg10) (V c main_v37) (V c main_arg12) (V c main_v38) (ix2 q j) = G (ix2 (rowOf t q) j)) :
    (dat2 V c).arrAt 5 cfg2.N = G :=
  (dat2 V c).arrAt_eq_of_cover 5 G (fun t _ => flushed_eq V c G hpay t) cover

end Cert.KernelIdeal.Blocks2

end
-- ==== Proof.Blocks3.lean ====
/-
  Region 3 (the second layer's normalisation), from blocks to the whole array.

  Point `t` of the ten reads rows `t*10000 … t*10000+9999` of the perceptron's output (window 0) and the whole of the
  four [1,32] rows — mean, variance, scale, shift (windows 1-4) — and writes rows `t*10000 …` of the result (window 5).
  If the body's value at row `q` of its block is `G` at row `t*10000+q`, for every point, the array after the ten
  write-backs is `G`.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks3

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- The grid point as a number below ten. -/
def pt (t : Fin cfg3.N) : Fin 10 := ⟨t.val, (idx_facts t).2.2.2.2.2.2.2.2.2.2.2.2⟩

/-- Window 0's block at point `t` holds rows `t*10000 + q` of its array. -/
theorem iblk_0 (c : Dev nD) (t : Fin cfg3.N) (q : Fin 10000) (l : Fin 32) :
    iblk3 V c 0 t (ix2 q l) = V c main_v39 (ix2 (rowOf (pt t) q) l) := by
  obtain ⟨e0, e1, -⟩ := idx_facts t
  show V c main_v39 (((cfg3.win 0).blk t).view.emb (ix2 q l)) = V c main_v39 (ix2 (rowOf (pt t) q) l)
  refine congrArg (V c main_v39) ?_
  funext a; apply Fin.ext
  match a with
  | ⟨0, _⟩ => show win3_0.index t (0 : Fin 2) * 10000 + 1 * q.val = t.val * 10000 + q.val; omega
  | ⟨1, _⟩ => show win3_0.index t (1 : Fin 2) * 32 + 1 * l.val = l.val; omega

/-- Window 1's block is its whole array (the mean row). -/
theorem iblk_1 (c : Dev nD) (t : Fin cfg3.N) : iblk3 V c 1 t = V c main_v43 := by
  obtain ⟨-, -, e0, e1, -⟩ := idx_facts t
  funext y
  show V c main_v43 (((cfg3.win 1).blk t).view.emb y) = V c main_v43 y
  refine congrArg (V c main_v43) ?_
  funext a; apply Fin.ext
  match a with
  | ⟨0, _⟩ => show win3_1.index t (0 : Fin 2) * 1 + 1 * (y 0).val = (y 0).val; omega
  | ⟨1, _⟩ => show win3_1.index t (1 : Fin 2) * 32 + 1 * (y 1).val = (y 1).val; omega

/-- Window 2's block is its whole array (the variance row). -/
theorem iblk_2 (c : Dev nD) (t : Fin cfg3.N) : iblk3 V c 2 t = V c main_v44 := by
  obtain ⟨-, -, -, -, e0, e1, -⟩ := idx_facts t
  funext y
  show V c main_v44 (((cfg3.win 2).blk t).view.emb y) = V c main_v44 y
  refine congrArg (V c main_v44) ?_
  funext a; apply Fin.ext
  match a with
  | ⟨0, _⟩ => show win3_2.index t (0 : Fin 2) * 1 + 1 * (y 0).val = (y 0).val; omega
  | ⟨1, _⟩ => show win3_2.index t (1 : Fin 2) * 32 + 1 * (y 1).val = (y 1).val; omega

/-- Window 3's block is its whole array (the scale row). -/
theorem iblk_3 (c : Dev nD) (t : Fin cfg3.N) : iblk3 V c 3 t = V c main_v45 := by
  obtain ⟨-, -, -, -, -, -, e0, e1, -⟩ := idx_facts t
  funext y
  show V c main_v45 (((cfg3.win 3).blk t).view.emb y) = V c main_v45 y
  refine congrArg (V c main_v45) ?_
  funext a; apply Fin.ext
  match a with
  | ⟨0, _⟩ => show win3_3.index t (0 : Fin 2) * 1 + 1 * (y 0).val = (y 0).val; omega
  | ⟨1, _⟩ => show win3_3.index t (1 : Fin 2) * 32 + 1 * (y 1).val = (y 1).val; omega

/-- Window 4's block is its whole array (the shift row). -/
theorem iblk_4 (c : Dev nD) (t : Fin cfg3.N) : iblk3 V c 4 t = V c main_v46 := by
  obtain ⟨-, -, -, -, -, -, -, -, e0, e1, -⟩ := idx_facts t
  funext y
  show V c main_v46 (((cfg3.win 4).blk t).view.emb y) = V c main_v46 y
  refine congrArg (V c main_v46) ?_
  funext a; apply Fin.ext
  match a with
  | ⟨0, _⟩ => show win3_4.index t (0 : Fin 2) * 1 + 1 * (y 0).val = (y 0).val; omega
  | ⟨1, _⟩ => show win3_4.index t (1 : Fin 2) * 32 + 1 * (y 1).val = (y 1).val; omega

/-- Row `q`, column `j` of the output block at point `t` is row `t*10000 + q`, column `j` of the array. -/
theorem emb_5 (t : Fin cfg3.N) (q : Fin 10000) (j : Fin 32) :
    ((cfg3.win 5).blk t).view.emb (ix2 q j) = ix2 (rowOf (pt t) q) j := by
  obtain ⟨-, -, -, -, -, -, -, -, -, -, e0, e1, -⟩ := idx_facts t
  funext a; apply Fin.ext
  match a with
  | ⟨0, _⟩ => show win3_5.index t (0 : Fin 2) * 10000 + 1 * q.val = t.val * 10000 + q.val; omega
  | ⟨1, _⟩ => show win3_5.index t (1 : Fin 2) * 32 + 1 * j.val = j.val; omega

/-- What point `t` writes back is block `t` of `G`, when the body's value on ANY block holding rows `t*10000 + q` of the
    perceptron's output is `G` at those rows. -/
theorem flushed_eq (c : Dev nD) (G : S100000x32.Idx → EReal)
    (hpay : ∀ (t : Fin 10) (x5 : Vec Ideal S10000x32 .f32),
      (∀ (q : Fin 10000) (l : Fin 32), x5 (ix2 q l) = V c main_v39 (ix2 (rowOf t q) l)) →
      ∀ (q : Fin 10000) (j : Fin 32),
        k3_pay1 (F := Ideal) (V c main_v44) x5 (V c main_v43) (V c main_v45) (V c main_v46) (ix2 q j) = G (ix2 (rowOf t q) j))
    (t : Fin cfg3.N) :
    (dat3 V c).flushed 5 t = ((cfg3.win 5).blk t).view.read (Elt Ideal) G := by
  show (cfg3.win 5).cut (grid3.coords t) ((dat3 V c).after 5 t) = _
  rw [after3_5]
  unfold out3_5
  rw [View.canon_unit_zero hz]
  simp only [View.ld_unit_zero (S := S10000x32) hz, View.ld_unit_zero (S := S1x32) hz]
  rw [iblk_1, iblk_2, iblk_3, iblk_4]
  funext y
  obtain ⟨q, j, rfl⟩ : ∃ (q : Fin 10000) (j : Fin 32), y = ix2 q j := ⟨y 0, y 1, eq_ix2 y⟩
  show _ = G (((cfg3.win 5).blk t).view.emb (ix2 q j))
  rw [emb_5]
  exact hpay (pt t) (iblk3 V c 0 t) (fun q l => iblk_0 V c t q l) q j

/-- An index of the array is in point `t`'s block iff its row is among the block's rows. -/
theorem mem_blk (t : Fin cfg3.N) (i : S100000x32.Idx) :
    i ∈ ((cfg3.win 5).blk t).view.set ↔ ∀ a : Fin 2, win3_5.index t a * S10000x32.size a ≤ (i a).val ∧ (i a).val < win3_5.index t a * S10000x32.size a + S10000x32.size a := by
  show i ∈ ((View.whole main_v47).slice (win3_5.rect t)).set ↔ _
  rw [View.set_slice_whole, Rect.mem_set_unit]
  exact Iff.rfl

/-- The ten row blocks cover the array. -/
theorem cover (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  have hN : grid3.N = 10 := N_3
  let t : Fin cfg3.N := ⟨(i 0).val / 10000, by show (i 0).val / 10000 < grid3.N; omega⟩
  obtain ⟨-, -, -, -, -, -, -, -, -, -, e0, e1, -⟩ := idx_facts t
  have ht : t.val = (i 0).val / 10000 := rfl
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 32 ≤ (i 1).val ∧ (i 1).val < win3_5.index t (1 : Fin 2) * 32 + 32; omega

/-- The array after the region is `G`. -/
theorem final (c : Dev nD) (G : S100000x32.Idx → EReal)
    (hpay : ∀ (t : Fin 10) (x5 : Vec Ideal S10000x32 .f32),
      (∀ (q : Fin 10000) (l : Fin 32), x5 (ix2 q l) = V c main_v39 (ix2 (rowOf t q) l)) →
      ∀ (q : Fin 10000) (j : Fin 32),
        k3_pay1 (F := Ideal) (V c main_v44) x5 (V c main_v43) (V c main_v45) (V c main_v46) (ix2 q j) = G (ix2 (rowOf t q) j)) :
    (dat3 V c).arrAt 5 cfg3.N = G :=
  (dat3 V c).arrAt_eq_of_cover 5 G (fun t _ => flushed_eq V c G hpay t) cover

end Cert.KernelIdeal.Blocks3

end
-- ==== Proof.Blocks0.lean ====
/-
  Region 0 (the first layer's perceptron), from blocks to the whole array.

  The grid has ten points; point `t` reads rows `t*10000 … t*10000+9999` of the aggregated features (window 0), the
  whole of the two weight matrices and the two bias rows (windows 1-4), and writes rows `t*10000 …` of the result
  (window 5). So if the body's value at row `q` of its block is `G` at row `t*10000+q` of the whole array, for every
  point, the array after the ten write-backs IS `G`: the ten row blocks tile the 100000 rows.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- The grid point as a number below ten. -/
def pt (t : Fin cfg0.N) : Fin 10 := ⟨t.val, (idx_facts t).2.2.2.2.2.2.2.2.2.2.2.2⟩

/-- Window 0's block at point `t` holds rows `t*10000 + q` of its array. -/
theorem iblk_0 (c : Dev nD) (t : Fin cfg0.N) (q : Fin 10000) (l : Fin 128) :
    iblk0 V c 0 t (ix2 q l) = V c main_v14 (ix2 (rowOf (pt t) q) l) := by
  obtain ⟨e0, e1, -⟩ := idx_facts t
  show V c main_v14 (((cfg0.win 0).blk t).view.emb (ix2 q l)) = V c main_v14 (ix2 (rowOf (pt t) q) l)
  refine congrArg (V c main_v14) ?_
  funext a; apply Fin.ext
  match a with
  | ⟨0, _⟩ => show win0_0.index t (0 : Fin 2) * 10000 + 1 * q.val = t.val * 10000 + q.val; omega
  | ⟨1, _⟩ => show win0_0.index t (1 : Fin 2) * 128 + 1 * l.val = l.val; omega

/-- Window 1's block is its whole array (the first weight matrix). -/
theorem iblk_1 (c : Dev nD) (t : Fin cfg0.N) : iblk0 V c 1 t = V c main_arg4 := by
  obtain ⟨-, -, e0, e1, -⟩ := idx_facts t
  funext y
  show V c main_arg4 (((cfg0.win 1).blk t).view.emb y) = V c main_arg4 y
  refine congrArg (V c main_arg4) ?_
  funext a; apply Fin.ext
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- Window 2's block is its whole array (the first bias row). -/
theorem iblk_2 (c : Dev nD) (t : Fin cfg0.N) : iblk0 V c 2 t = V c main_v15 := by
  obtain ⟨-, -, -, -, e0, e1, -⟩ := idx_facts t
  funext y
  show V c main_v15 (((cfg0.win 2).blk t).view.emb y) = V c main_v15 y
  refine congrArg (V c main_v15) ?_
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- Window 3's block is its whole array (the second weight matrix). -/
theorem iblk_3 (c : Dev nD) (t : Fin cfg0.N) : iblk0 V c 3 t = V c main_arg6 := by
  obtain ⟨-, -, -, -, -, -, e0, e1, -⟩ := idx_facts t
  funext y
  show V c main_arg6 (((cfg0.win 3).blk t).view.emb y) = V c main_arg6 y
  refine congrArg (V c main_arg6) ?_
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- Window 4's block is its whole array (the second bias row). -/
theorem iblk_4 (c : Dev nD) (t : Fin cfg0.N) : iblk0 V c 4 t = V c main_v16 := by
  obtain ⟨-, -, -, -, -, -, -, -, e0, e1, -⟩ := idx_facts t
  funext y
  show V c main_v16 (((cfg0.win 4).blk t).view.emb y) = V c main_v16 y
  refine congrArg (V c main_v16) ?_
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Row `q`, column `j` of the output block at point `t` is row `t*10000 + q`, column `j` of the array. -/
theorem emb_5 (t : Fin cfg0.N) (q : Fin 10000) (j : Fin 32) :
    ((cfg0.win 5).blk t).view.emb (ix2 q j) = ix2 (rowOf (pt t) q) j := by
  obtain ⟨-, -, -, -, -, -, -, -, -, -, e0, e1, -⟩ := idx_facts t
  funext a; apply Fin.ext
  match a with
  | ⟨0, _⟩ => show win0_5.index t (0 : Fin 2) * 10000 + 1 * q.val = t.val * 10000 + q.val; omega
  | ⟨1, _⟩ => show win0_5.index t (1 : Fin 2) * 32 + 1 * j.val = j.val; omega

/-- What point `t` writes back is block `t` of `G`, when the body's value on ANY block holding rows `t*10000 + q` of the
    aggregated features is `G` at those rows. -/
theorem flushed_eq (c : Dev nD) (G : S100000x32.Idx → EReal)
    (hpay : ∀ (t : Fin 10) (x0 : Vec Ideal S10000x128 .f32),
      (∀ (q : Fin 10000) (l : Fin 128), x0 (ix2 q l) = V c main_v14 (ix2 (rowOf t q) l)) →
      ∀ (q : Fin 10000) (j : Fin 32),
        k0_pay1 (F := Ideal) x0 (V c main_arg4) (V c main_v15) (V c main_arg6) (V c main_v16) (ix2 q j) = G (ix2 (rowOf t q) j))
    (t : Fin cfg0.N) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero hz]
  simp only [View.ld_unit_zero (S := S10000x128) hz, View.ld_unit_zero (S := S128x32) hz, View.ld_unit_zero (S := S1x32) hz,
    View.ld_unit_zero (S := S32x32) hz]
  rw [iblk_1, iblk_2, iblk_3, iblk_4]
  funext y
  obtain ⟨q, j, rfl⟩ : ∃ (q : Fin 10000) (j : Fin 32), y = ix2 q j := ⟨y 0, y 1, eq_ix2 y⟩
  show _ = G (((cfg0.win 5).blk t).view.emb (ix2 q j))
  rw [emb_5]
  exact hpay (pt t) (iblk0 V c 0 t) (fun q l => iblk_0 V c t q l) q j

/-- An index of the array is in point `t`'s block iff its row is among the block's rows. -/
theorem mem_blk (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v17).slice (win0_5.rect t)).set ↔ _
  rw [View.set_slice_whole, Rect.mem_set_unit]
  exact Iff.rfl

/-- The ten row blocks cover the array. -/
theorem cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 10 := N_0
  let t : Fin cfg0.N := ⟨(i 0).val / 10000, by show (i 0).val / 10000 < grid0.N; omega⟩
  obtain ⟨-, -, -, -, -, -, -, -, -, -, e0, e1, -⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 32 ≤ (i 1).val ∧ (i 1).val < win0_5.index t (1 : Fin 2) * 32 + 32; omega

/-- The array after the region is `G`. -/
theorem final (c : Dev nD) (G : S100000x32.Idx → EReal)
    (hpay : ∀ (t : Fin 10) (x0 : Vec Ideal S10000x128 .f32),
      (∀ (q : Fin 10000) (l : Fin 128), x0 (ix2 q l) = V c main_v14 (ix2 (rowOf t q) l)) →
      ∀ (q : Fin 10000) (j : Fin 32),
        k0_pay1 (F := Ideal) x0 (V c main_arg4) (V c main_v15) (V c main_arg6) (V c main_v16) (ix2 q j) = G (ix2 (rowOf t q) j)) :
    (dat0 V c).arrAt 5 cfg0.N = G :=
  (dat0 V c).arrAt_eq_of_cover 5 G (fun t _ => flushed_eq V c G hpay t) cover

end Cert.KernelIdeal.Blocks0

end
-- ==== Proof.Blocks1.lean ====
/-
  Region 1 (the first layer's normalisation), from blocks to the whole array.

  Point `t` of the ten reads rows `t*10000 … t*10000+9999` of the perceptron's output (window 0) and the whole of the
  four [1,32] rows — mean, variance, scale, shift (windows 1-4) — and writes rows `t*10000 …` of the result (window 5).
  If the body's value at row `q` of its block is `G` at row `t*10000+q`, for every point, the array after the ten
  write-backs is `G`.
-/
import proofs.«163704_j39694087750181_1_alg».proof.Proof.Gen.KernelIdeal.Frame
import proofs.«163704_j39694087750181_1_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.ReferenceIdeal.Spec (rowOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 5 are at row block `t`, the others at the one block there is. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- The grid point as a number below ten. -/
def pt (t : Fin cfg1.N) : Fin 10 := ⟨t.val, (idx_facts t).2.2.2.2.2.2.2.2.2.2.2.2⟩

/-- Window 0's block at point `t` holds rows `t*10000 + q` of its array. -/
theorem iblk_0 (c : Dev nD) (t : Fin cfg1.N) (q : Fin 10000) (l : Fin 32) :
    iblk1 V c 0 t (ix2 q l) = V c main_v17 (ix2 (rowOf (pt t) q) l) := by
  obtain ⟨e0, e1, -⟩ := idx_facts t
  show V c main_v17 (((cfg1.win 0).blk t).view.emb (ix2 q l)) = V c main_v17 (ix2 (rowOf (pt t) q) l)
  refine congrArg (V c main_v17) ?_
  funext a; apply Fin.ext
  match a with
  | ⟨0, _⟩ => show win1_0.index t (0 : Fin 2) * 10000 + 1 * q.val = t.val * 10000 + q.val; omega
  | ⟨1, _⟩ => show win1_0.index t (1 : Fin 2) * 32 + 1 * l.val = l.val; omega

/-- Window 1's block is its whole array (the mean row). -/
theorem iblk_1 (c : Dev nD) (t : Fin cfg1.N) : iblk1 V c 1 t = V c main_v21 := by
  obtain ⟨-, -, e0, e1, -⟩ := idx_facts t
  funext y
  show V c main_v21 (((cfg1.win 1).blk t).view.emb y) = V c main_v21 y
  refine congrArg (V c main_v21) ?_
  funext a; apply Fin.ext
  match a with
  | ⟨0, _⟩ => show win1_1.index t (0 : Fin 2) * 1 + 1 * (y 0).val = (y 0).val; omega
  | ⟨1, _⟩ => show win1_1.index t (1 : Fin 2) * 32 + 1 * (y 1).val = (y 1).val; omega

/-- Window 2's block is its whole array (the variance row). -/
theorem iblk_2 (c : Dev nD) (t : Fin cfg1.N) : iblk1 V c 2 t = V c main_v22 := by
  obtain ⟨-, -, -, -, e0, e1, -⟩ := idx_facts t
  funext y
  show V c main_v22 (((cfg1.win 2).blk t).view.emb y) = V c main_v22 y
  refine congrArg (V c main_v22) ?_
  funext a; apply Fin.ext
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- Window 3's block is its whole array (the scale row). -/
theorem iblk_3 (c : Dev nD) (t : Fin cfg1.N) : iblk1 V c 3 t = V c main_v23 := by
  obtain ⟨-, -, -, -, -, -, e0, e1, -⟩ := idx_facts t
  funext y
  show V c main_v23 (((cfg1.win 3).blk t).view.emb y) = V c main_v23 y
  refine congrArg (V c main_v23) ?_
  funext a; apply Fin.ext
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- Window 4's block is its whole array (the shift row). -/
theorem iblk_4 (c : Dev nD) (t : Fin cfg1.N) : iblk1 V c 4 t = V c main_v24 := by
  obtain ⟨-, -, -, -, -, -, -, -, e0, e1, -⟩ := idx_facts t
  funext y
  show V c main_v24 (((cfg1.win 4).blk t).view.emb y) = V c main_v24 y
  refine congrArg (V c main_v24) ?_
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- Row `q`, column `j` of the output block at point `t` is row `t*10000 + q`, column `j` of the array. -/
theorem emb_5 (t : Fin cfg1.N) (q : Fin 10000) (j : Fin 32) :
    ((cfg1.win 5).blk t).view.emb (ix2 q j) = ix2 (rowOf (pt t) q) j := by
  obtain ⟨-, -, -, -, -, -, -, -, -, -, e0, e1, -⟩ := idx_facts t
  funext a; apply Fin.ext
  match a with
  | ⟨0, _⟩ => show win1_5.index t (0 : Fin 2) * 10000 + 1 * q.val = t.val * 10000 + q.val; omega
  | ⟨1, _⟩ => show win1_5.index t (1 : Fin 2) * 32 + 1 * j.val = j.val; omega

/-- What point `t` writes back is block `t` of `G`, when the body's value on ANY block holding rows `t*10000 + q` of the
    perceptron's output is `G` at those rows. -/
theorem flushed_eq (c : Dev nD) (G : S100000x32.Idx → EReal)
    (hpay : ∀ (t : Fin 10) (x5 : Vec Ideal S10000x32 .f32),
      (∀ (q : Fin 10000) (l : Fin 32), x5 (ix2 q l) = V c main_v17 (ix2 (rowOf t q) l)) →
      ∀ (q : Fin 10000) (j : Fin 32),
        k1_pay1 (F := Ideal) (V c main_v22) x5 (V c main_v21) (V c main_v23) (V c main_v24) (ix2 q j) = G (ix2 (rowOf t q) j))
    (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S10000x32) hz, View.ld_unit_zero (S := S1x32) hz]
  rw [iblk_1, iblk_2, iblk_3, iblk_4]
  funext y
  obtain ⟨q, j, rfl⟩ : ∃ (q : Fin 10000) (j : Fin 32), y = ix2 q j := ⟨y 0, y 1, eq_ix2 y⟩
  show _ = G (((cfg1.win 5).blk t).view.emb (ix2 q j))
  rw [emb_5]
  exact hpay (pt t) (iblk1 V c 0 t) (fun q l => iblk_0 V c t q l) q j

/-- An index of the array is in point `t`'s block iff its row is among the block's rows. -/
theorem mem_blk (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v25).slice (win1_5.rect t)).set ↔ _
  rw [View.set_slice_whole, Rect.mem_set_unit]
  exact Iff.rfl

/-- The ten row blocks cover the array. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 10 := N_1
  let t : Fin cfg1.N := ⟨(i 0).val / 10000, by show (i 0).val / 10000 < grid1.N; omega⟩
  obtain ⟨-, -, -, -, -, -, -, -, -, -, e0, e1, -⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- The array after the region is `G`. -/
theorem final (c : Dev nD) (G : S100000x32.Idx → EReal)
    (hpay : ∀ (t : Fin 10) (x5 : Vec Ideal S10000x32 .f32),
      (∀ (q : Fin 10000) (l : Fin 32), x5 (ix2 q l) = V c main_v17 (ix2 (rowOf t q) l)) →
      ∀ (q : Fin 10000) (j : Fin 32),
        k1_pay1 (F := Ideal) (V c main_v22) x5 (V c main_v21) (V c main_v23) (V c main_v24) (ix2 q j) = G (ix2 (rowOf t q) j)) :
    (dat1 V c).arrAt 5 cfg1.N = G :=
  (dat1 V c).arrAt_eq_of_cover 5 G (fun t _ => flushed_eq V c G hpay t) cover

end Cert.KernelIdeal.Blocks1

end
-- ==== Proof.Chain1.lean ====
/-
  The first layer of the idealized kernel program, read through its segments.

  Region 0 is entered with the aggregated features `x + Σ x[src]`, the two weight matrices and the two biases as
  [1,32] rows; it leaves the perceptron's output `r`. The host then takes `r`'s column means and variances as [1,32]
  rows and reshapes the scale and shift; region 1 leaves `((r - mean) · rsqrt(var + ε)) · g + β`. That is the reference's
  first layer of the launch arguments.
-/
import proofs.«163704_j39694087750181_1_alg».proof.Proof.Gen.KernelIdeal.Frame
import proofs.«163704_j39694087750181_1_alg».proof.Proof.Spec
import proofs.«163704_j39694087750181_1_alg».proof.Proof.KSpec
import proofs.«163704_j39694087750181_1_alg».proof.Proof.PayAt
import proofs.«163704_j39694087750181_1_alg».proof.Proof.GapFacts
import proofs.«163704_j39694087750181_1_alg».proof.Proof.Blocks0
import proofs.«163704_j39694087750181_1_alg».proof.Proof.Blocks1
import Idealize.ShloMosaic.Lib.StableHlo.Run
import Idealize.ShloMosaic.Lib.Pipeline.Value
import Idealize.ShloMosaic.PureOps.Ideal

set_option maxRecDepth 16384

noncomputable section

namespace Cert.KernelIdeal.Chain1

open Cert.KernelIdeal Cert.KernelIdeal.Gen Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## Region 0's entry contents -/

theorem W1_v1 : W1 m ρ c (Proc.devRef .tc main_v1) = KSpec.srcOf (arg m c main_arg1) := by
  show StableHlo.after hostOps0 (W0 m ρ c) (Proc.devRef .tc main_v1) = _
  after_results_simp
  rfl

theorem W1_v3 : W1 m ρ c (Proc.devRef .tc main_v3) = KSpec.dstOf (arg m c main_arg1) := by
  show StableHlo.after hostOps0 (W0 m ρ c) (Proc.devRef .tc main_v3) = _
  after_results_simp
  rfl

attribute [local irreducible] Host.gather Host.scatterAdd in
theorem W1_v14 (G : GapFacts) : W1 m ρ c (Proc.devRef .tc main_v14) = Cert.ReferenceIdeal.Spec.aggr128 (F := Ideal) (arg m c main_arg0) (arg m c main_arg1) := by
  have h : W1 m ρ c (Proc.devRef .tc main_v14)
      = KSpec.aggr128 (F := Ideal) (arg m c main_arg0) (KSpec.srcOf (arg m c main_arg1)) (KSpec.dstOf (arg m c main_arg1)) := by
    show StableHlo.after hostOps0 (W0 m ρ c) (Proc.devRef .tc main_v14) = _
    after_results_simp
    rfl
  rw [h, G.srcOf_eq, G.dstOf_eq]
  exact G.aggr128_eq _ _

theorem W1_arg4 : W1 m ρ c (Proc.devRef .tc main_arg4) = arg m c main_arg4 := by
  show StableHlo.after hostOps0 (W0 m ρ c) (Proc.devRef .tc main_arg4) = _
  after_results_simp

theorem W1_arg6 : W1 m ρ c (Proc.devRef .tc main_arg6) = arg m c main_arg6 := by
  show StableHlo.after hostOps0 (W0 m ρ c) (Proc.devRef .tc main_arg6) = _
  after_results_simp

theorem W1_v15 (G : GapFacts) : W1 m ρ c (Proc.devRef .tc main_v15) = Cert.ReferenceIdeal.Spec.asRow (F := Ideal) (arg m c main_arg5) := by
  have h : W1 m ρ c (Proc.devRef .tc main_v15) = shapeCast S1x32 (arg m c main_arg5) shapeCasts_S32_S1x32 := by
    show StableHlo.after hostOps0 (W0 m ρ c) (Proc.devRef .tc main_v15) = _
    after_results_simp
    rfl
  rw [h]; exact G.asRow_eq _ _

theorem W1_v16 (G : GapFacts) : W1 m ρ c (Proc.devRef .tc main_v16) = Cert.ReferenceIdeal.Spec.asRow (F := Ideal) (arg m c main_arg7) := by
  have h : W1 m ρ c (Proc.devRef .tc main_v16) = shapeCast S1x32 (arg m c main_arg7) shapeCasts_S32_S1x32 := by
    show StableHlo.after hostOps0 (W0 m ρ c) (Proc.devRef .tc main_v16) = _
    after_results_simp
    rfl
  rw [h]; exact G.asRow_eq _ _

/-! ## Region 0 leaves the perceptron's output -/

/-- The first perceptron's output as the reference states it. -/
def r1 : FVec Ideal S100000x32 .f32 :=
  Cert.ReferenceIdeal.Spec.mlp128 (F := Ideal) (Cert.ReferenceIdeal.Spec.aggr128 (F := Ideal) (arg m c main_arg0) (arg m c main_arg1)) (arg m c main_arg4)
    (Cert.ReferenceIdeal.Spec.asRow (F := Ideal) (arg m c main_arg5)) (arg m c main_arg6) (Cert.ReferenceIdeal.Spec.asRow (F := Ideal) (arg m c main_arg7))

theorem W2_v17 (G : GapFacts) : W2 m ρ c (Proc.devRef .tc main_v17) = r1 m c := by
  refine (W2_arr m ρ c 5).trans (Blocks0.final (V1 m ρ) c (r1 m c) fun t x0 h0 q j => ?_)
  have e14 : V1 m ρ c main_v14 = _ := W1_v14 m ρ c G
  rw [show V1 m ρ c main_arg4 = _ from W1_arg4 m ρ c, show V1 m ρ c main_v15 = _ from W1_v15 m ρ c G,
    show V1 m ρ c main_arg6 = _ from W1_arg6 m ρ c, show V1 m ρ c main_v16 = _ from W1_v16 m ρ c G]
  exact PayAt.mlp128_at _ _ _ _ _ x0 t (fun q l => (h0 q l).trans (congrFun e14 _)) q j

/-! ## Region 1's entry contents -/

theorem W5_v17 : W5 m ρ c (Proc.devRef .tc main_v17) = W2 m ρ c (Proc.devRef .tc main_v17) := by
  show StableHlo.after hostOps1_2 (StableHlo.after hostOps1_1 (StableHlo.after hostOps1 (W2 m ρ c))) (Proc.devRef .tc main_v17) = _
  after_results_simp

attribute [local irreducible] Host.reduceAdd in
theorem W5_v21 : W5 m ρ c (Proc.devRef .tc main_v21) = KSpec.meanRow (F := Ideal) (W2 m ρ c (Proc.devRef .tc main_v17)) := by
  show StableHlo.after hostOps1_2 (StableHlo.after hostOps1_1 (StableHlo.after hostOps1 (W2 m ρ c))) (Proc.devRef .tc main_v21) = _
  after_results_simp
  rfl

attribute [local irreducible] Host.reduceAdd in
theorem W5_v22 : W5 m ρ c (Proc.devRef .tc main_v22)
    = KSpec.varRow (F := Ideal) (W2 m ρ c (Proc.devRef .tc main_v17)) (constantI S_ 32 0#32) := by
  show StableHlo.after hostOps1_2 (StableHlo.after hostOps1_1 (StableHlo.after hostOps1 (W2 m ρ c))) (Proc.devRef .tc main_v22) = _
  after_results_simp
  rfl

theorem W5_v23 (G : GapFacts) : W5 m ρ c (Proc.devRef .tc main_v23) = Cert.ReferenceIdeal.Spec.asRow (F := Ideal) (arg m c main_arg8) := by
  have h : W5 m ρ c (Proc.devRef .tc main_v23) = shapeCast S1x32 (arg m c main_arg8) shapeCasts_S32_S1x32 := by
    show StableHlo.after hostOps1_2 (StableHlo.after hostOps1_1 (StableHlo.after hostOps1 (W2 m ρ c))) (Proc.devRef .tc main_v23) = _
    after_results_simp
    rw [W2_of_ne m ρ c main_arg8 (by decide)]
    show (fun i => shapeCast S1x32 (StableHlo.after hostOps0 (W0 m ρ c) (Proc.devRef .tc main_arg8)) shapeCasts_S32_S1x32 i) = _
    after_results_simp
  rw [h]; exact G.asRow_eq _ _

theorem W5_v24 (G : GapFacts) : W5 m ρ c (Proc.devRef .tc main_v24) = Cert.ReferenceIdeal.Spec.asRow (F := Ideal) (arg m c main_arg9) := by
  have h : W5 m ρ c (Proc.devRef .tc main_v24) = shapeCast S1x32 (arg m c main_arg9) shapeCasts_S32_S1x32 := by
    show StableHlo.after hostOps1_2 (StableHlo.after hostOps1_1 (StableHlo.after hostOps1 (W2 m ρ c))) (Proc.devRef .tc main_v24) = _
    after_results_simp
    rw [W2_of_ne m ρ c main_arg9 (by decide)]
    show (fun i => shapeCast S1x32 (StableHlo.after hostOps0 (W0 m ρ c) (Proc.devRef .tc main_arg9)) shapeCasts_S32_S1x32 i) = _
    after_results_simp
  rw [h]; exact G.asRow_eq _ _

/-! ## Region 1 leaves the first layer -/

/-- The first layer as the reference states it. -/
def h1 : FVec Ideal S100000x32 .f32 :=
  Cert.ReferenceIdeal.Spec.layer128 (F := Ideal) (arg m c main_arg0) (arg m c main_arg1) (arg m c main_arg4) (arg m c main_arg5) (arg m c main_arg6)
    (arg m c main_arg7) (arg m c main_arg8) (arg m c main_arg9)

theorem W6_v25 (G : GapFacts) : W6 m ρ c (Proc.devRef .tc main_v25) = h1 m c := by
  refine (W6_arr m ρ c 5).trans (Blocks1.final (V5 m ρ) c (h1 m c) fun t x5 h5 q j => ?_)
  have e17 : V5 m ρ c main_v17 = r1 m c := (W5_v17 m ρ c).trans (W2_v17 m ρ c G)
  have e21 : V5 m ρ c main_v21 = Cert.ReferenceIdeal.Spec.meanRow (F := Ideal) (r1 m c) := by
    rw [show V5 m ρ c main_v21 = _ from W5_v21 m ρ c, W2_v17 m ρ c G]; exact G.meanRow_eq _
  have e22 : PayAt.invOfVar (V5 m ρ c main_v22) = Cert.ReferenceIdeal.Spec.invRow (F := Ideal) (r1 m c) (constantI S_ 32 0#32) := by
    rw [show V5 m ρ c main_v22 = _ from W5_v22 m ρ c, W2_v17 m ρ c G]; exact G.invRow_eq _ _
  rw [show V5 m ρ c main_v23 = _ from W5_v23 m ρ c G, show V5 m ρ c main_v24 = _ from W5_v24 m ρ c G]
  refine (PayAt.bn_at (r1 m c) _ _ _ _ x5 t (fun q l => (h5 q l).trans (congrFun e17 _)) q j).trans ?_
  rw [e21, e22]
  rfl

/-! ## What the later layers still need: the edges' node lists, kept since the first stretch -/

theorem W6_v1 : W6 m ρ c (Proc.devRef .tc main_v1) = KSpec.srcOf (arg m c main_arg1) := by
  rw [W6_of_ne m ρ c main_v1 (by decide)]
  show StableHlo.after hostOps1_2 (StableHlo.after hostOps1_1 (StableHlo.after hostOps1 (W2 m ρ c))) (Proc.devRef .tc main_v1) = _
  after_results_simp
  rw [W2_of_ne m ρ c main_v1 (by decide)]
  exact W1_v1 m ρ c

theorem W6_v3 : W6 m ρ c (Proc.devRef .tc main_v3) = KSpec.dstOf (arg m c main_arg1) := by
  rw [W6_of_ne m ρ c main_v3 (by decide)]
  show StableHlo.after hostOps1_2 (StableHlo.after hostOps1_1 (StableHlo.after hostOps1 (W2 m ρ c))) (Proc.devRef .tc main_v3) = _
  after_results_simp
  rw [W2_of_ne m ρ c main_v3 (by decide)]
  exact W1_v3 m ρ c

/-- An argument array is as launched at the first layer's end. -/
theorem W6_arg (b : Ref sig .tc) (h6 : ∀ w, Pipeline.arrRef spec1 w ≠ b) (h2 : ∀ w, Pipeline.arrRef spec0 w ≠ b)
    (hk1 : StableHlo.after hostOps1_2 (StableHlo.after hostOps1_1 (StableHlo.after hostOps1 (W2 m ρ c))) (Proc.devRef .tc b) = W2 m ρ c (Proc.devRef .tc b))
    (hk0 : StableHlo.after hostOps0 (W0 m ρ c) (Proc.devRef .tc b) = W0 m ρ c (Proc.devRef .tc b)) :
    W6 m ρ c (Proc.devRef .tc b) = W0 m ρ c (Proc.devRef .tc b) :=
  (W6_of_ne m ρ c b h6).trans (hk1.trans ((W2_of_ne m ρ c b h2).trans hk0))

/-- Closes `W6 m ρ c ↑b = W0 m ρ c ↑b` for an argument buffer `b` given by name. -/
macro "arg_at_W6" : tactic =>
  `(tactic| exact Cert.KernelIdeal.Chain1.W6_arg _ _ _ _ (by decide) (by decide) (by after_results_simp) (by after_results_simp))

end Cert.KernelIdeal.Chain1

end
-- ==== Proof.Chain2.lean ====
/-
  The second layer of the idealized kernel program, read through its segments.

  The host adds to the first layer's output `h` its neighbour sum `Σ h[src]` (the node lists are those of the first
  stretch) and reshapes the two biases; region 2 leaves the perceptron's output `r`; the host takes `r`'s column means
  and variances as [1,32] rows and reshapes the scale and shift; region 3 leaves the normalised `r`. That is the
  reference's second layer of the first layer's output and the launch arguments.
-/
import proofs.«163704_j39694087750181_1_alg».proof.Proof.Gen.KernelIdeal.Frame
import proofs.«163704_j39694087750181_1_alg».proof.Proof.Spec
import proofs.«163704_j39694087750181_1_alg».proof.Proof.KSpec
import proofs.«163704_j39694087750181_1_alg».proof.Proof.PayAt
import proofs.«163704_j39694087750181_1_alg».proof.Proof.GapFacts
import proofs.«163704_j39694087750181_1_alg».proof.Proof.Blocks2
import proofs.«163704_j39694087750181_1_alg».proof.Proof.Blocks3
import proofs.«163704_j39694087750181_1_alg».proof.Proof.Chain1
import Idealize.ShloMosaic.Lib.StableHlo.Run
import Idealize.ShloMosaic.Lib.Pipeline.Value
import Idealize.ShloMosaic.PureOps.Ideal

set_option maxRecDepth 16384

noncomputable section

namespace Cert.KernelIdeal.Chain2

open Cert.KernelIdeal Cert.KernelIdeal.Gen Idealize.ShloMosaic Idealize.ShloMosaic.TcCoe Idealize.ShloMosaic.ValueIdx
open Idealize.SL Idealize.SL.Sem Idealize.ShloMosaic.StableHlo
open Cert.KernelIdeal.Chain1 (arg)

variable (m : (ℓ : Loc nD τ sig) → Buf (Elt Ideal) ℓ) (ρ : Dev nD → PrngReg) (c : Dev nD)

/-! ## Region 2's entry contents -/

attribute [local irreducible] Host.gather Host.scatterAdd in
theorem W7_v36 (G : GapFacts) : W7 m ρ c (Proc.devRef .tc main_v36) = Cert.ReferenceIdeal.Spec.aggr32 (F := Ideal) (Chain1.h1 m c) (arg m c main_arg1) := by
  have h : W7 m ρ c (Proc.devRef .tc main_v36)
      = KSpec.aggr32 (F := Ideal) (W6 m ρ c (Proc.devRef .tc main_v25)) (W6 m ρ c (Proc.devRef .tc main_v1)) (W6 m ρ c (Proc.devRef .tc main_v3)) := by
    show StableHlo.after hostOps2 (W6 m ρ c) (Proc.devRef .tc main_v36) = _
    after_results_simp
    rfl
  rw [h, Chain1.W6_v25 m ρ c G, Chain1.W6_v1 m ρ c, Chain1.W6_v3 m ρ c, G.srcOf_eq, G.dstOf_eq]
  exact G.aggr32_eq _ _

theorem W7_arg10 : W7 m ρ c (Proc.devRef .tc main_arg10) = arg m c main_arg10 := by
  have h : W7 m ρ c (Proc.devRef .tc main_arg10) = W6 m ρ c (Proc.devRef .tc main_arg10) := by
    show StableHlo.after hostOps2 (W6 m ρ c) (Proc.devRef .tc main_arg10) = _
    after_results_simp
  rw [h]; arg_at_W6

theorem W7_arg12 : W7 m ρ c (Proc.devRef .tc main_arg12) = arg m c main_arg12 := by
  have h : W7 m ρ c (Proc.devRef .tc main_arg12) = W6 m ρ c (Proc.devRef .tc main_arg12) := by
    show StableHlo.after hostOps2 (W6 m ρ c) (Proc.devRef .tc main_arg12) = _
    after_results_simp
  rw [h]; arg_at_W6

theorem W7_v37 (G : GapFacts) : W7 m ρ c (Proc.devRef .tc main_v37) = Cert.ReferenceIdeal.Spec.asRow (F := Ideal) (arg m c main_arg11) := by
  have h : W7 m ρ c (Proc.devRef .tc main_v37) = shapeCast S1x32 (W6 m ρ c (Proc.devRef .tc main_arg11)) shapeCasts_S32_S1x32 := by
    show StableHlo.after hostOps2 (W6 m ρ c) (Proc.devRef .tc main_v37) = _
    after_results_simp
    rfl
  have e : W6 m ρ c (Proc.devRef .tc main_arg11) = arg m c main_arg11 := by arg_at_W6
  rw [h, e]; exact G.asRow_eq _ _

theorem W7_v38 (G : GapFacts) : W7 m ρ c (Proc.devRef .tc main_v38) = Cert.ReferenceIdeal.Spec.asRow (F := Ideal) (arg m c main_arg13) := by
  have h : W7 m ρ c (Proc.devRef .tc main_v38) = shapeCast S1x32 (W6 m ρ c (Proc.devRef .tc main_arg13)) shapeCasts_S32_S1x32 := by
    show StableHlo.after hostOps2 (W6 m ρ c) (Proc.devRef .tc main_v38) = _
    after_results_simp
    rfl
  have e : W6 m ρ c (Proc.devRef .tc main_arg13) = arg m c main_arg13 := by arg_at_W6
  rw [h, e]; exact G.asRow_eq _ _

/-! ## Region 2 leaves the perceptron's output -/

/-- The second perceptron's output as the reference states it. -/
def r2 : FVec Ideal S100000x32 .f32 :=
  Cert.ReferenceIdeal.Spec.mlp32 (F := Ideal) (Cert.ReferenceIdeal.Spec.aggr32 (F := Ideal) (Chain1.h1 m c) (arg m c main_arg1)) (arg m c main_arg10)
    (Cert.ReferenceIdeal.Spec.asRow (F := Ideal) (arg m c main_arg11)) (arg m c main_arg12) (Cert.ReferenceIdeal.Spec.asRow (F := Ideal) (arg m c main_arg13))

theorem W8_v39 (G : GapFacts) : W8 m ρ c (Proc.devRef .tc main_v39) = r2 m c := by
  refine (W8_arr m ρ c 5).trans (Blocks2.final (V7 m ρ) c (r2 m c) fun t x0 h0 q j => ?_)
  have e36 : V7 m ρ c main_v36 = _ := W7_v36 m ρ c G
  rw [show V7 m ρ c main_arg10 = _ from W7_arg10 m ρ c, show V7 m ρ c main_v37 = _ from W7_v37 m ρ c G,
    show V7 m ρ c main_arg12 = _ from W7_arg12 m ρ c, show V7 m ρ c main_v38 = _ from W7_v38 m ρ c G]
  exact PayAt.mlp32_at _ _ _ _ _ x0 t (fun q l => (h0 q l).trans (congrFun e36 _)) q j

/-! ## Region 3's entry contents -/

theorem W11_v39 : W11 m ρ c (Proc.devRef .tc main_v39) = W8 m ρ c (Proc.devRef .tc main_v39) := by
  show StableHlo.after hostOps3_2 (StableHlo.after hostOps3_1 (StableHlo.after hostOps3 (W8 m ρ c))) (Proc.devRef .tc main_v39) = _
  after_results_simp

attribute [local irreducible] Host.reduceAdd in
theorem W11_v43 : W11 m ρ c (Proc.devRef .tc main_v43) = KSpec.meanRow (F := Ideal) (W8 m ρ c (Proc.devRef .tc main_v39)) := by
  show StableHlo.after hostOps3_2 (StableHlo.after hostOps3_1 (StableHlo.after hostOps3 (W8 m ρ c))) (Proc.devRef .tc main_v43) = _
  after_results_simp
  rfl

attribute [local irreducible] Host.reduceAdd in
theorem W11_v44 : W11 m ρ c (Proc.devRef .tc main_v44)
    = KSpec.varRow (F := Ideal) (W8 m ρ c (Proc.devRef .tc main_v39)) (constantI S_ 32 0#32) := by
  show StableHlo.after hostOps3_2 (StableHlo.after hostOps3_1 (StableHlo.after hostOps3 (W8 m ρ c))) (Proc.devRef .tc main_v44) = _
  after_results_simp
  rfl

/-- An argument array that neither region 2 holds nor the stretch before it writes is, at region 2's exit, what it was
    at the first layer's end. -/
theorem W8_keep (b : Ref sig .tc) (h8 : ∀ w, Pipeline.arrRef spec2 w ≠ b)
    (hk2 : StableHlo.after hostOps2 (W6 m ρ c) (Proc.devRef .tc b) = W6 m ρ c (Proc.devRef .tc b)) :
    W8 m ρ c (Proc.devRef .tc b) = W6 m ρ c (Proc.devRef .tc b) :=
  (W8_of_ne m ρ c b h8).trans hk2

theorem W11_v45 (G : GapFacts) : W11 m ρ c (Proc.devRef .tc main_v45) = Cert.ReferenceIdeal.Spec.asRow (F := Ideal) (arg m c main_arg14) := by
  have h : W11 m ρ c (Proc.devRef .tc main_v45) = shapeCast S1x32 (W8 m ρ c (Proc.devRef .tc main_arg14)) shapeCasts_S32_S1x32 := by
    show StableHlo.after hostOps3_2 (StableHlo.after hostOps3_1 (StableHlo.after hostOps3 (W8 m ρ c))) (Proc.devRef .tc main_v45) = _
    after_results_simp
    rfl
  have e : W8 m ρ c (Proc.devRef .tc main_arg14) = arg m c main_arg14 :=
    (W8_keep m ρ c main_arg14 (by decide) (by after_results_simp)).trans (by arg_at_W6)
  rw [h, e]; exact G.asRow_eq _ _

theorem W11_v46 (G : GapFacts) : W11 m ρ c (Proc.devRef .tc main_v46) = Cert.ReferenceIdeal.Spec.asRow (F := Ideal) (arg m c main_arg15) := by
  have h : W11 m ρ c (Proc.devRef .tc main_v46) = shapeCast S1x32 (W8 m ρ c (Proc.devRef .tc main_arg15)) shapeCasts_S32_S1x32 := by
    show StableHlo.after hostOps3_2 (StableHlo.after hostOps3_1 (StableHlo.after hostOps3 (W8 m ρ c))) (Proc.devRef .tc main_v46) = _
    after_results_simp
    rfl
  have e : W8 m ρ c (Proc.devRef .tc main_arg15) = arg m c main_arg15 :=
    (W8_keep m ρ c main_arg15 (by decide) (by after_results_simp)).trans (by arg_at_W6)
  rw [h, e]; exact G.asRow_eq _ _

/-! ## Region 3 leaves the second layer -/

/-- The second layer as the reference states it. -/
def h2 : FVec Ideal S100000x32 .f32 :=
  Cert.ReferenceIdeal.Spec.layer32 (F := Ideal) (Chain1.h1 m c) (arg m c main_arg1) (arg m c main_arg10) (arg m c main_arg11) (arg m c main_arg12)
    (arg m c main_arg13) (arg m c main_arg14) (arg m c main_arg15)

theorem W12_v47 (G : GapFacts) : W12 m ρ c (Proc.devRef .tc main_v47) = h2 m c := by
  refine (W12_arr m ρ c 5).trans (Blocks3.final (V11 m ρ) c (h2 m c) fun t x5 h5 q j => ?_)
  have e39 : V11 m ρ c main_v39 = r2 m c := (W11_v39 m ρ c).trans (W8_v39 m ρ c G)
  have e43 : V11 m ρ c main_v43 = Cert.ReferenceIdeal.Spec.meanRow (F := Ideal) (r2 m c) := by
    rw [show V11 m ρ c main_v43 = _ from W11_v43 m ρ c, W8_v39 m ρ c G]; exact G.meanRow_eq _
  have e44 : PayAt.invOfVar (V11 m ρ c main_v44) = Cert.ReferenceIdeal.Spec.invRow (F := Ideal) (r2 m c) (constantI S_ 32 0#32) := by
    rw [show V11 m ρ c main_v44 = _ from W11_v44 m ρ c, W8_v39 m ρ c G]; exact G.invRow_eq _ _
  rw [show V11 m ρ c main_v45 = _ from W11_v45 m ρ c G, show V11 m ρ c main_v46 = _ from W11_v46 m ρ c G, PayAt.k3_eq_k1]
  refine (PayAt.bn_at (r2 m c) _ _ _ _ x5 t (fun q l => (h5 q l).trans (congrFun e39 _)) q j).trans ?_
  rw [e43, e44]
  rfl

/-! ## What the later layers still need -/

theorem W12_v1 : W12 m ρ c (Proc.devRef .tc main_v1) = KSpec.srcOf (arg m c main_arg1) := by
  rw [W12_of_ne m ρ c main_v1 (by decide)]
  show StableHlo.after hostOps3_2 (StableHlo.after hostOps3_1 (StableHlo.after hostOps3 (W8 m ρ c))) (Proc.devRef .tc main_v1) = _
  after_results_simp
  rw [W8_keep m ρ c main_v1 (by decide) (by after_results_simp)]
  exact Chain1.W6_v1 m ρ c

theorem W12_v3 : W12 m ρ c (Proc.devRef .tc main_v3) = KSpec.dstOf (arg m c main_arg1) := by
  rw [W12_of_ne m ρ c main_v3 (by decide)]
  show StableHlo.after hostOps3_2 (StableHlo.after hostOps3_1 (StableHlo.after hostOps3 (W8 m ρ c))) (Proc.devRef .tc main_v3) = _
  after_results_simp
  rw [W8_keep m ρ c main_v3 (by decide) (by after_results_simp)]
  exact Chain1.W6_v3 m ρ c

/-- An argument array is as launched at the second layer's end, if it was at the first layer's end. -/
theorem W12_arg (b : Ref sig .tc) (h12 : ∀ w, Pipeline.arrRef spec3 w ≠ b) (h8 : ∀ w, Pipeline.arrRef spec2 w ≠ b)
    (hk3 : StableHlo.after hostOps3_2 (StableHlo.after hostOps3_1 (StableHlo.after hostOps3 (W8 m ρ c))) (Proc.devRef .tc b) = W8 m ρ c (Proc.devRef .tc b))
    (hk2 : StableHlo.after hostOps2 (W6 m ρ c) (Proc.devRef .tc b) = W6 m ρ c (Proc.devRef .tc b))
    (hprev : W6 m ρ c (Proc.devRef .tc b) = W0 m ρ c (Proc.devRef .tc b)) :
    W12 m ρ c (Proc.devRef .tc b) = W0 m ρ c (Proc.devRef .tc b) :=
  (W12_of_ne m ρ c b h12).trans (hk3.trans ((W8_keep m ρ c b h8 hk2).trans hprev))

/-- Closes `W12 m ρ c ↑b = W0 m ρ c ↑b` for an argument buffer `b` given by name. -/
macro "arg_at_W12" : tactic =>
  `(tactic| exact Cert.KernelIdeal.Chain2.W12_arg _ _ _ _ (by decide) (by decide) (by after_results_simp) (by after_results_simp) (by arg_at_W6))

end Cert.KernelIdeal.Chain2

end
-- ==== Proof.Chain3.lean ====
/-
  The third layer of the idealized kernel program, read through its segments.

  The host adds to the second layer's output `h` its neighbour sum `Σ h[src]` (the node lists are those of the first
  stretch) and reshapes the two biases; region 4 leaves the perceptron's output `r`; the host takes `r`'s column means
  and variances as [1,32] rows and reshapes the scale and shift; region 5 leaves the normalised `r`. That is the
  reference's third layer of the second layer's output and the launch arguments.
-/
import proofs.«163704_j39694087750181_1_alg».proof.Proof.Gen.KernelIdeal.Frame
import proofs.«163704_j39694087750181_1_alg».proof.Proof.Spec
import proofs.«163704_j39694087750181_1_alg».proof.Proof.KSpec
import proofs.«163704_j39694087750181_1_alg».proof.Proof.PayAt
import proofs.«163704_j39694087750181_1_alg».proof.Proof.GapFacts
import proofs.«163704_j39694087750181_1_alg».proof.Proof.Blocks4
import proofs.«163704_j39694087750181_1_alg».proof.Proof.Blocks5
import proofs.«163704_j39694087750181_1_alg».proof.Proof.Chain2
import Idealize.ShloMosaic.Lib.StableHlo.Run
import Idealize.ShloMosaic.Lib.Pipeline.Value
import Idealize.ShloMosaic.PureOps.Ideal

set_option maxRecDepth 16384

noncomputable section

namespace Cert.KernelIdeal.Chain3

open Cert.KernelIdeal Cert.KernelIdeal.Gen Idealize.ShloMosaic Idealize.ShloMosaic.TcCoe Idealize.ShloMosaic.ValueIdx
open Idealize.SL Idealize.SL.Sem Idealize.ShloMosaic.StableHlo
open Cert.KernelIdeal.Chain1 (arg)

variable (m : (ℓ : Loc nD τ sig) → Buf (Elt Ideal) ℓ) (ρ : Dev nD → PrngReg) (c : Dev nD)

/-! ## Region 4's entry contents -/

attribute [local irreducible] Host.gather Host.scatterAdd in
theorem W13_v58 (G : GapFacts) : W13 m ρ c (Proc.devRef .tc main_v58) = Cert.ReferenceIdeal.Spec.aggr32 (F := Ideal) (Chain2.h2 m c) (arg m c main_arg1) := by
  have h : W13 m ρ c (Proc.devRef .tc main_v58)
      = KSpec.aggr32 (F := Ideal) (W12 m ρ c (Proc.devRef .tc main_v47)) (W12 m ρ c (Proc.devRef .tc main_v1)) (W12 m ρ c (Proc.devRef .tc main_v3)) := by
    show StableHlo.after hostOps4 (W12 m ρ c) (Proc.devRef .tc main_v58) = _
    after_results_simp
    rfl
  rw [h, Chain2.W12_v47 m ρ c G, Chain2.W12_v1 m ρ c, Chain2.W12_v3 m ρ c, G.srcOf_eq, G.dstOf_eq]
  exact G.aggr32_eq _ _

theorem W13_arg16 : W13 m ρ c (Proc.devRef .tc main_arg16) = arg m c main_arg16 := by
  have h : W13 m ρ c (Proc.devRef .tc main_arg16) = W12 m ρ c (Proc.devRef .tc main_arg16) := by
    show StableHlo.after hostOps4 (W12 m ρ c) (Proc.devRef .tc main_arg16) = _
    after_results_simp
  rw [h]; arg_at_W12

theorem W13_arg18 : W13 m ρ c (Proc.devRef .tc main_arg18) = arg m c main_arg18 := by
  have h : W13 m ρ c (Proc.devRef .tc main_arg18) = W12 m ρ c (Proc.devRef .tc main_arg18) := by
    show StableHlo.after hostOps4 (W12 m ρ c) (Proc.devRef .tc main_arg18) = _
    after_results_simp
  rw [h]; arg_at_W12

theorem W13_v59 (G : GapFacts) : W13 m ρ c (Proc.devRef .tc main_v59) = Cert.ReferenceIdeal.Spec.asRow (F := Ideal) (arg m c main_arg17) := by
  have h : W13 m ρ c (Proc.devRef .tc main_v59) = shapeCast S1x32 (W12 m ρ c (Proc.devRef .tc main_arg17)) shapeCasts_S32_S1x32 := by
    show StableHlo.after hostOps4 (W12 m ρ c) (Proc.devRef .tc main_v59) = _
    after_results_simp
    rfl
  have e : W12 m ρ c (Proc.devRef .tc main_arg17) = arg m c main_arg17 := by arg_at_W12
  rw [h, e]; exact G.asRow_eq _ _

theorem W13_v60 (G : GapFacts) : W13 m ρ c (Proc.devRef .tc main_v60) = Cert.ReferenceIdeal.Spec.asRow (F := Ideal) (arg m c main_arg19) := by
  have h : W13 m ρ c (Proc.devRef .tc main_v60) = shapeCast S1x32 (W12 m ρ c (Proc.devRef .tc main_arg19)) shapeCasts_S32_S1x32 := by
    show StableHlo.after hostOps4 (W12 m ρ c) (Proc.devRef .tc main_v60) = _
    after_results_simp
    rfl
  have e : W12 m ρ c (Proc.devRef .tc main_arg19) = arg m c main_arg19 := by arg_at_W12
  rw [h, e]; exact G.asRow_eq _ _

/-! ## Region 4 leaves the perceptron's output -/

/-- The third perceptron's output as the reference states it. -/
def r3 : FVec Ideal S100000x32 .f32 :=
  Cert.ReferenceIdeal.Spec.mlp32 (F := Ideal) (Cert.ReferenceIdeal.Spec.aggr32 (F := Ideal) (Chain2.h2 m c) (arg m c main_arg1)) (arg m c main_arg16)
    (Cert.ReferenceIdeal.Spec.asRow (F := Ideal) (arg m c main_arg17)) (arg m c main_arg18) (Cert.ReferenceIdeal.Spec.asRow (F := Ideal) (arg m c main_arg19))

theorem W14_v61 (G : GapFacts) : W14 m ρ c (Proc.devRef .tc main_v61) = r3 m c := by
  refine (W14_arr m ρ c 5).trans (Blocks4.final (V13 m ρ) c (r3 m c) fun t x0 h0 q j => ?_)
  have e58 : V13 m ρ c main_v58 = _ := W13_v58 m ρ c G
  rw [show V13 m ρ c main_arg16 = _ from W13_arg16 m ρ c, show V13 m ρ c main_v59 = _ from W13_v59 m ρ c G,
    show V13 m ρ c main_arg18 = _ from W13_arg18 m ρ c, show V13 m ρ c main_v60 = _ from W13_v60 m ρ c G]
  rw [PayAt.k4_eq_k2]
  exact PayAt.mlp32_at _ _ _ _ _ x0 t (fun q l => (h0 q l).trans (congrFun e58 _)) q j

/-! ## Region 5's entry contents -/

theorem W17_v61 : W17 m ρ c (Proc.devRef .tc main_v61) = W14 m ρ c (Proc.devRef .tc main_v61) := by
  show StableHlo.after hostOps5_2 (StableHlo.after hostOps5_1 (StableHlo.after hostOps5 (W14 m ρ c))) (Proc.devRef .tc main_v61) = _
  after_results_simp

attribute [local irreducible] Host.reduceAdd in
theorem W17_v65 : W17 m ρ c (Proc.devRef .tc main_v65) = KSpec.meanRow (F := Ideal) (W14 m ρ c (Proc.devRef .tc main_v61)) := by
  show StableHlo.after hostOps5_2 (StableHlo.after hostOps5_1 (StableHlo.after hostOps5 (W14 m ρ c))) (Proc.devRef .tc main_v65) = _
  after_results_simp
  rfl

attribute [local irreducible] Host.reduceAdd in
theorem W17_v66 : W17 m ρ c (Proc.devRef .tc main_v66)
    = KSpec.varRow (F := Ideal) (W14 m ρ c (Proc.devRef .tc main_v61)) (constantI S_ 32 0#32) := by
  show StableHlo.after hostOps5_2 (StableHlo.after hostOps5_1 (StableHlo.after hostOps5 (W14 m ρ c))) (Proc.devRef .tc main_v66) = _
  after_results_simp
  rfl

/-- An argument array that neither region 4 holds nor the stretch before it writes is, at region 4's exit, what it was
    at the second layer's end. -/
theorem W14_keep (b : Ref sig .tc) (h8 : ∀ w, Pipeline.arrRef spec4 w ≠ b)
    (hk2 : StableHlo.after hostOps4 (W12 m ρ c) (Proc.devRef .tc b) = W12 m ρ c (Proc.devRef .tc b)) :
    W14 m ρ c (Proc.devRef .tc b) = W12 m ρ c (Proc.devRef .tc b) :=
  (W14_of_ne m ρ c b h8).trans hk2

theorem W17_v67 (G : GapFacts) : W17 m ρ c (Proc.devRef .tc main_v67) = Cert.ReferenceIdeal.Spec.asRow (F := Ideal) (arg m c main_arg20) := by
  have h : W17 m ρ c (Proc.devRef .tc main_v67) = shapeCast S1x32 (W14 m ρ c (Proc.devRef .tc main_arg20)) shapeCasts_S32_S1x32 := by
    show StableHlo.after hostOps5_2 (StableHlo.after hostOps5_1 (StableHlo.after hostOps5 (W14 m ρ c))) (Proc.devRef .tc main_v67) = _
    after_results_simp
    rfl
  have e : W14 m ρ c (Proc.devRef .tc main_arg20) = arg m c main_arg20 :=
    (W14_keep m ρ c main_arg20 (by decide) (by after_results_simp)).trans (by arg_at_W12)
  rw [h, e]; exact G.asRow_eq _ _

theorem W17_v68 (G : GapFacts) : W17 m ρ c (Proc.devRef .tc main_v68) = Cert.ReferenceIdeal.Spec.asRow (F := Ideal) (arg m c main_arg21) := by
  have h : W17 m ρ c (Proc.devRef .tc main_v68) = shapeCast S1x32 (W14 m ρ c (Proc.devRef .tc main_arg21)) shapeCasts_S32_S1x32 := by
    show StableHlo.after hostOps5_2 (StableHlo.after hostOps5_1 (StableHlo.after hostOps5 (W14 m ρ c))) (Proc.devRef .tc main_v68) = _
    after_results_simp
    rfl
  have e : W14 m ρ c (Proc.devRef .tc main_arg21) = arg m c main_arg21 :=
    (W14_keep m ρ c main_arg21 (by decide) (by after_results_simp)).trans (by arg_at_W12)
  rw [h, e]; exact G.asRow_eq _ _

/-! ## Region 5 leaves the third layer -/

/-- The third layer as the reference states it. -/
def h3 : FVec Ideal S100000x32 .f32 :=
  Cert.ReferenceIdeal.Spec.layer32 (F := Ideal) (Chain2.h2 m c) (arg m c main_arg1) (arg m c main_arg16) (arg m c main_arg17) (arg m c main_arg18)
    (arg m c main_arg19) (arg m c main_arg20) (arg m c main_arg21)

theorem W18_v69 (G : GapFacts) : W18 m ρ c (Proc.devRef .tc main_v69) = h3 m c := by
  refine (W18_arr m ρ c 5).trans (Blocks5.final (V17 m ρ) c (h3 m c) fun t x5 h5 q j => ?_)
  have e61 : V17 m ρ c main_v61 = r3 m c := (W17_v61 m ρ c).trans (W14_v61 m ρ c G)
  have e65 : V17 m ρ c main_v65 = Cert.ReferenceIdeal.Spec.meanRow (F := Ideal) (r3 m c) := by
    rw [show V17 m ρ c main_v65 = _ from W17_v65 m ρ c, W14_v61 m ρ c G]; exact G.meanRow_eq _
  have e66 : PayAt.invOfVar (V17 m ρ c main_v66) = Cert.ReferenceIdeal.Spec.invRow (F := Ideal) (r3 m c) (constantI S_ 32 0#32) := by
    rw [show V17 m ρ c main_v66 = _ from W17_v66 m ρ c, W14_v61 m ρ c G]; exact G.invRow_eq _ _
  rw [show V17 m ρ c main_v67 = _ from W17_v67 m ρ c G, show V17 m ρ c main_v68 = _ from W17_v68 m ρ c G, PayAt.k5_eq_k1]
  refine (PayAt.bn_at (r3 m c) _ _ _ _ x5 t (fun q l => (h5 q l).trans (congrFun e61 _)) q j).trans ?_
  rw [e65, e66]
  rfl

/-! ## What the later layers still need -/

theorem W18_v1 : W18 m ρ c (Proc.devRef .tc main_v1) = KSpec.srcOf (arg m c main_arg1) := by
  rw [W18_of_ne m ρ c main_v1 (by decide)]
  show StableHlo.after hostOps5_2 (StableHlo.after hostOps5_1 (StableHlo.after hostOps5 (W14 m ρ c))) (Proc.devRef .tc main_v1) = _
  after_results_simp
  rw [W14_keep m ρ c main_v1 (by decide) (by after_results_simp)]
  exact Chain2.W12_v1 m ρ c

theorem W18_v3 : W18 m ρ c (Proc.devRef .tc main_v3) = KSpec.dstOf (arg m c main_arg1) := by
  rw [W18_of_ne m ρ c main_v3 (by decide)]
  show StableHlo.after hostOps5_2 (StableHlo.after hostOps5_1 (StableHlo.after hostOps5 (W14 m ρ c))) (Proc.devRef .tc main_v3) = _
  after_results_simp
  rw [W14_keep m ρ c main_v3 (by decide) (by after_results_simp)]
  exact Chain2.W12_v3 m ρ c

/-- An argument array is as launched at the third layer's end, if it was at the second layer's end. -/
theorem W18_arg (b : Ref sig .tc) (h12 : ∀ w, Pipeline.arrRef spec5 w ≠ b) (h8 : ∀ w, Pipeline.arrRef spec4 w ≠ b)
    (hk3 : StableHlo.after hostOps5_2 (StableHlo.after hostOps5_1 (StableHlo.after hostOps5 (W14 m ρ c))) (Proc.devRef .tc b) = W14 m ρ c (Proc.devRef .tc b))
    (hk2 : StableHlo.after hostOps4 (W12 m ρ c) (Proc.devRef .tc b) = W12 m ρ c (Proc.devRef .tc b))
    (hprev : W12 m ρ c (Proc.devRef .tc b) = W0 m ρ c (Proc.devRef .tc b)) :
    W18 m ρ c (Proc.devRef .tc b) = W0 m ρ c (Proc.devRef .tc b) :=
  (W18_of_ne m ρ c b h12).trans (hk3.trans ((W14_keep m ρ c b h8 hk2).trans hprev))

/-- Closes `W18 m ρ c ↑b = W0 m ρ c ↑b` for an argument buffer `b` given by name. -/
macro "arg_at_W18" : tactic =>
  `(tactic| exact Cert.KernelIdeal.Chain3.W18_arg _ _ _ _ (by decide) (by decide) (by after_results_simp) (by after_results_simp) (by arg_at_W12))

end Cert.KernelIdeal.Chain3

end
-- ==== Proof.Chain4.lean ====
/-
  The head of the idealized kernel program, and the whole program's result.

  After the third layer the host reshapes the head's two biases; region 6 is entered with the third layer's output, the
  two head weight matrices as launched and the two bias rows, and leaves `relu(h·w1 + b1)·w2 + b2`. With the three layers
  before it that is the reference network of the launch arguments.
-/
import proofs.«163704_j39694087750181_1_alg».proof.Proof.Gen.KernelIdeal.Frame
import proofs.«163704_j39694087750181_1_alg».proof.Proof.Spec
import proofs.«163704_j39694087750181_1_alg».proof.Proof.KSpec
import proofs.«163704_j39694087750181_1_alg».proof.Proof.PayAt
import proofs.«163704_j39694087750181_1_alg».proof.Proof.GapFacts
import proofs.«163704_j39694087750181_1_alg».proof.Proof.Blocks6
import proofs.«163704_j39694087750181_1_alg».proof.Proof.Chain3
import Idealize.ShloMosaic.Lib.StableHlo.Run
import Idealize.ShloMosaic.Lib.Pipeline.Value
import Idealize.ShloMosaic.PureOps.Ideal

set_option maxRecDepth 16384

noncomputable section

namespace Cert.KernelIdeal.Chain4

open Cert.KernelIdeal Cert.KernelIdeal.Gen Idealize.ShloMosaic Idealize.ShloMosaic.TcCoe Idealize.ShloMosaic.ValueIdx
open Idealize.SL Idealize.SL.Sem Idealize.ShloMosaic.StableHlo
open Cert.KernelIdeal.Chain1 (arg)

variable (m : (ℓ : Loc nD τ sig) → Buf (Elt Ideal) ℓ) (ρ : Dev nD → PrngReg) (c : Dev nD)

/-! ## Region 6's entry contents -/

theorem W19_v69 (G : GapFacts) : W19 m ρ c (Proc.devRef .tc main_v69) = Chain3.h3 m c := by
  have h : W19 m ρ c (Proc.devRef .tc main_v69) = W18 m ρ c (Proc.devRef .tc main_v69) := by
    show StableHlo.after hostOps6 (W18 m ρ c) (Proc.devRef .tc main_v69) = _
    after_results_simp
  rw [h]; exact Chain3.W18_v69 m ρ c G

theorem W19_arg22 : W19 m ρ c (Proc.devRef .tc main_arg22) = arg m c main_arg22 := by
  have h : W19 m ρ c (Proc.devRef .tc main_arg22) = W18 m ρ c (Proc.devRef .tc main_arg22) := by
    show StableHlo.after hostOps6 (W18 m ρ c) (Proc.devRef .tc main_arg22) = _
    after_results_simp
  rw [h]; arg_at_W18

theorem W19_arg24 : W19 m ρ c (Proc.devRef .tc main_arg24) = arg m c main_arg24 := by
  have h : W19 m ρ c (Proc.devRef .tc main_arg24) = W18 m ρ c (Proc.devRef .tc main_arg24) := by
    show StableHlo.after hostOps6 (W18 m ρ c) (Proc.devRef .tc main_arg24) = _
    after_results_simp
  rw [h]; arg_at_W18

theorem W19_v70 (G : GapFacts) : W19 m ρ c (Proc.devRef .tc main_v70) = Cert.ReferenceIdeal.Spec.asRow (F := Ideal) (arg m c main_arg23) := by
  have h : W19 m ρ c (Proc.devRef .tc main_v70) = shapeCast S1x32 (W18 m ρ c (Proc.devRef .tc main_arg23)) shapeCasts_S32_S1x32 := by
    show StableHlo.after hostOps6 (W18 m ρ c) (Proc.devRef .tc main_v70) = _
    after_results_simp
    rfl
  have e : W18 m ρ c (Proc.devRef .tc main_arg23) = arg m c main_arg23 := by arg_at_W18
  rw [h, e]; exact G.asRow_eq _ _

theorem W19_v71 (G : GapFacts) : W19 m ρ c (Proc.devRef .tc main_v71)
    = broadcastInDim Cert.ReferenceIdeal.S1x2 ![1] Cert.ReferenceIdeal.Gen.bcast_S2_S1x2_1 (arg m c main_arg25) := by
  have h : W19 m ρ c (Proc.devRef .tc main_v71) = shapeCast S1x2 (W18 m ρ c (Proc.devRef .tc main_arg25)) shapeCasts_S2_S1x2 := by
    show StableHlo.after hostOps6 (W18 m ρ c) (Proc.devRef .tc main_v71) = _
    after_results_simp
    rfl
  have e : W18 m ρ c (Proc.devRef .tc main_arg25) = arg m c main_arg25 := by arg_at_W18
  rw [h, e]; exact G.asRow2_eq _ _

/-! ## The result -/

/-- The network's output as the reference states it, of the launch arguments. -/
def out : FVec Ideal S100000x2 .f32 :=
  Cert.ReferenceIdeal.Spec.final (F := Ideal) (arg m c main_arg0) (arg m c main_arg1)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) (arg m c main_arg15)
    (arg m c main_arg16) (arg m c main_arg17) (arg m c main_arg18) (arg m c main_arg19) (arg m c main_arg20) (arg m c main_arg21)
    (arg m c main_arg22) (arg m c main_arg23) (arg m c main_arg24) (arg m c main_arg25)

/-- The result buffer at the last boundary holds the network's output of the launch arguments. -/
theorem W20_v72 (G : GapFacts) : W20 m ρ c (Proc.devRef .tc main_v72) = out m c := by
  refine (W20_arr m ρ c 5).trans (Blocks6.final (V19 m ρ) c (out m c) fun t x0 h0 q j => ?_)
  have e69 : V19 m ρ c main_v69 = _ := W19_v69 m ρ c G
  rw [show V19 m ρ c main_arg22 = _ from W19_arg22 m ρ c, show V19 m ρ c main_v70 = _ from W19_v70 m ρ c G,
    show V19 m ρ c main_arg24 = _ from W19_arg24 m ρ c, show V19 m ρ c main_v71 = _ from W19_v71 m ρ c G]
  refine (PayAt.head_at (Chain3.h3 m c) _ _ _ _ x0 t (fun q l => (h0 q l).trans (congrFun e69 _)) q j).trans ?_
  rfl

end Cert.KernelIdeal.Chain4

end
-- ==== Proof.Gaps.lean ====
/-
  At the extended reals the kernel program's host chains are the reference's: six equations between whole arrays, all of
  layout and none of algebra. A [32] vector reshaped to [1,32] is the same array as the vector repeated along a new
  leading unit axis; a quotient, a select, a sum with a constant and an inverse square root taken on [1,32] rows of
  such operands are the rows of the same operations taken on the [32] vectors; and the two programs' gather, scatter
  and slice records have the same contents.
-/
import proofs.«163704_j39694087750181_1_alg».proof.Proof.Spec
import proofs.«163704_j39694087750181_1_alg».proof.Proof.KSpec
import Idealize.ShloMosaic.Lib.Pipeline.Value
import Idealize.ShloMosaic.Lib.ValueIdx

noncomputable section

namespace Cert.KernelIdeal.Gaps

open Idealize.ShloMosaic Idealize.ShloMosaic.ValueIdx

/-- A [n] vector reshaped to [1,n] is the vector repeated along a new leading unit axis: both read, at (0, c), the
    vector at c. -/
theorem shapeCast_eq_bcast {α : Type} {n : Nat} (hn : n ≠ 1) (b : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ b h = broadcastInDim ⟨2, ![1, n]⟩ ![1] hb b := by
  funext j
  refine (shapeCast_addUnit_apply ![n] b h j).trans (Eq.symm ?_)
  refine broadcastInDim_apply _ hb b j _ fun a => ?_
  match a with
  | ⟨0, _⟩ =>
    show (j 1).val = if n = 1 then 0 else (j 1).val
    rw [if_neg hn]

/-- A [32] vector reshaped to a [1,32] row is the vector as a row. -/
theorem asRow_eq (b : FVec Ideal Cert.KernelIdeal.S32 .f32) (h : Cert.KernelIdeal.S32.ShapeCasts Cert.KernelIdeal.S1x32) :
    shapeCast Cert.KernelIdeal.S1x32 b h = Cert.ReferenceIdeal.Spec.asRow (F := Ideal) b :=
  shapeCast_eq_bcast (by decide) b h _

/-- Likewise at two columns. -/
theorem asRow2_eq (b : FVec Ideal Cert.KernelIdeal.S2 .f32) (h : Cert.KernelIdeal.S2.ShapeCasts Cert.KernelIdeal.S1x2) :
    shapeCast Cert.KernelIdeal.S1x2 b h
      = broadcastInDim Cert.ReferenceIdeal.S1x2 ![1] Cert.ReferenceIdeal.Gen.bcast_S2_S1x2_1 b :=
  shapeCast_eq_bcast (by decide) b h _

/-! ## Operations on rows of repeated operands

With `v` a [32] vector and `c` a scalar, each operation below taken on the [1,32] rows is the row of the operation taken
on the vectors: at the index (0, k) both sides read the same operation of `v k` and `c`. -/

/-- A scalar repeated over any shape reads, everywhere, its one element. -/
theorem bcast_scalar_apply {α : Type} {t : Shape} (dims : Fin 0 → Fin t.rank)
    (h : (⟨0, ![]⟩ : Shape).BroadcastsInDim t dims) (c : (⟨0, ![]⟩ : Shape).Idx → α) (j : t.Idx) :
    broadcastInDim t dims h c j = c ix0 :=
  congrArg c (funext fun d => d.elim0)

section Rows
open Cert.ReferenceIdeal Cert.ReferenceIdeal.Gen Cert.ReferenceIdeal.Spec

/-- The quotient of a row by a repeated scalar. -/
theorem divf_asRow (v : FVec Ideal S32 .f32) (c : FVec Ideal S_ .f32) :
    Host.divf (asRow (F := Ideal) v) (broadcastInDim S1x32 ![] bcast_S_S1x32 c)
      = asRow (F := Ideal) (Host.divf v (broadcastInDim S32 ![] bcast_S_S32 c)) := by
  funext j
  show FloatOps.hostDivf (asRow (F := Ideal) v j) (broadcastInDim S1x32 ![] bcast_S_S1x32 c j)
    = FloatOps.hostDivf (asRow (F := Ideal) v j) (broadcastInDim S32 ![] bcast_S_S32 c _)
  rw [bcast_scalar_apply, bcast_scalar_apply]

/-- A select between a row and a repeated scalar, on a repeated condition. -/
theorem select_asRow (p : IVec S_ 1) (v : FVec Ideal S32 .f32) (c : FVec Ideal S_ .f32) :
    select (broadcastInDim S1x32 ![] bcast_S_S1x32 p) (asRow (F := Ideal) v) (broadcastInDim S1x32 ![] bcast_S_S1x32 c)
      = asRow (F := Ideal) (select (broadcastInDim S32 ![] bcast_S_S32 p) v (broadcastInDim S32 ![] bcast_S_S32 c)) := by
  funext j
  show Scalar.select (broadcastInDim S1x32 ![] bcast_S_S1x32 p j) (asRow (F := Ideal) v j)
      (broadcastInDim S1x32 ![] bcast_S_S1x32 c j)
    = Scalar.select (broadcastInDim S32 ![] bcast_S_S32 p _) (asRow (F := Ideal) v j)
      (broadcastInDim S32 ![] bcast_S_S32 c _)
  rw [bcast_scalar_apply, bcast_scalar_apply, bcast_scalar_apply, bcast_scalar_apply]

/-- The inverse square root of a row plus a constant: the kernel program's `rsqrt` and the host's are one function on
    the extended reals, and the constant is the same word's value. -/
theorem rsqrt_add_asRow (v : FVec Ideal S32 .f32) (w : BitVec 32) :
    rsqrt (addf (asRow (F := Ideal) v) (broadcast S1x32 (Scalar.ofBits (F := Ideal) .f32 w)))
      = asRow (F := Ideal) (Host.rsqrt (addf v (broadcastInDim S32 ![] bcast_S_S32 (constant (F := Ideal) S_ .f32 w)))) := by
  funext j
  rfl

end Rows

/-! ## The column statistics -/

/-- The kernel program's column sums, kept as a row, are the reference's column sums as a row. -/
theorem sumRow_eq (r : FVec Ideal Cert.KernelIdeal.S100000x32 .f32) :
    Cert.KernelIdeal.KSpec.sumRow (F := Ideal) r
      = Cert.ReferenceIdeal.Spec.asRow (F := Ideal) (Cert.ReferenceIdeal.Spec.colSum (F := Ideal) r) := rfl

/-- The column means: the sums' row over 100000 is the row of the sums over 100000. -/
theorem meanRow_eq (r : FVec Ideal Cert.KernelIdeal.S100000x32 .f32) :
    Cert.KernelIdeal.KSpec.meanRow (F := Ideal) r = Cert.ReferenceIdeal.Spec.meanRow (F := Ideal) r := by
  unfold Cert.KernelIdeal.KSpec.meanRow Cert.ReferenceIdeal.Spec.meanRow Cert.ReferenceIdeal.Spec.meanVec
  rw [sumRow_eq]
  exact divf_asRow _ _

/-- The centred squares: the reference centres by the very row the kernel program calls its mean row. -/
theorem centredSq_eq (r : FVec Ideal Cert.KernelIdeal.S100000x32 .f32) :
    Cert.KernelIdeal.KSpec.centredSq (F := Ideal) r = Cert.ReferenceIdeal.Spec.centredSq (F := Ideal) r := rfl

/-- The column variances: the kernel program's row is the reference's vector as a row. -/
theorem varRow_eq (r : FVec Ideal Cert.KernelIdeal.S100000x32 .f32) (ddof : IVec Cert.KernelIdeal.S_ 32) :
    Cert.KernelIdeal.KSpec.varRow (F := Ideal) r ddof
      = Cert.ReferenceIdeal.Spec.asRow (F := Ideal) (Cert.ReferenceIdeal.Spec.varVec (F := Ideal) r ddof) := by
  unfold Cert.KernelIdeal.KSpec.varRow Cert.ReferenceIdeal.Spec.varVec
  rw [centredSq_eq, sumRow_eq]
  exact (congrArg (fun t => select _ t _) (divf_asRow _ _)).trans (select_asRow _ _ _)

/-- The inverse deviations. -/
theorem invRow_eq (r : FVec Ideal Cert.KernelIdeal.S100000x32 .f32) (ddof : IVec Cert.KernelIdeal.S_ 32) :
    rsqrt (addf (Cert.KernelIdeal.KSpec.varRow (F := Ideal) r ddof)
        (broadcast Cert.KernelIdeal.S1x32 (Scalar.ofBits (F := Ideal) .f32 0x3727C5AC#32)))
      = Cert.ReferenceIdeal.Spec.invRow (F := Ideal) r ddof := by
  rw [varRow_eq]
  exact rsqrt_add_asRow _ _

/-! ## The neighbour sums

The two programs slice the edge table, wrap the node lists into index columns, gather and scatter with records of the
same contents: the chains are one term. The gathers and scatters over the 1600000 edges stay folded. -/

attribute [local irreducible] Host.gather Host.scatterAdd Host.reduceAdd

/-- The edges' source nodes. -/
theorem srcOf_eq (ei : IVec Cert.KernelIdeal.S2x1600000 32) :
    Cert.KernelIdeal.KSpec.srcOf ei = Cert.ReferenceIdeal.Spec.srcOf ei := rfl

/-- The edges' destination nodes. -/
theorem dstOf_eq (ei : IVec Cert.KernelIdeal.S2x1600000 32) :
    Cert.KernelIdeal.KSpec.dstOf ei = Cert.ReferenceIdeal.Spec.dstOf ei := rfl

/-- The neighbour sum on 128 columns. -/
theorem aggr128_eq (x : FVec Ideal Cert.KernelIdeal.S100000x128 .f32) (ei : IVec Cert.KernelIdeal.S2x1600000 32) :
    Cert.KernelIdeal.KSpec.aggr128 (F := Ideal) x (Cert.ReferenceIdeal.Spec.srcOf ei) (Cert.ReferenceIdeal.Spec.dstOf ei)
      = Cert.ReferenceIdeal.Spec.aggr128 (F := Ideal) x ei := rfl

/-- The neighbour sum on 32 columns. -/
theorem aggr32_eq (h : FVec Ideal Cert.KernelIdeal.S100000x32 .f32) (ei : IVec Cert.KernelIdeal.S2x1600000 32) :
    Cert.KernelIdeal.KSpec.aggr32 (F := Ideal) h (Cert.ReferenceIdeal.Spec.srcOf ei) (Cert.ReferenceIdeal.Spec.dstOf ei)
      = Cert.ReferenceIdeal.Spec.aggr32 (F := Ideal) h ei := rfl

end Cert.KernelIdeal.Gaps

end
-- ==== Proof.RefOps.lean ====
/- The reference program's @main as a table: its host operations in order, the module-local functions'
   bodies written out at their call sites over the calls' buffer records, cut into 12 consecutive segments
   (none crosses a printed window); per segment the buffers its operations write. Definitions only. -/
import proofs.«163704_j39694087750181_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 0 of 12: 18 operations (window `main_part0`), ending at `main_v14`. -/
abbrev ops_s0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)) ]

/-- The buffers segment 0's operations write, in order. -/
abbrev W_s0 : List (Ref sig .tc) :=
  [main_v0, main_v1, main_v2, main_v3, main_c, main_v4, main_v5, main_c_0, main_v6, main_v7, main_v8, main_v9, main_v10, main_cst, main_v11, main_v12, main_v13, main_v14]

/-- Segment 1 of 12: 14 operations (window `main_part0`), ending at `main_call1.v1.ref`. -/
abbrev ops_s1 : List (HloOp τ sig (Elt F)) :=
  [ StableHlo.binary main_v14 main_arg4 main_v15 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg5 main_v16 (broadcastInDim S1x32 ![1] bcast_S32_S1x32_1 : (⟨S32, .f32⟩ : BufTy).Contents (Elt F) → (⟨S1x32, .f32⟩ : BufTy).Contents (Elt F)),
    StableHlo.unary main_v16 main_v17 (broadcastInDim S100000x32 ![0, 1] bcast_S1x32_S100000x32_0_1 : (⟨S1x32, .f32⟩ : BufTy).Contents (Elt F) → (⟨S100000x32, .f32⟩ : BufTy).Contents (Elt F)),
    StableHlo.binary main_v15 main_v17 main_v18 (addf : (⟨S100000x32, .f32⟩ : BufTy).Contents (Elt F) → (⟨S100000x32, .f32⟩ : BufTy).Contents (Elt F) → (⟨S100000x32, .f32⟩ : BufTy).Contents (Elt F)),
    StableHlo.TRef.nullary main_call0.cst (constant S_ .f32 0x00000000#32),
    StableHlo.TRef.unary main_call0.cst main_call0.v0 (broadcastInDim S100000x32 ![] bcast_S_S100000x32),
    StableHlo.TRef.binary ((.of main_v18) : StableHlo.TRef sig ⟨S100000x32, .f32⟩) main_call0.v0 main_call0.v1 maximumf,
    StableHlo.binary main_v19 main_arg6 main_v20 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg7 main_v21 (broadcastInDim S1x32 ![1] bcast_S32_S1x32_1 : (⟨S32, .f32⟩ : BufTy).Contents (Elt F) → (⟨S1x32, .f32⟩ : BufTy).Contents (Elt F)),
    StableHlo.unary main_v21 main_v22 (broadcastInDim S100000x32 ![0, 1] bcast_S1x32_S100000x32_0_1 : (⟨S1x32, .f32⟩ : BufTy).Contents (Elt F) → (⟨S100000x32, .f32⟩ : BufTy).Contents (Elt F)),
    StableHlo.binary main_v20 main_v22 main_v23 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary ((.of main_v23) : StableHlo.TRef sig ⟨S100000x32, .f32⟩) main_call1.v0 main_call1.v1 maximumf ]

/-- The buffers segment 1's operations write, in order. -/
abbrev W_s1 : List (Ref sig .tc) :=
  [main_v15, main_v16, main_v17, main_v18, main_call0.cst.ref, main_call0.v0.ref, main_call0.v1.ref, main_v20, main_v21, main_v22, main_v23, main_call1.cst.ref, main_call1.v0.ref, main_call1.v1.ref]

/-- Segment 2 of 12: 44 operations (window `main_part0`), ending at `main_v43`. -/
abbrev ops_s2 : List (HloOp τ sig (Elt F)) :=
  [ StableHlo.nullary main_cst_1 (constant S_ .f32 0x00000000#32),
    StableHlo.binary main_v24 main_cst_1 main_v25 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_2 (constant S_ .f32 0x47C35000#32),
    StableHlo.unary main_cst_2 main_v26 (broadcastInDim S32 ![] bcast_S_S32 : (⟨S_, .f32⟩ : BufTy).Contents (Elt F) → (⟨S32, .f32⟩ : BufTy).Contents (Elt F)),
    StableHlo.binary main_v25 main_v26 main_v27 (Host.divf : (⟨S32, .f32⟩ : BufTy).Contents (Elt F) → (⟨S32, .f32⟩ : BufTy).Contents (Elt F) → (⟨S32, .f32⟩ : BufTy).Contents (Elt F)),
    StableHlo.nullary main_c_3 (constantI S_ 32 0#32),
    StableHlo.TRef.nullary main_call2.cst (constant S_ .f32 0x00000000#32),
    StableHlo.TRef.binary ((.of main_v24) : StableHlo.TRef sig ⟨S100000x32, .f32⟩) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary ((.of main_v24) : StableHlo.TRef sig ⟨S100000x32, .f32⟩) main_call2.v4 main_call2.v5 subf,
    StableHlo.TRef.binary main_call2.v5 main_call2.v5 main_call2.v6 mulf,
    StableHlo.TRef.unary ((.of main_c_3) : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v27 main_v29 (broadcastInDim S1x32 ![1] bcast_S32_S1x32_1 : (⟨S32, .f32⟩ : BufTy).Contents (Elt F) → (⟨S1x32, .f32⟩ : BufTy).Contents (Elt F)),
    StableHlo.unary main_v29 main_v30 (broadcastInDim S100000x32 ![0, 1] bcast_S1x32_S100000x32_0_1 : (⟨S1x32, .f32⟩ : BufTy).Contents (Elt F) → (⟨S100000x32, .f32⟩ : BufTy).Contents (Elt F)),
    StableHlo.binary main_v24 main_v30 main_v31 (subf : (⟨S100000x32, .f32⟩ : BufTy).Contents (Elt F) → (⟨S100000x32, .f32⟩ : BufTy).Contents (Elt F) → (⟨S100000x32, .f32⟩ : BufTy).Contents (Elt F)),
    StableHlo.nullary main_cst_4 (constant S_ .f32 0x3727C5AC#32),
    StableHlo.unary main_cst_4 main_v32 (broadcastInDim S32 ![] bcast_S_S32 : (⟨S_, .f32⟩ : BufTy).Contents (Elt F) → (⟨S32, .f32⟩ : BufTy).Contents (Elt F)),
    StableHlo.binary main_v28 main_v32 main_v33 (addf : (⟨S32, .f32⟩ : BufTy).Contents (Elt F) → (⟨S32, .f32⟩ : BufTy).Contents (Elt F) → (⟨S32, .f32⟩ : BufTy).Contents (Elt F)),
    StableHlo.unary main_v33 main_v34 (Host.rsqrt : (⟨S32, .f32⟩ : BufTy).Contents (Elt F) → (⟨S32, .f32⟩ : BufTy).Contents (Elt F)),
    StableHlo.unary main_v34 main_v35 (broadcastInDim S1x32 ![1] bcast_S32_S1x32_1 : (⟨S32, .f32⟩ : BufTy).Contents (Elt F) → (⟨S1x32, .f32⟩ : BufTy).Contents (Elt F)),
    StableHlo.unary main_v35 main_v36 (broadcastInDim S100000x32 ![0, 1] bcast_S1x32_S100000x32_0_1 : (⟨S1x32, .f32⟩ : BufTy).Contents (Elt F) → (⟨S100000x32, .f32⟩ : BufTy).Contents (Elt F)),
    StableHlo.binary main_v31 main_v36 main_v37 (mulf : (⟨S100000x32, .f32⟩ : BufTy).Contents (Elt F) → (⟨S100000x32, .f32⟩ : BufTy).Contents (Elt F) → (⟨S100000x32, .f32⟩ : BufTy).Contents (Elt F)),
    StableHlo.unary main_arg8 main_v38 (broadcastInDim S1x32 ![1] bcast_S32_S1x32_1 : (⟨S32, .f32⟩ : BufTy).Contents (Elt F) → (⟨S1x32, .f32⟩ : BufTy).Contents (Elt F)),
    StableHlo.unary main_v38 main_v39 (broadcastInDim S100000x32 ![0, 1] bcast_S1x32_S100000x32_0_1 : (⟨S1x32, .f32⟩ : BufTy).Contents (Elt F) → (⟨S100000x32, .f32⟩ : BufTy).Contents (Elt F)),
    StableHlo.binary main_v37 main_v39 main_v40 (mulf : (⟨S100000x32, .f32⟩ : BufTy).Contents (Elt F) → (⟨S100000x32, .f32⟩ : BufTy).Contents (Elt F) → (⟨S100000x32, .f32⟩ : BufTy).Contents (Elt F)),
    StableHlo.unary main_arg9 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S100000x32 ![0, 1] bcast_S1x32_S100000x32_0_1 : (⟨S1x32, .f32⟩ : BufTy).Contents (Elt F) → (⟨S100000x32, .f32⟩ : BufTy).Contents (Elt F)),
    StableHlo.binary main_v40 main_v42 main_v43 (addf : (⟨S100000x32, .f32⟩ : BufTy).Contents (Elt F) → (⟨S100000x32, .f32⟩ : BufTy).Contents (Elt F) → (⟨S100000x32, .f32⟩ : BufTy).Contents (Elt F)) ]

/-- The buffers segment 2's operations write, in order. -/
abbrev W_s2 : List (Ref sig .tc) :=
  [main_cst_1, main_v25, main_cst_2, main_v26, main_v27, main_c_3, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v29, main_v30, main_v31, main_cst_4, main_v32, main_v33, main_v34, main_v35, main_v36, main_v37, main_v38, main_v39, main_v40, main_v41, main_v42, main_v43]

/-- Segment 3 of 12: 9 operations (window `main_part0`), ending at `main_v50`. -/
abbrev ops_s3 : List (HloOp τ sig (Elt F)) :=
  [ StableHlo.nullary main_c_5 (constantI S_ 32 0#32),
    StableHlo.unary main_c_5 main_v44 (broadcastInDim S1600000 ![] bcast_S_S1600000 : (⟨S_, .i32⟩ : BufTy).Contents (Elt F) → (⟨S1600000, .i32⟩ : BufTy).Contents (Elt F)),
    StableHlo.binary main_v1 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v46 (broadcastInDim S1600000 ![] bcast_S_S1600000 : (⟨S_, .i32⟩ : BufTy).Contents (Elt F) → (⟨S1600000, .i32⟩ : BufTy).Contents (Elt F)),
    StableHlo.binary main_v1 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

/-- The buffers segment 3's operations write, in order. -/
abbrev W_s3 : List (Ref sig .tc) :=
  [main_c_5, main_v44, main_v45, main_c_6, main_v46, main_v47, main_v48, main_v49, main_v50]

/-- Segment 4 of 12: 5 operations (window `main_part1`), ending at `main_v54`. -/
abbrev ops_s4 : List (HloOp τ sig (Elt F)) :=
  [ StableHlo.nullary main_cst_7 (constant S_ .f32 0x00000000#32),
    StableHlo.unary main_cst_7 main_v51 (broadcastInDim S100000x32 ![] bcast_S_S100000x32 : (⟨S_, .f32⟩ : BufTy).Contents (Elt F) → (⟨S100000x32, .f32⟩ : BufTy).Contents (Elt F)),
    StableHlo.unary main_v3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v43 main_v53 main_v54 (addf : (⟨S100000x32, .f32⟩ : BufTy).Contents (Elt F) → (⟨S100000x32, .f32⟩ : BufTy).Contents (Elt F) → (⟨S100000x32, .f32⟩ : BufTy).Contents (Elt F)) ]

/-- The buffers segment 4's operations write, in order. -/
abbrev W_s4 : List (Ref sig .tc) :=
  [main_cst_7, main_v51, main_v52, main_v53, main_v54]

/-- Segment 5 of 12: 14 operations (window `main_part1`), ending at `main_call4.v1.ref`. -/
abbrev ops_s5 : List (HloOp τ sig (Elt F)) :=
  [ StableHlo.binary main_v54 main_arg10 main_v55 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg11 main_v56 (broadcastInDim S1x32 ![1] bcast_S32_S1x32_1 : (⟨S32, .f32⟩ : BufTy).Contents (Elt F) → (⟨S1x32, .f32⟩ : BufTy).Contents (Elt F)),
    StableHlo.unary main_v56 main_v57 (broadcastInDim S100000x32 ![0, 1] bcast_S1x32_S100000x32_0_1 : (⟨S1x32, .f32⟩ : BufTy).Contents (Elt F) → (⟨S100000x32, .f32⟩ : BufTy).Contents (Elt F)),
    StableHlo.binary main_v55 main_v57 main_v58 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary ((.of main_v58) : StableHlo.TRef sig ⟨S100000x32, .f32⟩) main_call3.v0 main_call3.v1 maximumf,
    StableHlo.binary main_v59 main_arg12 main_v60 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg13 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S100000x32 ![0, 1] bcast_S1x32_S100000x32_0_1 : (⟨S1x32, .f32⟩ : BufTy).Contents (Elt F) → (⟨S100000x32, .f32⟩ : BufTy).Contents (Elt F)),
    StableHlo.binary main_v60 main_v62 main_v63 (addf : (⟨S100000x32, .f32⟩ : BufTy).Contents (Elt F) → (⟨S100000x32, .f32⟩ : BufTy).Contents (Elt F) → (⟨S100000x32, .f32⟩ : BufTy).Contents (Elt F)),
    StableHlo.TRef.nullary main_call4.cst (constant S_ .f32 0x00000000#32),
    StableHlo.TRef.unary main_call4.cst main_call4.v0 (broadcastInDim S100000x32 ![] bcast_S_S100000x32),
    StableHlo.TRef.binary ((.of main_v63) : StableHlo.TRef sig ⟨S100000x32, .f32⟩) main_call4.v0 main_call4.v1 maximumf ]

/-- The buffers segment 5's operations write, in order. -/
abbrev W_s5 : List (Ref sig .tc) :=
  [main_v55, main_v56, main_v57, main_v58, main_call3.cst.ref, main_call3.v0.ref, main_call3.v1.ref, main_v60, main_v61, main_v62, main_v63, main_call4.cst.ref, main_call4.v0.ref, main_call4.v1.ref]

/-- Segment 6 of 12: 44 operations (window `main_part1`), ending at `main_v83`. -/
abbrev ops_s6 : List (HloOp τ sig (Elt F)) :=
  [ StableHlo.nullary main_cst_8 (constant S_ .f32 0x00000000#32),
    StableHlo.binary main_v64 main_cst_8 main_v65 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_9 (constant S_ .f32 0x47C35000#32),
    StableHlo.unary main_cst_9 main_v66 (broadcastInDim S32 ![] bcast_S_S32 : (⟨S_, .f32⟩ : BufTy).Contents (Elt F) → (⟨S32, .f32⟩ : BufTy).Contents (Elt F)),
    StableHlo.binary main_v65 main_v66 main_v67 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary main_call5.cst (constant S_ .f32 0x00000000#32),
    StableHlo.TRef.binary ((.of main_v64) : StableHlo.TRef sig ⟨S100000x32, .f32⟩) main_call5.cst main_call5.v0 (fun x v => Host.reduceAdd x v reducesTo_S100000x32_S32_d0 h_S_),
    StableHlo.TRef.unary main_call5.v0 main_call5.v1 (broadcastInDim S1x32 ![1] bcast_S32_S1x32_1),
    StableHlo.TRef.nullary main_call5.cst_0 (constant S_ .f32 0x47C35000#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S100000x32 ![0, 1] bcast_S1x32_S100000x32_0_1),
    StableHlo.TRef.binary ((.of main_v64) : StableHlo.TRef sig ⟨S100000x32, .f32⟩) main_call5.v4 main_call5.v5 subf,
    StableHlo.TRef.binary main_call5.v5 main_call5.v5 main_call5.v6 mulf,
    StableHlo.TRef.unary ((.of main_c_10) : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x32_S32_d0 h_S_),
    StableHlo.TRef.unary main_call5.v8 main_call5.v10 (broadcastInDim S32 ![] bcast_S_S32),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S32 ![] bcast_S_S32),
    StableHlo.TRef.ternary main_call5.v12 main_call5.v11 main_call5.call0.v1 main_call5.call0.v2 (fun p a b => select (broadcastInDim S32 ![] bcast_S_S32 p) a b),
    StableHlo.unary main_v67 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S100000x32 ![0, 1] bcast_S1x32_S100000x32_0_1 : (⟨S1x32, .f32⟩ : BufTy).Contents (Elt F) → (⟨S100000x32, .f32⟩ : BufTy).Contents (Elt F)),
    StableHlo.binary main_v64 main_v70 main_v71 (subf : (⟨S100000x32, .f32⟩ : BufTy).Contents (Elt F) → (⟨S100000x32, .f32⟩ : BufTy).Contents (Elt F) → (⟨S100000x32, .f32⟩ : BufTy).Contents (Elt F)),
    StableHlo.nullary main_cst_11 (constant S_ .f32 0x3727C5AC#32),
    StableHlo.unary main_cst_11 main_v72 (broadcastInDim S32 ![] bcast_S_S32 : (⟨S_, .f32⟩ : BufTy).Contents (Elt F) → (⟨S32, .f32⟩ : BufTy).Contents (Elt F)),
    StableHlo.binary main_v68 main_v72 main_v73 (addf : (⟨S32, .f32⟩ : BufTy).Contents (Elt F) → (⟨S32, .f32⟩ : BufTy).Contents (Elt F) → (⟨S32, .f32⟩ : BufTy).Contents (Elt F)),
    StableHlo.unary main_v73 main_v74 (Host.rsqrt : (⟨S32, .f32⟩ : BufTy).Contents (Elt F) → (⟨S32, .f32⟩ : BufTy).Contents (Elt F)),
    StableHlo.unary main_v74 main_v75 (broadcastInDim S1x32 ![1] bcast_S32_S1x32_1 : (⟨S32, .f32⟩ : BufTy).Contents (Elt F) → (⟨S1x32, .f32⟩ : BufTy).Contents (Elt F)),
    StableHlo.unary main_v75 main_v76 (broadcastInDim S100000x32 ![0, 1] bcast_S1x32_S100000x32_0_1 : (⟨S1x32, .f32⟩ : BufTy).Contents (Elt F) → (⟨S100000x32, .f32⟩ : BufTy).Contents (Elt F)),
    StableHlo.binary main_v71 main_v76 main_v77 (mulf : (⟨S100000x32, .f32⟩ : BufTy).Contents (Elt F) → (⟨S100000x32, .f32⟩ : BufTy).Contents (Elt F) → (⟨S100000x32, .f32⟩ : BufTy).Contents (Elt F)),
    StableHlo.unary main_arg14 main_v78 (broadcastInDim S1x32 ![1] bcast_S32_S1x32_1 : (⟨S32, .f32⟩ : BufTy).Contents (Elt F) → (⟨S1x32, .f32⟩ : BufTy).Contents (Elt F)),
    StableHlo.unary main_v78 main_v79 (broadcastInDim S100000x32 ![0, 1] bcast_S1x32_S100000x32_0_1 : (⟨S1x32, .f32⟩ : BufTy).Contents (Elt F) → (⟨S100000x32, .f32⟩ : BufTy).Contents (Elt F)),
    StableHlo.binary main_v77 main_v79 main_v80 (mulf : (⟨S100000x32, .f32⟩ : BufTy).Contents (Elt F) → (⟨S100000x32, .f32⟩ : BufTy).Contents (Elt F) → (⟨S100000x32, .f32⟩ : BufTy).Contents (Elt F)),
    StableHlo.unary main_arg15 main_v81 (broadcastInDim S1x32 ![1] bcast_S32_S1x32_1 : (⟨S32, .f32⟩ : BufTy).Contents (Elt F) → (⟨S1x32, .f32⟩ : BufTy).Contents (Elt F)),
    StableHlo.unary main_v81 main_v82 (broadcastInDim S100000x32 ![0, 1] bcast_S1x32_S100000x32_0_1 : (⟨S1x32, .f32⟩ : BufTy).Contents (Elt F) → (⟨S100000x32, .f32⟩ : BufTy).Contents (Elt F)),
    StableHlo.binary main_v80 main_v82 main_v83 (addf : (⟨S100000x32, .f32⟩ : BufTy).Contents (Elt F) → (⟨S100000x32, .f32⟩ : BufTy).Contents (Elt F) → (⟨S100000x32, .f32⟩ : BufTy).Contents (Elt F)) ]

/-- The buffers segment 6's operations write, in order. -/
abbrev W_s6 : List (Ref sig .tc) :=
  [main_cst_8, main_v65, main_cst_9, main_v66, main_v67, main_c_10, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v69, main_v70, main_v71, main_cst_11, main_v72, main_v73, main_v74, main_v75, main_v76, main_v77, main_v78, main_v79, main_v80, main_v81, main_v82, main_v83]

/-- Segment 7 of 12: 14 operations (window `main_part1`), ending at `main_v94`. -/
abbrev ops_s7 : List (HloOp τ sig (Elt F)) :=
  [ StableHlo.nullary main_c_12 (constantI S_ 32 0#32),
    StableHlo.unary main_c_12 main_v84 (broadcastInDim S1600000 ![] bcast_S_S1600000 : (⟨S_, .i32⟩ : BufTy).Contents (Elt F) → (⟨S1600000, .i32⟩ : BufTy).Contents (Elt F)),
    StableHlo.binary main_v1 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v86 (broadcastInDim S1600000 ![] bcast_S_S1600000 : (⟨S_, .i32⟩ : BufTy).Contents (Elt F) → (⟨S1600000, .i32⟩ : BufTy).Contents (Elt F)),
    StableHlo.binary main_v1 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v83 main_v89 main_v90 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_14 (constant S_ .f32 0x00000000#32),
    StableHlo.unary main_cst_14 main_v91 (broadcastInDim S100000x32 ![] bcast_S_S100000x32 : (⟨S_, .f32⟩ : BufTy).Contents (Elt F) → (⟨S100000x32, .f32⟩ : BufTy).Contents (Elt F)),
    StableHlo.unary main_v3 main_v92 (broadcastInDim S1600000x1 ![0] bcast_S1600000_S1600000x1_0 : (⟨S1600000, .i32⟩ : BufTy).Contents (Elt F) → (⟨S1600000x1, .i32⟩ : BufTy).Contents (Elt F)),
    StableHlo.ternary main_v91 main_v92 main_v90 main_v93 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v83 main_v93 main_v94 (addf : (⟨S100000x32, .f32⟩ : BufTy).Contents (Elt F) → (⟨S100000x32, .f32⟩ : BufTy).Contents (Elt F) → (⟨S100000x32, .f32⟩ : BufTy).Contents (Elt F)) ]

/-- The buffers segment 7's operations write, in order. -/
abbrev W_s7 : List (Ref sig .tc) :=
  [main_c_12, main_v84, main_v85, main_c_13, main_v86, main_v87, main_v88, main_v89, main_v90, main_cst_14, main_v91, main_v92, main_v93, main_v94]

/-- Segment 8 of 12: 10 operations (window `main_part1`), ending at `main_v102`. -/
abbrev ops_s8 : List (HloOp τ sig (Elt F)) :=
  [ StableHlo.binary main_v94 main_arg16 main_v95 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg17 main_v96 (broadcastInDim S1x32 ![1] bcast_S32_S1x32_1 : (⟨S32, .f32⟩ : BufTy).Contents (Elt F) → (⟨S1x32, .f32⟩ : BufTy).Contents (Elt F)),
    StableHlo.unary main_v96 main_v97 (broadcastInDim S100000x32 ![0, 1] bcast_S1x32_S100000x32_0_1 : (⟨S1x32, .f32⟩ : BufTy).Contents (Elt F) → (⟨S100000x32, .f32⟩ : BufTy).Contents (Elt F)),
    StableHlo.binary main_v95 main_v97 main_v98 (addf : (⟨S100000x32, .f32⟩ : BufTy).Contents (Elt F) → (⟨S100000x32, .f32⟩ : BufTy).Contents (Elt F) → (⟨S100000x32, .f32⟩ : BufTy).Contents (Elt F)),
    StableHlo.TRef.nullary main_call6.cst (constant S_ .f32 0x00000000#32),
    StableHlo.TRef.unary main_call6.cst main_call6.v0 (broadcastInDim S100000x32 ![] bcast_S_S100000x32),
    StableHlo.TRef.binary ((.of main_v98) : StableHlo.TRef sig ⟨S100000x32, .f32⟩) main_call6.v0 main_call6.v1 maximumf,
    StableHlo.binary main_v99 main_arg18 main_v100 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg19 main_v101 (broadcastInDim S1x32 ![1] bcast_S32_S1x32_1 : (⟨S32, .f32⟩ : BufTy).Contents (Elt F) → (⟨S1x32, .f32⟩ : BufTy).Contents (Elt F)),
    StableHlo.unary main_v101 main_v102 (broadcastInDim S100000x32 ![0, 1] bcast_S1x32_S100000x32_0_1 : (⟨S1x32, .f32⟩ : BufTy).Contents (Elt F) → (⟨S100000x32, .f32⟩ : BufTy).Contents (Elt F)) ]

/-- The buffers segment 8's operations write, in order. -/
abbrev W_s8 : List (Ref sig .tc) :=
  [main_v95, main_v96, main_v97, main_v98, main_call6.cst.ref, main_call6.v0.ref, main_call6.v1.ref, main_v100, main_v101, main_v102]

/-- Segment 9 of 12: 4 operations (window `main_part2`), ending at `main_call7.v1.ref`. -/
abbrev ops_s9 : List (HloOp τ sig (Elt F)) :=
  [ StableHlo.binary main_v100 main_v102 main_v103 (addf : (⟨S100000x32, .f32⟩ : BufTy).Contents (Elt F) → (⟨S100000x32, .f32⟩ : BufTy).Contents (Elt F) → (⟨S100000x32, .f32⟩ : BufTy).Contents (Elt F)),
    StableHlo.TRef.nullary main_call7.cst (constant S_ .f32 0x00000000#32),
    StableHlo.TRef.unary main_call7.cst main_call7.v0 (broadcastInDim S100000x32 ![] bcast_S_S100000x32),
    StableHlo.TRef.binary ((.of main_v103) : StableHlo.TRef sig ⟨S100000x32, .f32⟩) main_call7.v0 main_call7.v1 maximumf ]

/-- The buffers segment 9's operations write, in order. -/
abbrev W_s9 : List (Ref sig .tc) :=
  [main_v103, main_call7.cst.ref, main_call7.v0.ref, main_call7.v1.ref]

/-- Segment 10 of 12: 44 operations (window `main_part2`), ending at `main_v123`. -/
abbrev ops_s10 : List (HloOp τ sig (Elt F)) :=
  [ StableHlo.nullary main_cst_15 (constant S_ .f32 0x00000000#32),
    StableHlo.binary main_v104 main_cst_15 main_v105 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_16 (constant S_ .f32 0x47C35000#32),
    StableHlo.unary main_cst_16 main_v106 (broadcastInDim S32 ![] bcast_S_S32 : (⟨S_, .f32⟩ : BufTy).Contents (Elt F) → (⟨S32, .f32⟩ : BufTy).Contents (Elt F)),
    StableHlo.binary main_v105 main_v106 main_v107 (Host.divf : (⟨S32, .f32⟩ : BufTy).Contents (Elt F) → (⟨S32, .f32⟩ : BufTy).Contents (Elt F) → (⟨S32, .f32⟩ : BufTy).Contents (Elt F)),
    StableHlo.nullary main_c_17 (constantI S_ 32 0#32),
    StableHlo.TRef.nullary main_call8.cst (constant S_ .f32 0x00000000#32),
    StableHlo.TRef.binary ((.of main_v104) : StableHlo.TRef sig ⟨S100000x32, .f32⟩) main_call8.cst main_call8.v0 (fun x v => Host.reduceAdd x v reducesTo_S100000x32_S32_d0 h_S_),
    StableHlo.TRef.unary main_call8.v0 main_call8.v1 (broadcastInDim S1x32 ![1] bcast_S32_S1x32_1),
    StableHlo.TRef.nullary main_call8.cst_0 (constant S_ .f32 0x47C35000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S100000x32 ![0, 1] bcast_S1x32_S100000x32_0_1),
    StableHlo.TRef.binary ((.of main_v104) : StableHlo.TRef sig ⟨S100000x32, .f32⟩) main_call8.v4 main_call8.v5 subf,
    StableHlo.TRef.binary main_call8.v5 main_call8.v5 main_call8.v6 mulf,
    StableHlo.TRef.unary ((.of main_c_17) : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v107 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v104 main_v110 main_v111 (subf : (⟨S100000x32, .f32⟩ : BufTy).Contents (Elt F) → (⟨S100000x32, .f32⟩ : BufTy).Contents (Elt F) → (⟨S100000x32, .f32⟩ : BufTy).Contents (Elt F)),
    StableHlo.nullary main_cst_18 (constant S_ .f32 0x3727C5AC#32),
    StableHlo.unary main_cst_18 main_v112 (broadcastInDim S32 ![] bcast_S_S32 : (⟨S_, .f32⟩ : BufTy).Contents (Elt F) → (⟨S32, .f32⟩ : BufTy).Contents (Elt F)),
    StableHlo.binary main_v108 main_v112 main_v113 (addf : (⟨S32, .f32⟩ : BufTy).Contents (Elt F) → (⟨S32, .f32⟩ : BufTy).Contents (Elt F) → (⟨S32, .f32⟩ : BufTy).Contents (Elt F)),
    StableHlo.unary main_v113 main_v114 (Host.rsqrt : (⟨S32, .f32⟩ : BufTy).Contents (Elt F) → (⟨S32, .f32⟩ : BufTy).Contents (Elt F)),
    StableHlo.unary main_v114 main_v115 (broadcastInDim S1x32 ![1] bcast_S32_S1x32_1 : (⟨S32, .f32⟩ : BufTy).Contents (Elt F) → (⟨S1x32, .f32⟩ : BufTy).Contents (Elt F)),
    StableHlo.unary main_v115 main_v116 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v116 main_v117 (mulf : (⟨S100000x32, .f32⟩ : BufTy).Contents (Elt F) → (⟨S100000x32, .f32⟩ : BufTy).Contents (Elt F) → (⟨S100000x32, .f32⟩ : BufTy).Contents (Elt F)),
    StableHlo.unary main_arg20 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S100000x32 ![0, 1] bcast_S1x32_S100000x32_0_1 : (⟨S1x32, .f32⟩ : BufTy).Contents (Elt F) → (⟨S100000x32, .f32⟩ : BufTy).Contents (Elt F)),
    StableHlo.binary main_v117 main_v119 main_v120 (mulf : (⟨S100000x32, .f32⟩ : BufTy).Contents (Elt F) → (⟨S100000x32, .f32⟩ : BufTy).Contents (Elt F) → (⟨S100000x32, .f32⟩ : BufTy).Contents (Elt F)),
    StableHlo.unary main_arg21 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S100000x32 ![0, 1] bcast_S1x32_S100000x32_0_1 : (⟨S1x32, .f32⟩ : BufTy).Contents (Elt F) → (⟨S100000x32, .f32⟩ : BufTy).Contents (Elt F)),
    StableHlo.binary main_v120 main_v122 main_v123 (addf : (⟨S100000x32, .f32⟩ : BufTy).Contents (Elt F) → (⟨S100000x32, .f32⟩ : BufTy).Contents (Elt F) → (⟨S100000x32, .f32⟩ : BufTy).Contents (Elt F)) ]

/-- The buffers segment 10's operations write, in order. -/
abbrev W_s10 : List (Ref sig .tc) :=
  [main_cst_15, main_v105, main_cst_16, main_v106, main_v107, main_c_17, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v109, main_v110, main_v111, main_cst_18, main_v112, main_v113, main_v114, main_v115, main_v116, main_v117, main_v118, main_v119, main_v120, main_v121, main_v122, main_v123]

/-- Segment 11 of 12: 11 operations (window `main_part2`), ending at `main_v132`. -/
abbrev ops_s11 : List (HloOp τ sig (Elt F)) :=
  [ StableHlo.binary main_v123 main_arg22 main_v124 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg23 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S100000x32 ![0, 1] bcast_S1x32_S100000x32_0_1 : (⟨S1x32, .f32⟩ : BufTy).Contents (Elt F) → (⟨S100000x32, .f32⟩ : BufTy).Contents (Elt F)),
    StableHlo.binary main_v124 main_v126 main_v127 (addf : (⟨S100000x32, .f32⟩ : BufTy).Contents (Elt F) → (⟨S100000x32, .f32⟩ : BufTy).Contents (Elt F) → (⟨S100000x32, .f32⟩ : BufTy).Contents (Elt F)),
    StableHlo.TRef.nullary main_call9.cst (constant S_ .f32 0x00000000#32),
    StableHlo.TRef.unary main_call9.cst main_call9.v0 (broadcastInDim S100000x32 ![] bcast_S_S100000x32),
    StableHlo.TRef.binary ((.of main_v127) : StableHlo.TRef sig ⟨S100000x32, .f32⟩) main_call9.v0 main_call9.v1 maximumf,
    StableHlo.binary main_v128 main_arg24 main_v129 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    StableHlo.unary main_arg25 main_v130 (broadcastInDim S1x2 ![1] bcast_S2_S1x2_1 : (⟨S2, .f32⟩ : BufTy).Contents (Elt F) → (⟨S1x2, .f32⟩ : BufTy).Contents (Elt F)),
    StableHlo.unary main_v130 main_v131 (broadcastInDim S100000x2 ![0, 1] bcast_S1x2_S100000x2_0_1 : (⟨S1x2, .f32⟩ : BufTy).Contents (Elt F) → (⟨S100000x2, .f32⟩ : BufTy).Contents (Elt F)),
    StableHlo.binary main_v129 main_v131 main_v132 (addf : (⟨S100000x2, .f32⟩ : BufTy).Contents (Elt F) → (⟨S100000x2, .f32⟩ : BufTy).Contents (Elt F) → (⟨S100000x2, .f32⟩ : BufTy).Contents (Elt F)) ]

/-- The buffers segment 11's operations write, in order. -/
abbrev W_s11 : List (Ref sig .tc) :=
  [main_v124, main_v125, main_v126, main_v127, main_call9.cst.ref, main_call9.v0.ref, main_call9.v1.ref, main_v129, main_v130, main_v131, main_v132]

/-- Window `main_part0`'s 85 operations. -/
abbrev ops_part0 : List (HloOp τ sig (Elt F)) :=
  ops_s0 ++ (ops_s1 ++ (ops_s2 ++ (ops_s3)))

/-- Window `main_part1`'s 87 operations. -/
abbrev ops_part1 : List (HloOp τ sig (Elt F)) :=
  ops_s4 ++ (ops_s5 ++ (ops_s6 ++ (ops_s7 ++ (ops_s8))))

/-- Window `main_part2`'s 59 operations. -/
abbrev ops_part2 : List (HloOp τ sig (Elt F)) :=
  ops_s9 ++ (ops_s10 ++ (ops_s11))

/-- @main's 231 operations, in order. -/
abbrev ops : List (HloOp τ sig (Elt F)) :=
  ops_part0 ++ (ops_part1 ++ (ops_part2))

end Cert.ReferenceIdeal.RefRun

end
-- ==== Proof.RefRun.lean ====
/-
  The reference program's run. @main is a straight line of host operations once its module-local functions
  (the rectifier, the column variance and the select it calls) are written out at their call sites, so its
  run is the fold of the operations' results over the launch contents. The line is read in twelve consecutive
  segments, one per stage of a layer (neighbour sum, perceptron, normalisation) and none crossing a printed
  window; after each segment the stage's result buffer holds the layer-by-layer specification's term of the
  argument arrays, and the argument arrays are never written.
-/
import proofs.«163704_j39694087750181_1_alg».proof.Proof.RefOps
import proofs.«163704_j39694087750181_1_alg».proof.Proof.Spec
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

set_option maxRecDepth 8192 in
/-- Window 0 is its operations in order: the functions' bodies unfold at their calls and the records at their
    fields, and sequencing re-associates. -/
theorem main_part0_eq (c : Dev nD) : main_part0 (F := F) c = seq ops_part0 := by
  simp only [main_part0, fn_relu.body, fn_var.body, fn_where.body, ops_part0, ops_s0, ops_s1, ops_s2, ops_s3,
    List.cons_append, List.nil_append, seq, bind_assoc, pure_bind]
  rfl

set_option maxRecDepth 8192 in
theorem main_part1_eq (c : Dev nD) : main_part1 (F := F) c = seq ops_part1 := by
  simp only [main_part1, fn_relu.body, fn_var.body, fn_where.body, ops_part1, ops_s4, ops_s5, ops_s6, ops_s7, ops_s8,
    List.cons_append, List.nil_append, seq, bind_assoc, pure_bind]
  rfl

set_option maxRecDepth 8192 in
theorem main_part2_eq (c : Dev nD) : main_part2 (F := F) c = seq ops_part2 := by
  simp only [main_part2, fn_relu.body, fn_var.body, fn_where.body, ops_part2, ops_s9, ops_s10, ops_s11,
    List.cons_append, List.nil_append, seq, bind_assoc, pure_bind]

set_option maxRecDepth 8192 in
/-- @main runs its three windows in order, which is the whole line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The side conditions of the run and of the segments -/

/-- Every operation of a literal list touches TensorCore references only: the builders' own lemmas. -/
local macro "bufs_sub_all" : tactic =>
  `(tactic|
    simp only [List.Forall, nullary_bufs_sub, unary_bufs_sub, binary_bufs_sub, ternary_bufs_sub, reshape_bufs_sub, and_self])

/-- Every operation of a literal list writes a buffer of the given list: each writes its one result, and
    distinct references are distinct device buffers. -/
local macro "writes_all" : tactic =>
  `(tactic| (
    simp only [List.Forall, nullary_writes, unary_writes, binary_writes, ternary_writes, reshape_writes,
      Finset.singleton_subset_iff, List.mem_toFinset, List.mem_map_of_injective (Proc.devRef_injective (τ := τ) (sig := sig) .tc)]
    decide))

set_option maxRecDepth 8192 in
theorem ops_s0_sub : (ops_s0 : List (HloOp τ sig (Elt F))).Forall fun op => op.bufs ⊆ tcRefs τ sig := by bufs_sub_all
set_option maxRecDepth 8192 in
set_option synthInstance.maxSize 4096 in
theorem ops_s0_writes : (ops_s0 : List (HloOp τ sig (Elt F))).Forall fun op => op.writes ⊆ (W_s0.map (Proc.devRef (τ := τ) .tc)).toFinset := by writes_all

set_option maxRecDepth 8192 in
theorem ops_s1_sub : (ops_s1 : List (HloOp τ sig (Elt F))).Forall fun op => op.bufs ⊆ tcRefs τ sig := by bufs_sub_all
set_option maxRecDepth 8192 in
set_option synthInstance.maxSize 4096 in
theorem ops_s1_writes : (ops_s1 : List (HloOp τ sig (Elt F))).Forall fun op => op.writes ⊆ (W_s1.map (Proc.devRef (τ := τ) .tc)).toFinset := by writes_all

set_option maxRecDepth 8192 in
theorem ops_s2_sub : (ops_s2 : List (HloOp τ sig (Elt F))).Forall fun op => op.bufs ⊆ tcRefs τ sig := by bufs_sub_all
set_option maxRecDepth 8192 in
set_option synthInstance.maxSize 4096 in
theorem ops_s2_writes : (ops_s2 : List (HloOp τ sig (Elt F))).Forall fun op => op.writes ⊆ (W_s2.map (Proc.devRef (τ := τ) .tc)).toFinset := by writes_all

set_option maxRecDepth 8192 in
theorem ops_s3_sub : (ops_s3 : List (HloOp τ sig (Elt F))).Forall fun op => op.bufs ⊆ tcRefs τ sig := by bufs_sub_all
set_option maxRecDepth 8192 in
set_option synthInstance.maxSize 4096 in
theorem ops_s3_writes : (ops_s3 : List (HloOp τ sig (Elt F))).Forall fun op => op.writes ⊆ (W_s3.map (Proc.devRef (τ := τ) .tc)).toFinset := by writes_all

set_option maxRecDepth 8192 in
theorem ops_s4_sub : (ops_s4 : List (HloOp τ sig (Elt F))).Forall fun op => op.bufs ⊆ tcRefs τ sig := by bufs_sub_all
set_option maxRecDepth 8192 in
set_option synthInstance.maxSize 4096 in
theorem ops_s4_writes : (ops_s4 : List (HloOp τ sig (Elt F))).Forall fun op => op.writes ⊆ (W_s4.map (Proc.devRef (τ := τ) .tc)).toFinset := by writes_all

set_option maxRecDepth 8192 in
theorem ops_s5_sub : (ops_s5 : List (HloOp τ sig (Elt F))).Forall fun op => op.bufs ⊆ tcRefs τ sig := by bufs_sub_all
set_option maxRecDepth 8192 in
set_option synthInstance.maxSize 4096 in
theorem ops_s5_writes : (ops_s5 : List (HloOp τ sig (Elt F))).Forall fun op => op.writes ⊆ (W_s5.map (Proc.devRef (τ := τ) .tc)).toFinset := by writes_all

set_option maxRecDepth 8192 in
theorem ops_s6_sub : (ops_s6 : List (HloOp τ sig (Elt F))).Forall fun op => op.bufs ⊆ tcRefs τ sig := by bufs_sub_all
set_option maxRecDepth 8192 in
set_option synthInstance.maxSize 4096 in
theorem ops_s6_writes : (ops_s6 : List (HloOp τ sig (Elt F))).Forall fun op => op.writes ⊆ (W_s6.map (Proc.devRef (τ := τ) .tc)).toFinset := by writes_all

set_option maxRecDepth 8192 in
theorem ops_s7_sub : (ops_s7 : List (HloOp τ sig (Elt F))).Forall fun op => op.bufs ⊆ tcRefs τ sig := by bufs_sub_all
set_option maxRecDepth 8192 in
set_option synthInstance.maxSize 4096 in
theorem ops_s7_writes : (ops_s7 : List (HloOp τ sig (Elt F))).Forall fun op => op.writes ⊆ (W_s7.map (Proc.devRef (τ := τ) .tc)).toFinset := by writes_all

set_option maxRecDepth 8192 in
theorem ops_s8_sub : (ops_s8 : List (HloOp τ sig (Elt F))).Forall fun op => op.bufs ⊆ tcRefs τ sig := by bufs_sub_all
set_option maxRecDepth 8192 in
set_option synthInstance.maxSize 4096 in
theorem ops_s8_writes : (ops_s8 : List (HloOp τ sig (Elt F))).Forall fun op => op.writes ⊆ (W_s8.map (Proc.devRef (τ := τ) .tc)).toFinset := by writes_all

set_option maxRecDepth 8192 in
theorem ops_s9_sub : (ops_s9 : List (HloOp τ sig (Elt F))).Forall fun op => op.bufs ⊆ tcRefs τ sig := by bufs_sub_all
set_option maxRecDepth 8192 in
set_option synthInstance.maxSize 4096 in
theorem ops_s9_writes : (ops_s9 : List (HloOp τ sig (Elt F))).Forall fun op => op.writes ⊆ (W_s9.map (Proc.devRef (τ := τ) .tc)).toFinset := by writes_all

set_option maxRecDepth 8192 in
theorem ops_s10_sub : (ops_s10 : List (HloOp τ sig (Elt F))).Forall fun op => op.bufs ⊆ tcRefs τ sig := by bufs_sub_all
set_option maxRecDepth 8192 in
set_option synthInstance.maxSize 4096 in
theorem ops_s10_writes : (ops_s10 : List (HloOp τ sig (Elt F))).Forall fun op => op.writes ⊆ (W_s10.map (Proc.devRef (τ := τ) .tc)).toFinset := by writes_all

set_option maxRecDepth 8192 in
theorem ops_s11_sub : (ops_s11 : List (HloOp τ sig (Elt F))).Forall fun op => op.bufs ⊆ tcRefs τ sig := by bufs_sub_all
set_option maxRecDepth 8192 in
set_option synthInstance.maxSize 4096 in
theorem ops_s11_writes : (ops_s11 : List (HloOp τ sig (Elt F))).Forall fun op => op.writes ⊆ (W_s11.map (Proc.devRef (τ := τ) .tc)).toFinset := by writes_all

/-- The whole line touches TensorCore references only: segment by segment. -/
theorem ops_sub : (ops : List (HloOp τ sig (Elt F))).Forall fun op => op.bufs ⊆ tcRefs τ sig :=
  List.forall_iff_forall_mem.mpr fun op h => by
    simp only [ops, ops_part0, ops_part1, ops_part2, List.mem_append] at h
    rcases h with (h | h | h | h) | (h | h | h | h | h) | (h | h | h)
    exacts [List.forall_iff_forall_mem.mp ops_s0_sub op h, List.forall_iff_forall_mem.mp ops_s1_sub op h,
      List.forall_iff_forall_mem.mp ops_s2_sub op h, List.forall_iff_forall_mem.mp ops_s3_sub op h,
      List.forall_iff_forall_mem.mp ops_s4_sub op h, List.forall_iff_forall_mem.mp ops_s5_sub op h,
      List.forall_iff_forall_mem.mp ops_s6_sub op h, List.forall_iff_forall_mem.mp ops_s7_sub op h,
      List.forall_iff_forall_mem.mp ops_s8_sub op h, List.forall_iff_forall_mem.mp ops_s9_sub op h,
      List.forall_iff_forall_mem.mp ops_s10_sub op h, List.forall_iff_forall_mem.mp ops_s11_sub op h]

/-! ## The stages' values, of the launch contents

Each is the specification's function of the argument arrays (and of the stage before), named so that a
segment's statement mentions one stage only. -/

/-- Layer 1: the neighbour sum. -/
def a1 (V0 : Valuation τ sig (Elt F)) : FVec F S100000x128 .f32 :=
  Spec.aggr128 (V0 (Proc.devRef .tc main_arg0)) (V0 (Proc.devRef .tc main_arg1))
/-- Layer 1: the perceptron on it. -/
def r1 (V0 : Valuation τ sig (Elt F)) : FVec F S100000x32 .f32 :=
  Spec.mlp128 (a1 V0) (V0 (Proc.devRef .tc main_arg4)) (Spec.asRow (V0 (Proc.devRef .tc main_arg5))) (V0 (Proc.devRef .tc main_arg6)) (Spec.asRow (V0 (Proc.devRef .tc main_arg7)))
/-- Layer 1: normalised. -/
def h1 (V0 : Valuation τ sig (Elt F)) : FVec F S100000x32 .f32 :=
  Spec.normed (r1 V0) (V0 (Proc.devRef .tc main_arg8)) (V0 (Proc.devRef .tc main_arg9))
/-- Layer 2: the rows of layer 1's output at the edges' sources. -/
def g2 (V0 : Valuation τ sig (Elt F)) : FVec F S1600000x32 .f32 :=
  Host.gather gather_S100000x32_S1600000x1_S1600000x32_1_0_n_n_0_1_132 (h1 V0) (Spec.wrapCol (Spec.srcOf (V0 (Proc.devRef .tc main_arg1))))
/-- Layer 2: the neighbour sum. -/
def a2 (V0 : Valuation τ sig (Elt F)) : FVec F S100000x32 .f32 :=
  Spec.aggr32 (h1 V0) (V0 (Proc.devRef .tc main_arg1))
/-- Layer 2: the perceptron. -/
def r2 (V0 : Valuation τ sig (Elt F)) : FVec F S100000x32 .f32 :=
  Spec.mlp32 (a2 V0) (V0 (Proc.devRef .tc main_arg10)) (Spec.asRow (V0 (Proc.devRef .tc main_arg11))) (V0 (Proc.devRef .tc main_arg12)) (Spec.asRow (V0 (Proc.devRef .tc main_arg13)))
/-- Layer 2: normalised. -/
def h2 (V0 : Valuation τ sig (Elt F)) : FVec F S100000x32 .f32 :=
  Spec.normed (r2 V0) (V0 (Proc.devRef .tc main_arg14)) (V0 (Proc.devRef .tc main_arg15))
/-- Layer 3: the neighbour sum. -/
def a3 (V0 : Valuation τ sig (Elt F)) : FVec F S100000x32 .f32 :=
  Spec.aggr32 (h2 V0) (V0 (Proc.devRef .tc main_arg1))
/-- Layer 3: the perceptron's second product, before its bias. -/
def d3 (V0 : Valuation τ sig (Elt F)) : FVec F S100000x32 .f32 :=
  Host.dotGeneral dot_S100000x32_S32x32_S100000x32_1_0_0_1_n_n none
    (Spec.relu (Spec.lin32 (a3 V0) (V0 (Proc.devRef .tc main_arg16)) (Spec.asRow (V0 (Proc.devRef .tc main_arg17))))) (V0 (Proc.devRef .tc main_arg18))
/-- Layer 3: that bias, repeated over the rows. -/
def b3 (V0 : Valuation τ sig (Elt F)) : FVec F S100000x32 .f32 :=
  Spec.rows32 (Spec.asRow (V0 (Proc.devRef .tc main_arg19)))
/-- Layer 3: the perceptron. -/
def r3 (V0 : Valuation τ sig (Elt F)) : FVec F S100000x32 .f32 :=
  Spec.mlp32 (a3 V0) (V0 (Proc.devRef .tc main_arg16)) (Spec.asRow (V0 (Proc.devRef .tc main_arg17))) (V0 (Proc.devRef .tc main_arg18)) (Spec.asRow (V0 (Proc.devRef .tc main_arg19)))
/-- Layer 3: normalised. -/
def h3 (V0 : Valuation τ sig (Elt F)) : FVec F S100000x32 .f32 :=
  Spec.normed (r3 V0) (V0 (Proc.devRef .tc main_arg20)) (V0 (Proc.devRef .tc main_arg21))
/-- The network's output. -/
def out (V0 : Valuation τ sig (Elt F)) : FVec F S100000x2 .f32 :=
  Spec.final (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))
    (V0 (Proc.devRef .tc main_arg22)) (V0 (Proc.devRef .tc main_arg23)) (V0 (Proc.devRef .tc main_arg24)) (V0 (Proc.devRef .tc main_arg25))

/-! ## The contents after each segment -/

attribute [local irreducible] Host.reduceAdd Host.gather Host.scatterAdd

/-- The contents after segment 0. -/
def val1 (V0 : Valuation τ sig (Elt F)) : Valuation τ sig (Elt F) := after ops_s0 V0
/-- The contents after segment 1. -/
def val2 (V0 : Valuation τ sig (Elt F)) : Valuation τ sig (Elt F) := after ops_s1 (val1 V0)
/-- The contents after segment 2. -/
def val3 (V0 : Valuation τ sig (Elt F)) : Valuation τ sig (Elt F) := after ops_s2 (val2 V0)
/-- The contents after segment 3. -/
def val4 (V0 : Valuation τ sig (Elt F)) : Valuation τ sig (Elt F) := after ops_s3 (val3 V0)
/-- The contents after segment 4. -/
def val5 (V0 : Valuation τ sig (Elt F)) : Valuation τ sig (Elt F) := after ops_s4 (val4 V0)
/-- The contents after segment 5. -/
def val6 (V0 : Valuation τ sig (Elt F)) : Valuation τ sig (Elt F) := after ops_s5 (val5 V0)
/-- The contents after segment 6. -/
def val7 (V0 : Valuation τ sig (Elt F)) : Valuation τ sig (Elt F) := after ops_s6 (val6 V0)
/-- The contents after segment 7. -/
def val8 (V0 : Valuation τ sig (Elt F)) : Valuation τ sig (Elt F) := after ops_s7 (val7 V0)
/-- The contents after segment 8. -/
def val9 (V0 : Valuation τ sig (Elt F)) : Valuation τ sig (Elt F) := after ops_s8 (val8 V0)
/-- The contents after segment 9. -/
def val10 (V0 : Valuation τ sig (Elt F)) : Valuation τ sig (Elt F) := after ops_s9 (val9 V0)
/-- The contents after segment 10. -/
def val11 (V0 : Valuation τ sig (Elt F)) : Valuation τ sig (Elt F) := after ops_s10 (val10 V0)
/-- The contents after segment 11. -/
def val12 (V0 : Valuation τ sig (Elt F)) : Valuation τ sig (Elt F) := after ops_s11 (val11 V0)

/-- The whole line's fold is the segments' folds in turn. -/
theorem after_ops (V0 : Valuation τ sig (Elt F)) : after ops V0 = val12 V0 := by
  simp only [ops, ops_part0, ops_part1, ops_part2, after_append]
  rfl

/-- A buffer that segment 0 does not write keeps its contents through it. -/
theorem val1_keep (V0 : Valuation τ sig (Elt F)) (r : Ref sig .tc) (h : r ∉ W_s0) :
    val1 V0 (Proc.devRef .tc r) = V0 (Proc.devRef .tc r) :=
  after_of_writes_sub ops_s0 _ ops_s0_writes h
theorem val2_keep (V0 : Valuation τ sig (Elt F)) (r : Ref sig .tc) (h : r ∉ W_s1) :
    val2 V0 (Proc.devRef .tc r) = val1 V0 (Proc.devRef .tc r) :=
  after_of_writes_sub ops_s1 _ ops_s1_writes h
theorem val3_keep (V0 : Valuation τ sig (Elt F)) (r : Ref sig .tc) (h : r ∉ W_s2) :
    val3 V0 (Proc.devRef .tc r) = val2 V0 (Proc.devRef .tc r) :=
  after_of_writes_sub ops_s2 _ ops_s2_writes h
theorem val4_keep (V0 : Valuation τ sig (Elt F)) (r : Ref sig .tc) (h : r ∉ W_s3) :
    val4 V0 (Proc.devRef .tc r) = val3 V0 (Proc.devRef .tc r) :=
  after_of_writes_sub ops_s3 _ ops_s3_writes h
theorem val5_keep (V0 : Valuation τ sig (Elt F)) (r : Ref sig .tc) (h : r ∉ W_s4) :
    val5 V0 (Proc.devRef .tc r) = val4 V0 (Proc.devRef .tc r) :=
  after_of_writes_sub ops_s4 _ ops_s4_writes h
theorem val6_keep (V0 : Valuation τ sig (Elt F)) (r : Ref sig .tc) (h : r ∉ W_s5) :
    val6 V0 (Proc.devRef .tc r) = val5 V0 (Proc.devRef .tc r) :=
  after_of_writes_sub ops_s5 _ ops_s5_writes h
theorem val7_keep (V0 : Valuation τ sig (Elt F)) (r : Ref sig .tc) (h : r ∉ W_s6) :
    val7 V0 (Proc.devRef .tc r) = val6 V0 (Proc.devRef .tc r) :=
  after_of_writes_sub ops_s6 _ ops_s6_writes h
theorem val8_keep (V0 : Valuation τ sig (Elt F)) (r : Ref sig .tc) (h : r ∉ W_s7) :
    val8 V0 (Proc.devRef .tc r) = val7 V0 (Proc.devRef .tc r) :=
  after_of_writes_sub ops_s7 _ ops_s7_writes h
theorem val9_keep (V0 : Valuation τ sig (Elt F)) (r : Ref sig .tc) (h : r ∉ W_s8) :
    val9 V0 (Proc.devRef .tc r) = val8 V0 (Proc.devRef .tc r) :=
  after_of_writes_sub ops_s8 _ ops_s8_writes h
theorem val10_keep (V0 : Valuation τ sig (Elt F)) (r : Ref sig .tc) (h : r ∉ W_s9) :
    val10 V0 (Proc.devRef .tc r) = val9 V0 (Proc.devRef .tc r) :=
  after_of_writes_sub ops_s9 _ ops_s9_writes h
theorem val11_keep (V0 : Valuation τ sig (Elt F)) (r : Ref sig .tc) (h : r ∉ W_s10) :
    val11 V0 (Proc.devRef .tc r) = val10 V0 (Proc.devRef .tc r) :=
  after_of_writes_sub ops_s10 _ ops_s10_writes h
theorem val12_keep (V0 : Valuation τ sig (Elt F)) (r : Ref sig .tc) (h : r ∉ W_s11) :
    val12 V0 (Proc.devRef .tc r) = val11 V0 (Proc.devRef .tc r) :=
  after_of_writes_sub ops_s11 _ ops_s11_writes h

/-- The buffers written by the first segments, cumulatively. -/
abbrev Wc1 : List (Ref sig .tc) := W_s0
abbrev Wc2 : List (Ref sig .tc) := Wc1 ++ W_s1
abbrev Wc3 : List (Ref sig .tc) := Wc2 ++ W_s2
abbrev Wc4 : List (Ref sig .tc) := Wc3 ++ W_s3
abbrev Wc5 : List (Ref sig .tc) := Wc4 ++ W_s4
abbrev Wc6 : List (Ref sig .tc) := Wc5 ++ W_s5
abbrev Wc7 : List (Ref sig .tc) := Wc6 ++ W_s6
abbrev Wc8 : List (Ref sig .tc) := Wc7 ++ W_s7
abbrev Wc9 : List (Ref sig .tc) := Wc8 ++ W_s8
abbrev Wc10 : List (Ref sig .tc) := Wc9 ++ W_s9
abbrev Wc11 : List (Ref sig .tc) := Wc10 ++ W_s10
abbrev Wc12 : List (Ref sig .tc) := Wc11 ++ W_s11

/-- A buffer none of the first segments writes still holds its launch contents (the argument arrays do). -/
theorem val1_launch (V0 : Valuation τ sig (Elt F)) (r : Ref sig .tc) (h : r ∉ Wc1) :
    val1 V0 (no_index (Proc.devRef .tc r)) = V0 (Proc.devRef .tc r) :=
  val1_keep V0 r h
theorem val2_launch (V0 : Valuation τ sig (Elt F)) (r : Ref sig .tc) (h : r ∉ Wc2) :
    val2 V0 (no_index (Proc.devRef .tc r)) = V0 (Proc.devRef .tc r) :=
  (val2_keep V0 r fun hm => h (List.mem_append_right _ hm)).trans (val1_launch V0 r fun hm => h (List.mem_append_left _ hm))
theorem val3_launch (V0 : Valuation τ sig (Elt F)) (r : Ref sig .tc) (h : r ∉ Wc3) :
    val3 V0 (no_index (Proc.devRef .tc r)) = V0 (Proc.devRef .tc r) :=
  (val3_keep V0 r fun hm => h (List.mem_append_right _ hm)).trans (val2_launch V0 r fun hm => h (List.mem_append_left _ hm))
theorem val4_launch (V0 : Valuation τ sig (Elt F)) (r : Ref sig .tc) (h : r ∉ Wc4) :
    val4 V0 (no_index (Proc.devRef .tc r)) = V0 (Proc.devRef .tc r) :=
  (val4_keep V0 r fun hm => h (List.mem_append_right _ hm)).trans (val3_launch V0 r fun hm => h (List.mem_append_left _ hm))
theorem val5_launch (V0 : Valuation τ sig (Elt F)) (r : Ref sig .tc) (h : r ∉ Wc5) :
    val5 V0 (no_index (Proc.devRef .tc r)) = V0 (Proc.devRef .tc r) :=
  (val5_keep V0 r fun hm => h (List.mem_append_right _ hm)).trans (val4_launch V0 r fun hm => h (List.mem_append_left _ hm))
theorem val6_launch (V0 : Valuation τ sig (Elt F)) (r : Ref sig .tc) (h : r ∉ Wc6) :
    val6 V0 (no_index (Proc.devRef .tc r)) = V0 (Proc.devRef .tc r) :=
  (val6_keep V0 r fun hm => h (List.mem_append_right _ hm)).trans (val5_launch V0 r fun hm => h (List.mem_append_left _ hm))
theorem val7_launch (V0 : Valuation τ sig (Elt F)) (r : Ref sig .tc) (h : r ∉ Wc7) :
    val7 V0 (no_index (Proc.devRef .tc r)) = V0 (Proc.devRef .tc r) :=
  (val7_keep V0 r fun hm => h (List.mem_append_right _ hm)).trans (val6_launch V0 r fun hm => h (List.mem_append_left _ hm))
theorem val8_launch (V0 : Valuation τ sig (Elt F)) (r : Ref sig .tc) (h : r ∉ Wc8) :
    val8 V0 (no_index (Proc.devRef .tc r)) = V0 (Proc.devRef .tc r) :=
  (val8_keep V0 r fun hm => h (List.mem_append_right _ hm)).trans (val7_launch V0 r fun hm => h (List.mem_append_left _ hm))
theorem val9_launch (V0 : Valuation τ sig (Elt F)) (r : Ref sig .tc) (h : r ∉ Wc9) :
    val9 V0 (no_index (Proc.devRef .tc r)) = V0 (Proc.devRef .tc r) :=
  (val9_keep V0 r fun hm => h (List.mem_append_right _ hm)).trans (val8_launch V0 r fun hm => h (List.mem_append_left _ hm))
theorem val10_launch (V0 : Valuation τ sig (Elt F)) (r : Ref sig .tc) (h : r ∉ Wc10) :
    val10 V0 (no_index (Proc.devRef .tc r)) = V0 (Proc.devRef .tc r) :=
  (val10_keep V0 r fun hm => h (List.mem_append_right _ hm)).trans (val9_launch V0 r fun hm => h (List.mem_append_left _ hm))
theorem val11_launch (V0 : Valuation τ sig (Elt F)) (r : Ref sig .tc) (h : r ∉ Wc11) :
    val11 V0 (no_index (Proc.devRef .tc r)) = V0 (Proc.devRef .tc r) :=
  (val11_keep V0 r fun hm => h (List.mem_append_right _ hm)).trans (val10_launch V0 r fun hm => h (List.mem_append_left _ hm))
theorem val12_launch (V0 : Valuation τ sig (Elt F)) (r : Ref sig .tc) (h : r ∉ Wc12) :
    val12 V0 (no_index (Proc.devRef .tc r)) = V0 (Proc.devRef .tc r) :=
  (val12_keep V0 r fun hm => h (List.mem_append_right _ hm)).trans (val11_launch V0 r fun hm => h (List.mem_append_left _ hm))

/-! ## The segments, read

After each segment the stage's buffer holds the stage's value. A read unrolls the segment's fold at that buffer
(each operation's result at its own buffer, what was there at any other), replaces the buffers read from earlier
segments by their values, and what is left is the specification's definition unfolded. -/

set_option maxRecDepth 8192 in
set_option maxHeartbeats 4000000 in
/-- Segment 0: the edges' source nodes. -/
theorem val1_v1 (V0 : Valuation τ sig (Elt F)) :
    val1 V0 (no_index (Proc.devRef .tc main_v1)) = Spec.srcOf (V0 (Proc.devRef .tc main_arg1)) := by
  unfold val1
  simp only [ops_s0]
  after_results_simp
  rfl
set_option maxRecDepth 8192 in
set_option maxHeartbeats 4000000 in
/-- Segment 0: the edges' destination nodes. -/
theorem val1_v3 (V0 : Valuation τ sig (Elt F)) :
    val1 V0 (no_index (Proc.devRef .tc main_v3)) = Spec.dstOf (V0 (Proc.devRef .tc main_arg1)) := by
  unfold val1
  simp only [ops_s0]
  after_results_simp
  rfl
set_option maxRecDepth 8192 in
set_option maxHeartbeats 4000000 in
/-- Segment 0: layer 1's neighbour sum. -/
theorem val1_v14 (V0 : Valuation τ sig (Elt F)) :
    val1 V0 (no_index (Proc.devRef .tc main_v14)) = a1 V0 := by
  unfold val1
  simp only [ops_s0]
  after_results_simp
  rfl
theorem val2_v1 (V0 : Valuation τ sig (Elt F)) :
    val2 V0 (no_index (Proc.devRef .tc main_v1)) = Spec.srcOf (V0 (Proc.devRef .tc main_arg1)) :=
  (val2_keep V0 main_v1 (by decide)).trans (val1_v1 V0)
theorem val2_v3 (V0 : Valuation τ sig (Elt F)) :
    val2 V0 (no_index (Proc.devRef .tc main_v3)) = Spec.dstOf (V0 (Proc.devRef .tc main_arg1)) :=
  (val2_keep V0 main_v3 (by decide)).trans (val1_v3 V0)
set_option maxRecDepth 8192 in
set_option maxHeartbeats 4000000 in
/-- Segment 1: layer 1's perceptron. -/
theorem val2_v24 (V0 : Valuation τ sig (Elt F)) :
    val2 V0 (no_index (Proc.devRef .tc main_v24)) = r1 V0 := by
  unfold val2
  simp only [ops_s1]
  after_results_simp
  simp (disch := decide) only [val1_v14, val1_launch] <;> rfl
theorem val3_v1 (V0 : Valuation τ sig (Elt F)) :
    val3 V0 (no_index (Proc.devRef .tc main_v1)) = Spec.srcOf (V0 (Proc.devRef .tc main_arg1)) :=
  (val3_keep V0 main_v1 (by decide)).trans (val2_v1 V0)
theorem val3_v3 (V0 : Valuation τ sig (Elt F)) :
    val3 V0 (no_index (Proc.devRef .tc main_v3)) = Spec.dstOf (V0 (Proc.devRef .tc main_arg1)) :=
  (val3_keep V0 main_v3 (by decide)).trans (val2_v3 V0)
set_option maxRecDepth 8192 in
set_option maxHeartbeats 4000000 in
/-- Segment 2: layer 1's output, normalised by its own column statistics. -/
theorem val3_v43 (V0 : Valuation τ sig (Elt F)) :
    val3 V0 (no_index (Proc.devRef .tc main_v43)) = h1 V0 := by
  unfold val3
  simp only [ops_s2]
  after_results_simp
  simp (disch := decide) only [val2_v24, val2_launch] <;> rfl
theorem val4_v1 (V0 : Valuation τ sig (Elt F)) :
    val4 V0 (no_index (Proc.devRef .tc main_v1)) = Spec.srcOf (V0 (Proc.devRef .tc main_arg1)) :=
  (val4_keep V0 main_v1 (by decide)).trans (val3_v1 V0)
theorem val4_v3 (V0 : Valuation τ sig (Elt F)) :
    val4 V0 (no_index (Proc.devRef .tc main_v3)) = Spec.dstOf (V0 (Proc.devRef .tc main_arg1)) :=
  (val4_keep V0 main_v3 (by decide)).trans (val3_v3 V0)
theorem val4_v43 (V0 : Valuation τ sig (Elt F)) :
    val4 V0 (no_index (Proc.devRef .tc main_v43)) = h1 V0 :=
  (val4_keep V0 main_v43 (by decide)).trans (val3_v43 V0)
set_option maxRecDepth 8192 in
set_option maxHeartbeats 4000000 in
/-- Segment 3: layer 1's rows at the edges' sources. -/
theorem val4_v50 (V0 : Valuation τ sig (Elt F)) :
    val4 V0 (no_index (Proc.devRef .tc main_v50)) = g2 V0 := by
  unfold val4
  simp only [ops_s3]
  after_results_simp
  simp (disch := decide) only [val3_v1, val3_v43] <;> rfl
theorem val5_v1 (V0 : Valuation τ sig (Elt F)) :
    val5 V0 (no_index (Proc.devRef .tc main_v1)) = Spec.srcOf (V0 (Proc.devRef .tc main_arg1)) :=
  (val5_keep V0 main_v1 (by decide)).trans (val4_v1 V0)
theorem val5_v3 (V0 : Valuation τ sig (Elt F)) :
    val5 V0 (no_index (Proc.devRef .tc main_v3)) = Spec.dstOf (V0 (Proc.devRef .tc main_arg1)) :=
  (val5_keep V0 main_v3 (by decide)).trans (val4_v3 V0)
set_option maxRecDepth 8192 in
set_option maxHeartbeats 4000000 in
/-- Segment 4: layer 2's neighbour sum. -/
theorem val5_v54 (V0 : Valuation τ sig (Elt F)) :
    val5 V0 (no_index (Proc.devRef .tc main_v54)) = a2 V0 := by
  unfold val5
  simp only [ops_s4]
  after_results_simp
  simp (disch := decide) only [val4_v3, val4_v50, val4_v43] <;> rfl
theorem val6_v1 (V0 : Valuation τ sig (Elt F)) :
    val6 V0 (no_index (Proc.devRef .tc main_v1)) = Spec.srcOf (V0 (Proc.devRef .tc main_arg1)) :=
  (val6_keep V0 main_v1 (by decide)).trans (val5_v1 V0)
theorem val6_v3 (V0 : Valuation τ sig (Elt F)) :
    val6 V0 (no_index (Proc.devRef .tc main_v3)) = Spec.dstOf (V0 (Proc.devRef .tc main_arg1)) :=
  (val6_keep V0 main_v3 (by decide)).trans (val5_v3 V0)
set_option maxRecDepth 8192 in
set_option maxHeartbeats 4000000 in
/-- Segment 5: layer 2's perceptron. -/
theorem val6_v64 (V0 : Valuation τ sig (Elt F)) :
    val6 V0 (no_index (Proc.devRef .tc main_v64)) = r2 V0 := by
  unfold val6
  simp only [ops_s5]
  after_results_simp
  simp (disch := decide) only [val5_v54, val5_launch] <;> rfl
theorem val7_v1 (V0 : Valuation τ sig (Elt F)) :
    val7 V0 (no_index (Proc.devRef .tc main_v1)) = Spec.srcOf (V0 (Proc.devRef .tc main_arg1)) :=
  (val7_keep V0 main_v1 (by decide)).trans (val6_v1 V0)
theorem val7_v3 (V0 : Valuation τ sig (Elt F)) :
    val7 V0 (no_index (Proc.devRef .tc main_v3)) = Spec.dstOf (V0 (Proc.devRef .tc main_arg1)) :=
  (val7_keep V0 main_v3 (by decide)).trans (val6_v3 V0)
set_option maxRecDepth 8192 in
set_option maxHeartbeats 4000000 in
/-- Segment 6: layer 2's output. -/
theorem val7_v83 (V0 : Valuation τ sig (Elt F)) :
    val7 V0 (no_index (Proc.devRef .tc main_v83)) = h2 V0 := by
  unfold val7
  simp only [ops_s6]
  after_results_simp
  simp (disch := decide) only [val6_v64, val6_launch] <;> rfl
set_option maxRecDepth 8192 in
set_option maxHeartbeats 4000000 in
/-- Segment 7: layer 3's neighbour sum. -/
theorem val8_v94 (V0 : Valuation τ sig (Elt F)) :
    val8 V0 (no_index (Proc.devRef .tc main_v94)) = a3 V0 := by
  unfold val8
  simp only [ops_s7]
  after_results_simp
  simp (disch := decide) only [val7_v1, val7_v3, val7_v83] <;> rfl
set_option maxRecDepth 8192 in
set_option maxHeartbeats 4000000 in
/-- Segment 8: layer 3's second product. -/
theorem val9_v100 (V0 : Valuation τ sig (Elt F)) :
    val9 V0 (no_index (Proc.devRef .tc main_v100)) = d3 V0 := by
  unfold val9
  simp only [ops_s8]
  after_results_simp
  simp (disch := decide) only [val8_v94, val8_launch] <;> rfl
set_option maxRecDepth 8192 in
set_option maxHeartbeats 4000000 in
/-- Segment 8: its bias over the rows. -/
theorem val9_v102 (V0 : Valuation τ sig (Elt F)) :
    val9 V0 (no_index (Proc.devRef .tc main_v102)) = b3 V0 := by
  unfold val9
  simp only [ops_s8]
  after_results_simp
  simp (disch := decide) only [val8_launch] <;> rfl
set_option maxRecDepth 8192 in
set_option maxHeartbeats 4000000 in
/-- Segment 9: layer 3's perceptron. -/
theorem val10_v104 (V0 : Valuation τ sig (Elt F)) :
    val10 V0 (no_index (Proc.devRef .tc main_v104)) = r3 V0 := by
  unfold val10
  simp only [ops_s9]
  after_results_simp
  simp (disch := decide) only [val9_v100, val9_v102] <;> rfl
set_option maxRecDepth 8192 in
set_option maxHeartbeats 4000000 in
/-- Segment 10: layer 3's output. -/
theorem val11_v123 (V0 : Valuation τ sig (Elt F)) :
    val11 V0 (no_index (Proc.devRef .tc main_v123)) = h3 V0 := by
  unfold val11
  simp only [ops_s10]
  after_results_simp
  simp (disch := decide) only [val10_v104, val10_launch] <;> rfl
set_option maxRecDepth 8192 in
set_option maxHeartbeats 4000000 in
/-- Segment 11: the head on it, the network's output. -/
theorem val12_v132 (V0 : Valuation τ sig (Elt F)) :
    val12 V0 (no_index (Proc.devRef .tc main_v132)) = out V0 := by
  unfold val12
  simp only [ops_s11]
  after_results_simp
  simp (disch := decide) only [val11_v123, val11_launch] <;> rfl

/-- The whole line at the result buffer. -/
theorem after_ops_out (V0 : Valuation τ sig (Elt F)) : after ops V0 (Proc.devRef .tc main_v132) = out V0 := by
  rw [after_ops]; exact val12_v132 V0

/-- The whole line at a buffer it never writes. -/
theorem after_ops_launch (V0 : Valuation τ sig (Elt F)) (r : Ref sig .tc) (h : r ∉ Wc12) :
    after ops V0 (Proc.devRef .tc r) = V0 (Proc.devRef .tc r) := by
  rw [after_ops]; exact val12_launch V0 r h

/-! ## The run -/

set_option maxRecDepth 8192 in
/-- On every device, for any float values, from any memory with zero counters: every weakly fair execution of
    @main terminates with the result buffer at the specification's network of the argument arrays' launch
    contents, and every argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
        = Spec.final (m ((c.tc : Thread nD τ).loc main_arg0)) (m ((c.tc : Thread nD τ).loc main_arg1))
            (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
            (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
            (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v132).trans (after_ops_out (launchContents m c)),
      (h c main_arg0).trans (after_ops_launch (launchContents m c) main_arg0 (by decide)),
      (h c main_arg1).trans (after_ops_launch (launchContents m c) main_arg1 (by decide)),
      (h c main_arg2).trans (after_ops_launch (launchContents m c) main_arg2 (by decide)),
      (h c main_arg3).trans (after_ops_launch (launchContents m c) main_arg3 (by decide)),
      (h c main_arg4).trans (after_ops_launch (launchContents m c) main_arg4 (by decide)),
      (h c main_arg5).trans (after_ops_launch (launchContents m c) main_arg5 (by decide)),
      (h c main_arg6).trans (after_ops_launch (launchContents m c) main_arg6 (by decide)),
      (h c main_arg7).trans (after_ops_launch (launchContents m c) main_arg7 (by decide)),
      (h c main_arg8).trans (after_ops_launch (launchContents m c) main_arg8 (by decide)),
      (h c main_arg9).trans (after_ops_launch (launchContents m c) main_arg9 (by decide)),
      (h c main_arg10).trans (after_ops_launch (launchContents m c) main_arg10 (by decide)),
      (h c main_arg11).trans (after_ops_launch (launchContents m c) main_arg11 (by decide)),
      (h c main_arg12).trans (after_ops_launch (launchContents m c) main_arg12 (by decide)),
      (h c main_arg13).trans (after_ops_launch (launchContents m c) main_arg13 (by decide)),
      (h c main_arg14).trans (after_ops_launch (launchContents m c) main_arg14 (by decide)),
      (h c main_arg15).trans (after_ops_launch (launchContents m c) main_arg15 (by decide)),
      (h c main_arg16).trans (after_ops_launch (launchContents m c) main_arg16 (by decide)),
      (h c main_arg17).trans (after_ops_launch (launchContents m c) main_arg17 (by decide)),
      (h c main_arg18).trans (after_ops_launch (launchContents m c) main_arg18 (by decide)),
      (h c main_arg19).trans (after_ops_launch (launchContents m c) main_arg19 (by decide)),
      (h c main_arg20).trans (after_ops_launch (launchContents m c) main_arg20 (by decide)),
      (h c main_arg21).trans (after_ops_launch (launchContents m c) main_arg21 (by decide)),
      (h c main_arg22).trans (after_ops_launch (launchContents m c) main_arg22 (by decide)),
      (h c main_arg23).trans (after_ops_launch (launchContents m c) main_arg23 (by decide)),
      (h c main_arg24).trans (after_ops_launch (launchContents m c) main_arg24 (by decide)),
      (h c main_arg25).trans (after_ops_launch (launchContents m c) main_arg25 (by decide))⟩)
    (run_seq scopedRefs_eq scopedSems_eq defs main (fun _ => ops) main_eq (fun _ => ops_sub) m ρ)

end Cert.ReferenceIdeal.RefRun

end
-- ==== Proof.lean ====
/-
  A three-layer graph network on 100000 nodes and 1600000 edges, then a two-layer head: the kernel program against
  the plain reference, at the exact-real instance.

  Each layer adds to the node features `h` their neighbour sum `Σ_{e → i} h[src e]`, applies a two-layer perceptron
  with a rectifier after each product, and normalises every column by its mean and variance over the nodes,
  `((r - mean) · rsqrt(var + ε)) · g + β`. The kernel program does the neighbour sum and the column statistics on the
  host and everything else in seven pipelined regions over ten blocks of 10000 rows; the reference does all of it on
  the host. At the exact-real instance the two agree entry by entry:
  · a region's matrix product into a zero accumulator and the host's product are the same finite sum over the
    contraction index, a change of float format is the identity, the rectifier is `max(·, 0)` on both sides, and a
    [1,32] row broadcast over a block's rows reads the row's entry — so each region's block is the reference's layer
    function at the block's rows, and the ten blocks tile the array;
  · the kernel program keeps the reduced axis of its column statistics and reshapes its biases to rows where the
    reference broadcasts vectors: the same arrays, index by index;
  · the gather, the scatter-add and the column sums are the same host operations on both sides and are never opened.
  No law beyond regrouping finite sums is used, so the finiteness of the inputs is not needed. The kernel program's
  idealization rewrote nothing, so it is its own text read at the exact-real instance.
-/
import proofs.«163704_j39694087750181_1_alg».proof.Defs
import proofs.«163704_j39694087750181_1_alg».proof.Proof.Gen.Kernel
import proofs.«163704_j39694087750181_1_alg».proof.Proof.Gen.Kernel.Frame
import proofs.«163704_j39694087750181_1_alg».proof.Proof.Gen.KernelIdeal
import proofs.«163704_j39694087750181_1_alg».proof.Proof.Gen.KernelIdeal.Frame
import proofs.«163704_j39694087750181_1_alg».proof.Proof.Gen.ReferenceIdeal
import proofs.«163704_j39694087750181_1_alg».proof.Proof.Gen.Pre_finite_inputs
import proofs.«163704_j39694087750181_1_alg».proof.Proof.KRun
import proofs.«163704_j39694087750181_1_alg».proof.Proof.Chain4
import proofs.«163704_j39694087750181_1_alg».proof.Proof.Gaps
import proofs.«163704_j39694087750181_1_alg».proof.Proof.RefRun
import Idealize.ShloMosaic.Adequacy
import Idealize.ShloMosaic.Init

set_option maxRecDepth 16384

noncomputable section

namespace Cert.Proof

open Idealize.ShloMosaic Idealize.SL.Sem

/-- The layout facts joining the kernel program's host chains to the reference's. -/
theorem gaps : Cert.KernelIdeal.GapFacts :=
  ⟨Cert.KernelIdeal.Gaps.asRow_eq, Cert.KernelIdeal.Gaps.asRow2_eq, Cert.KernelIdeal.Gaps.srcOf_eq, Cert.KernelIdeal.Gaps.dstOf_eq,
    Cert.KernelIdeal.Gaps.aggr128_eq, Cert.KernelIdeal.Gaps.aggr32_eq, Cert.KernelIdeal.Gaps.meanRow_eq, Cert.KernelIdeal.Gaps.invRow_eq⟩

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the network's output of the launch arguments in their result buffer. -/
theorem algebraic : Cert.algebraic_KernelIdeal_ReferenceIdeal := by
  intro m ρ m' ρ' _ hagree
  refine ⟨fun c => Cert.KernelIdeal.Chain4.out m c, ?_, ?_⟩
  · exact (θ_run Cert.KernelIdeal.defs _ _).mono
      (fun _ h c => ⟨(h c).1.trans (Cert.KernelIdeal.Chain4.W20_v72 m ρ c gaps), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.RefRun.run (F := Ideal) m' ρ')
    obtain ⟨a0, a1, a2, a3, a4, a5, a6, a7, a8, a9, a10, a11, a12, a13, a14, a15, a16, a17, a18, a19, a20, a21, a22, a23, a24, a25⟩ := hagree c
    rw [a0, a1, a4, a5, a6, a7, a8, a9, a10, a11, a12, a13, a14, a15, a16, a17, a18, a19, a20, a21, a22, a23, a24, a25]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
